-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S28x16384 : Shape := ⟨2, ![28, 16384]⟩
abbrev S4x128 : Shape := ⟨2, ![4, 128]⟩
abbrev S128 : Shape := ⟨1, ![128]⟩
abbrev S5x128 : Shape := ⟨2, ![5, 128]⟩
abbrev S_ : Shape := ⟨0, ![]⟩

class Facts : Prop where
  bcast_S_S28x16384 : S_.BroadcastsInDim S28x16384 (![] : Fin 0 → Fin S28x16384.rank)
  reducesTo_S28x16384_S_d0_1 : S28x16384.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S5x128 : S_.BroadcastsInDim S5x128 (![] : Fin 0 → Fin S5x128.rank)
  reducesTo_S5x128_S_d0_1 : S5x128.ReducesTo [0, 1] S_

variable [Facts]

def fn_part1 {F : FTy → Type} [FloatOps F] (main_arg4 : FVec F S128 .f32) (main_v13 : IVec S_ 1) (main_v16 : IVec S5x128 1) : IVec S_ 1 :=
  let main_c_5 : IVec S_ 1 := constantI S_ 1 1#1
  let main_v17 : IVec S_ 1 := (fun x v => Host.reduce IntOp.andi x v reducesTo_S5x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S28x16384 .f32) (main_arg1 : FVec F S4x128 .f32) (main_arg2 : FVec F S128 .f32) (main_arg3 : FVec F S5x128 .f32) (main_arg4 : FVec F S128 .f32) : IVec S_ 1 :=
  let main_v0 : FVec F S28x16384 .f32 := Host.absf main_arg0
  let main_cst : FVec F S_ .f32 := constant S_ .f32 0x7F800000#32
  let main_v1 : FVec F S28x16384 .f32 := broadcastInDim S28x16384 ![] bcast_S_S28x16384 main_cst
  let main_v2 : IVec S28x16384 1 := cmpf .olt main_v0 main_v1
  let main_c : IVec S_ 1 := constantI S_ 1 1#1
  let main_v3 : IVec S_ 1 := (fun x v => Host.reduce IntOp.andi x v reducesTo_S28x16384_S_d0_1 h_S_) main_v2 main_c
  let main_v4 : FVec F S4x128 .f32 := Host.absf main_arg1
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S5x128 .f32 := Host.absf main_arg3
  let main_cst_4 : FVec F S_ .f32 := constant S_ .f32 0x7F800000#32
  let main_v15 : FVec F S5x128 .f32 := broadcastInDim S5x128 ![] bcast_S_S5x128 main_cst_4
  let main_v16 : IVec S5x128 1 := cmpf .olt main_v14 main_v15
  fn_part1 (F := F) main_arg4 main_v13 main_v16
-- ==== Kernel.lean ====
abbrev S28x16384 : Shape := ⟨2, ![28, 16384]⟩
abbrev S4x128 : Shape := ⟨2, ![4, 128]⟩
abbrev S128 : Shape := ⟨1, ![128]⟩
abbrev S5x128 : Shape := ⟨2, ![5, 128]⟩
abbrev S1x128 : Shape := ⟨2, ![1, 128]⟩
abbrev S16384x1792 : Shape := ⟨2, ![16384, 1792]⟩
abbrev S28x1024 : Shape := ⟨2, ![28, 1024]⟩
abbrev S1024x1792 : Shape := ⟨2, ![1024, 1792]⟩
abbrev S1x1024 : Shape := ⟨2, ![1, 1024]⟩
abbrev S42x1024 : Shape := ⟨2, ![42, 1024]⟩
abbrev S1024x28 : Shape := ⟨2, ![1024, 28]⟩
abbrev S1024x42 : Shape := ⟨2, ![1024, 42]⟩
abbrev S1024x4 : Shape := ⟨2, ![1024, 4]⟩
abbrev S1024x128 : Shape := ⟨2, ![1024, 128]⟩
abbrev S1024x1 : Shape := ⟨2, ![1024, 1]⟩
abbrev S1024x256 : Shape := ⟨2, ![1024, 256]⟩
abbrev S16384x7x256 : Shape := ⟨3, ![16384, 7, 256]⟩

abbrev nBuf : Space → Nat
  | .hbm => 10
  | .vmem => 9
  | .smem => 0
  | _ => 0

abbrev bufTy : (tb : Table) → Fin (tcTables nBuf tb) → BufTy
  | .hbm, ⟨0, _⟩ => ⟨S28x16384, .f32⟩
  | .hbm, ⟨1, _⟩ => ⟨S4x128, .f32⟩
  | .hbm, ⟨2, _⟩ => ⟨S128, .f32⟩
  | .hbm, ⟨3, _⟩ => ⟨S5x128, .f32⟩
  | .hbm, ⟨4, _⟩ => ⟨S128, .f32⟩
  | .hbm, ⟨5, _⟩ => ⟨S4x128, .f32⟩
  | .hbm, ⟨6, _⟩ => ⟨S1x128, .f32⟩
  | .hbm, ⟨7, _⟩ => ⟨S128, .f32⟩
  | .hbm, ⟨8, _⟩ => ⟨S16384x1792, .f32⟩
  | .hbm, ⟨9, _⟩ => ⟨S16384x7x256, .f32⟩
  | .local _ .vmem, ⟨0, _⟩ => ⟨S28x1024, .f32⟩
  | .local _ .vmem, ⟨1, _⟩ => ⟨S28x1024, .f32⟩
  | .local _ .vmem, ⟨2, _⟩ => ⟨S4x128, .f32⟩
  | .local _ .vmem, ⟨3, _⟩ => ⟨S128, .f32⟩
  | .local _ .vmem, ⟨4, _⟩ => ⟨S4x128, .f32⟩
  | .local _ .vmem, ⟨5, _⟩ => ⟨S128, .f32⟩
  | .local _ .vmem, ⟨6, _⟩ => ⟨S128, .f32⟩
  | .local _ .vmem, ⟨7, _⟩ => ⟨S1024x1792, .f32⟩
  | .local _ .vmem, ⟨8, _⟩ => ⟨S1024x1792, .f32⟩
  | _, _ => ⟨S28x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S28x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S5x128_S4x128_0_0 : S5x128.Slices ![0, 0] S4x128
  slices_S5x128_S1x128_4_0 : S5x128.Slices ![4, 0] S1x128
  shapeCasts_S1x128_S128 : S1x128.ShapeCasts S128
  inb_S28x1024_S28x1024_0_0 : ∀ a, (![0, 0] : Fin 2 → Nat) a + S28x1024.size a ≤ S28x1024.size a
  h_S28x1024 : 0 < S28x1024.numel
  slices_S28x1024_o0_0_S1x1024 : S28x1024.Slices ![0, 0] S1x1024
  slices_S28x1024_o4_0_S1x1024 : S28x1024.Slices ![4, 0] S1x1024
  slices_S28x1024_o8_0_S1x1024 : S28x1024.Slices ![8, 0] S1x1024
  slices_S28x1024_o12_0_S1x1024 : S28x1024.Slices ![12, 0] S1x1024
  slices_S28x1024_o16_0_S1x1024 : S28x1024.Slices ![16, 0] S1x1024
  slices_S28x1024_o20_0_S1x1024 : S28x1024.Slices ![20, 0] S1x1024
  slices_S28x1024_o24_0_S1x1024 : S28x1024.Slices ![24, 0] S1x1024
  slices_S28x1024_o1_0_S1x1024 : S28x1024.Slices ![1, 0] S1x1024
  slices_S28x1024_o5_0_S1x1024 : S28x1024.Slices ![5, 0] S1x1024
  slices_S28x1024_o9_0_S1x1024 : S28x1024.Slices ![9, 0] S1x1024
  slices_S28x1024_o13_0_S1x1024 : S28x1024.Slices ![13, 0] S1x1024
  slices_S28x1024_o17_0_S1x1024 : S28x1024.Slices ![17, 0] S1x1024
  slices_S28x1024_o21_0_S1x1024 : S28x1024.Slices ![21, 0] S1x1024
  slices_S28x1024_o25_0_S1x1024 : S28x1024.Slices ![25, 0] S1x1024
  concatenates_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S42x1024_d0 : Shape.Concatenates (S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: []) S42x1024 0
  transposes_S28x1024_p1_0_S1024x28 : S28x1024.Transposes [1, 0] S1024x28
  transposes_S42x1024_p1_0_S1024x42 : S42x1024.Transposes [1, 0] S1024x42
  inb_S4x128_S4x128_0_0 : ∀ a, (![0, 0] : Fin 2 → Nat) a + S4x128.size a ≤ S4x128.size a
  h_S4x128 : 0 < S4x128.numel
  bitsLt_bf16_f32 : FTy.bits .bf16 < FTy.bits .f32
  inb_S128_S128_0 : ∀ a, (![0] : Fin 1 → Nat) a + S128.size a ≤ S128.size a
  h_S128 : 0 < S128.numel
  shapeCasts_S4x128_S4x128 : S4x128.ShapeCasts S4x128
  shapeCasts_S128_S128 : S128.ShapeCasts S128
  slices_S1024x28_o0_0_S1024x4 : S1024x28.Slices ![0, 0] S1024x4
  shapeCasts_S128_S1x128 : S128.ShapeCasts S1x128
  broadcasts_S1x128_S1024x128 : S1x128.Broadcasts S1024x128
  slices_S1024x28_o0_4_S1024x4 : S1024x28.Slices ![0, 4] S1024x4
  slices_S1024x42_o0_0_S1024x1 : S1024x42.Slices ![0, 0] S1024x1
  broadcasts_S1024x1_S1024x128 : S1024x1.Broadcasts S1024x128
  slices_S1024x28_o0_8_S1024x4 : S1024x28.Slices ![0, 8] S1024x4
  slices_S1024x42_o0_1_S1024x1 : S1024x42.Slices ![0, 1] S1024x1
  slices_S1024x28_o0_12_S1024x4 : S1024x28.Slices ![0, 12] S1024x4
  slices_S1024x42_o0_2_S1024x1 : S1024x42.Slices ![0, 2] S1024x1
  slices_S1024x28_o0_16_S1024x4 : S1024x28.Slices ![0, 16] S1024x4
  slices_S1024x42_o0_3_S1024x1 : S1024x42.Slices ![0, 3] S1024x1
  slices_S1024x28_o0_20_S1024x4 : S1024x28.Slices ![0, 20] S1024x4
  slices_S1024x42_o0_4_S1024x1 : S1024x42.Slices ![0, 4] S1024x1
  slices_S1024x28_o0_24_S1024x4 : S1024x28.Slices ![0, 24] S1024x4
  slices_S1024x42_o0_5_S1024x1 : S1024x42.Slices ![0, 5] S1024x1
  concatenates_S1024x128_S1024x128_S1024x256_d1 : Shape.Concatenates [S1024x128, S1024x128] S1024x256 1
  inb_S1024x1792_S1024x256_0_0 : ∀ a, (![0, 0] : Fin 2 → Nat) a + S1024x256.size a ≤ S1024x1792.size a
  h_S1024x256 : 0 < S1024x256.numel
  slices_S1024x42_o0_6_S1024x1 : S1024x42.Slices ![0, 6] S1024x1
  slices_S1024x42_o0_7_S1024x1 : S1024x42.Slices ![0, 7] S1024x1
  slices_S1024x42_o0_8_S1024x1 : S1024x42.Slices ![0, 8] S1024x1
  slices_S1024x42_o0_9_S1024x1 : S1024x42.Slices ![0, 9] S1024x1
  slices_S1024x42_o0_10_S1024x1 : S1024x42.Slices ![0, 10] S1024x1
  slices_S1024x42_o0_11_S1024x1 : S1024x42.Slices ![0, 11] S1024x1
  inb_S1024x1792_S1024x256_0_256 : ∀ a, (![0, 256] : Fin 2 → Nat) a + S1024x256.size a ≤ S1024x1792.size a
  slices_S1024x42_o0_12_S1024x1 : S1024x42.Slices ![0, 12] S1024x1
  slices_S1024x42_o0_13_S1024x1 : S1024x42.Slices ![0, 13] S1024x1
  slices_S1024x42_o0_14_S1024x1 : S1024x42.Slices ![0, 14] S1024x1
  slices_S1024x42_o0_15_S1024x1 : S1024x42.Slices ![0, 15] S1024x1
  slices_S1024x42_o0_16_S1024x1 : S1024x42.Slices ![0, 16] S1024x1
  slices_S1024x42_o0_17_S1024x1 : S1024x42.Slices ![0, 17] S1024x1
  inb_S1024x1792_S1024x256_0_512 : ∀ a, (![0, 512] : Fin 2 → Nat) a + S1024x256.size a ≤ S1024x1792.size a
  slices_S1024x42_o0_18_S1024x1 : S1024x42.Slices ![0, 18] S1024x1
  slices_S1024x42_o0_19_S1024x1 : S1024x42.Slices ![0, 19] S1024x1
  slices_S1024x42_o0_20_S1024x1 : S1024x42.Slices ![0, 20] S1024x1
  slices_S1024x42_o0_21_S1024x1 : S1024x42.Slices ![0, 21] S1024x1
  slices_S1024x42_o0_22_S1024x1 : S1024x42.Slices ![0, 22] S1024x1
  slices_S1024x42_o0_23_S1024x1 : S1024x42.Slices ![0, 23] S1024x1
  inb_S1024x1792_S1024x256_0_768 : ∀ a, (![0, 768] : Fin 2 → Nat) a + S1024x256.size a ≤ S1024x1792.size a
  slices_S1024x42_o0_24_S1024x1 : S1024x42.Slices ![0, 24] S1024x1
  slices_S1024x42_o0_25_S1024x1 : S1024x42.Slices ![0, 25] S1024x1
  slices_S1024x42_o0_26_S1024x1 : S1024x42.Slices ![0, 26] S1024x1
  slices_S1024x42_o0_27_S1024x1 : S1024x42.Slices ![0, 27] S1024x1
  slices_S1024x42_o0_28_S1024x1 : S1024x42.Slices ![0, 28] S1024x1
  slices_S1024x42_o0_29_S1024x1 : S1024x42.Slices ![0, 29] S1024x1
  inb_S1024x1792_S1024x256_0_1024 : ∀ a, (![0, 1024] : Fin 2 → Nat) a + S1024x256.size a ≤ S1024x1792.size a
  slices_S1024x42_o0_30_S1024x1 : S1024x42.Slices ![0, 30] S1024x1
  slices_S1024x42_o0_31_S1024x1 : S1024x42.Slices ![0, 31] S1024x1
  slices_S1024x42_o0_32_S1024x1 : S1024x42.Slices ![0, 32] S1024x1
  slices_S1024x42_o0_33_S1024x1 : S1024x42.Slices ![0, 33] S1024x1
  slices_S1024x42_o0_34_S1024x1 : S1024x42.Slices ![0, 34] S1024x1
  slices_S1024x42_o0_35_S1024x1 : S1024x42.Slices ![0, 35] S1024x1
  inb_S1024x1792_S1024x256_0_1280 : ∀ a, (![0, 1280] : Fin 2 → Nat) a + S1024x256.size a ≤ S1024x1792.size a
  slices_S1024x42_o0_36_S1024x1 : S1024x42.Slices ![0, 36] S1024x1
  slices_S1024x42_o0_37_S1024x1 : S1024x42.Slices ![0, 37] S1024x1
  slices_S1024x42_o0_38_S1024x1 : S1024x42.Slices ![0, 38] S1024x1
  slices_S1024x42_o0_39_S1024x1 : S1024x42.Slices ![0, 39] S1024x1
  slices_S1024x42_o0_40_S1024x1 : S1024x42.Slices ![0, 40] S1024x1
  slices_S1024x42_o0_41_S1024x1 : S1024x42.Slices ![0, 41] S1024x1
  inb_S1024x1792_S1024x256_0_1536 : ∀ a, (![0, 1536] : Fin 2 → Nat) a + S1024x256.size a ≤ S1024x1792.size a
  shapeCasts_S16384x1792_S16384x7x256 : S16384x1792.ShapeCasts S16384x7x256
  dot_S1024x4_S4x128_S1024x128_1_0_0_1_n_n_wf : DotDims.WF S1024x4 S4x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S28x1024.size a ≤ S28x16384.size a
  hwx0_0 : ∀ i : grid0.Coords, EltTy.bits .f32 = 32 ∨ (Rect.block (s := S28x16384) S28x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x128.size a ≤ S4x128.size a
  hwx0_3 : ∀ i : grid0.Coords, EltTy.bits .f32 = 32 ∨ (Rect.block (s := S4x128) S4x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1792.size a ≤ S16384x1792.size a
  hwx0_6 : ∀ i : grid0.Coords, EltTy.bits .f32 = 32 ∨ (Rect.block (s := S16384x1792) S1024x1792.size (cc0_transform_6 i) (hinb0_6 i)).WholeWords (EltTy.packing .f32)

variable [Facts₀]

def dot_S1024x4_S4x128_S1024x128_1_0_0_1_n_n : DotDims S1024x4 S4x128 S1024x128 where
  lhsContracting := [1]
  rhsContracting := [0]
  lhsNonContracting := [0]
  rhsNonContracting := [1]
  lhsBatch := []
  rhsBatch := []
  wf := dot_S1024x4_S4x128_S1024x128_1_0_0_1_n_n_wf

abbrev win0_0 : Pipeline.Window sig grid0 :=
  Pipeline.Window.ofSpec (Memref.whole main_arg0) S28x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x1792.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S28x16384 : Shape := ⟨2, ![28, 16384]⟩
abbrev S4x128 : Shape := ⟨2, ![4, 128]⟩
abbrev S128 : Shape := ⟨1, ![128]⟩
abbrev S5x128 : Shape := ⟨2, ![5, 128]⟩
abbrev S16384x28 : Shape := ⟨2, ![16384, 28]⟩
abbrev S16384x7x4 : Shape := ⟨3, ![16384, 7, 4]⟩
abbrev S16384x7x128 : Shape := ⟨3, ![16384, 7, 128]⟩
abbrev S1x1x128 : Shape := ⟨3, ![1, 1, 128]⟩
abbrev S_ : Shape := ⟨0, ![]⟩
abbrev S16384x7x1x4 : Shape := ⟨4, ![16384, 7, 1, 4]⟩
abbrev S16384x1x7x4 : Shape := ⟨4, ![16384, 1, 7, 4]⟩
abbrev S16384x7x7x4 : Shape := ⟨4, ![16384, 7, 7, 4]⟩
abbrev S16384x7x7x1 : Shape := ⟨4, ![16384, 7, 7, 1]⟩
abbrev S16384x7x7 : Shape := ⟨3, ![16384, 7, 7]⟩
abbrev S16384x7x7x5 : Shape := ⟨4, ![16384, 7, 7, 5]⟩
abbrev S16384x7x7x128 : Shape := ⟨4, ![16384, 7, 7, 128]⟩
abbrev S1x1x1x128 : Shape := ⟨4, ![1, 1, 1, 128]⟩
abbrev S7x7 : Shape := ⟨2, ![7, 7]⟩
abbrev S1x7x7x1 : Shape := ⟨4, ![1, 7, 7, 1]⟩
abbrev S16384x7x256 : Shape := ⟨3, ![16384, 7, 256]⟩

abbrev nBuf : Space → Nat
  | .hbm => 52
  | .vmem => 0
  | .smem => 0
  | _ => 0

abbrev bufTy : (tb : Table) → Fin (tcTables nBuf tb) → BufTy
  | .hbm, ⟨0, _⟩ => ⟨S28x16384, .f32⟩
  | .hbm, ⟨1, _⟩ => ⟨S4x128, .f32⟩
  | .hbm, ⟨2, _⟩ => ⟨S128, .f32⟩
  | .hbm, ⟨3, _⟩ => ⟨S5x128, .f32⟩
  | .hbm, ⟨4, _⟩ => ⟨S128, .f32⟩
  | .hbm, ⟨5, _⟩ => ⟨S16384x28, .f32⟩
  | .hbm, ⟨6, _⟩ => ⟨S16384x7x4, .f32⟩
  | .hbm, ⟨7, _⟩ => ⟨S16384x7x128, .f32⟩
  | .hbm, ⟨8, _⟩ => ⟨S1x1x128, .f32⟩
  | .hbm, ⟨9, _⟩ => ⟨S16384x7x128, .f32⟩
  | .hbm, ⟨10, _⟩ => ⟨S16384x7x128, .f32⟩
  | .hbm, ⟨11, _⟩ => ⟨S_, .f32⟩
  | .hbm, ⟨12, _⟩ => ⟨S16384x7x128, .f32⟩
  | .hbm, ⟨13, _⟩ => ⟨S16384x7x128, .f32⟩
  | .hbm, ⟨14, _⟩ => ⟨S16384x7x1x4, .f32⟩
  | .hbm, ⟨15, _⟩ => ⟨S16384x1x7x4, .f32⟩
  | .hbm, ⟨16, _⟩ => ⟨S16384x7x7x4, .f32⟩
  | .hbm, ⟨17, _⟩ => ⟨S16384x7x7x4, .f32⟩
  | .hbm, ⟨18, _⟩ => ⟨S16384x7x7x4, .f32⟩
  | .hbm, ⟨19, _⟩ => ⟨S16384x7x7x1, .f32⟩
  | .hbm, ⟨20, _⟩ => ⟨S16384x7x7, .f32⟩
  | .hbm, ⟨21, _⟩ => ⟨S16384x7x7, .f32⟩
  | .hbm, ⟨22, _⟩ => ⟨S16384x7x7x1, .f32⟩
  | .hbm, ⟨23, _⟩ => ⟨S16384x7x7, .f32⟩
  | .hbm, ⟨24, _⟩ => ⟨S16384x7x7, .f32⟩
  | .hbm, ⟨25, _⟩ => ⟨S16384x7x7, .f32⟩
  | .hbm, ⟨26, _⟩ => ⟨S16384x7x7, .f32⟩
  | .hbm, ⟨27, _⟩ => ⟨S16384x7x7x1, .f32⟩
  | .hbm, ⟨28, _⟩ => ⟨S16384x7x7x5, .f32⟩
  | .hbm, ⟨29, _⟩ => ⟨S16384x7x7x128, .f32⟩
  | .hbm, ⟨30, _⟩ => ⟨S1x1x1x128, .f32⟩
  | .hbm, ⟨31, _⟩ => ⟨S16384x7x7x128, .f32⟩
  | .hbm, ⟨32, _⟩ => ⟨S16384x7x7x128, .f32⟩
  | .hbm, ⟨33, _⟩ => ⟨S_, .f32⟩
  | .hbm, ⟨34, _⟩ => ⟨S16384x7x7x128, .f32⟩
  | .hbm, ⟨35, _⟩ => ⟨S16384x7x7x128, .f32⟩
  | .hbm, ⟨36, _⟩ => ⟨S7x7, .i32⟩
  | .hbm, ⟨37, _⟩ => ⟨S7x7, .i32⟩
  | .hbm, ⟨38, _⟩ => ⟨S_, .i32⟩
  | .hbm, ⟨39, _⟩ => ⟨S7x7, .i32⟩
  | .hbm, ⟨40, _⟩ => ⟨S7x7, .i32⟩
  | .hbm, ⟨41, _⟩ => ⟨S7x7, .i1⟩
  | .hbm, ⟨42, _⟩ => ⟨S7x7, .f32⟩
  | .hbm, ⟨43, _⟩ => ⟨S_, .f32⟩
  | .hbm, ⟨44, _⟩ => ⟨S7x7, .f32⟩
  | .hbm, ⟨45, _⟩ => ⟨S7x7, .f32⟩
  | .hbm, ⟨46, _⟩ => ⟨S1x7x7x1, .f32⟩
  | .hbm, ⟨47, _⟩ => ⟨S16384x7x7x128, .f32⟩
  | .hbm, ⟨48, _⟩ => ⟨S16384x7x7x128, .f32⟩
  | .hbm, ⟨49, _⟩ => ⟨S_, .f32⟩
  | .hbm, ⟨50, _⟩ => ⟨S16384x7x128, .f32⟩
  | .hbm, ⟨51, _⟩ => ⟨S16384x7x256, .f32⟩
  | _, _ => ⟨S28x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_cst : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_call1_cst : Ref sig .tc := ⟨.hbm, 33, rfl⟩
abbrev main_call1_v0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_0 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]

class Facts₀ : Prop where
  transposes_S28x16384_S16384x28_1_0 : S28x16384.Transposes [1, 0] S16384x28
  shapeCasts_S16384x28_S16384x7x4 : S16384x28.ShapeCasts S16384x7x4
  bcast_S128_S1x1x128_2 : S128.BroadcastsInDim S1x1x128 (![2] : Fin 1 → Fin S1x1x128.rank)
  bcast_S1x1x128_S16384x7x128_0_1_2 : S1x1x128.BroadcastsInDim S16384x7x128 (![0, 1, 2] : Fin 3 → Fin S16384x7x128.rank)
  bcast_S_S16384x7x128 : S_.BroadcastsInDim S16384x7x128 (![] : Fin 0 → Fin S16384x7x128.rank)
  bcast_S16384x7x4_S16384x7x1x4_0_1_3 : S16384x7x4.BroadcastsInDim S16384x7x1x4 (![0, 1, 3] : Fin 3 → Fin S16384x7x1x4.rank)
  bcast_S16384x7x4_S16384x1x7x4_0_2_3 : S16384x7x4.BroadcastsInDim S16384x1x7x4 (![0, 2, 3] : Fin 3 → Fin S16384x1x7x4.rank)
  bcast_S16384x7x1x4_S16384x7x7x4_0_1_2_3 : S16384x7x1x4.BroadcastsInDim S16384x7x7x4 (![0, 1, 2, 3] : Fin 4 → Fin S16384x7x7x4.rank)
  bcast_S16384x1x7x4_S16384x7x7x4_0_1_2_3 : S16384x1x7x4.BroadcastsInDim S16384x7x7x4 (![0, 1, 2, 3] : Fin 4 → Fin S16384x7x7x4.rank)
  slices_S16384x7x7x4_S16384x7x7x1_0_0_0_0 : S16384x7x7x4.Slices ![0, 0, 0, 0] S16384x7x7x1
  shapeCasts_S16384x7x7x1_S16384x7x7 : S16384x7x7x1.ShapeCasts S16384x7x7
  slices_S16384x7x7x4_S16384x7x7x1_0_0_0_1 : S16384x7x7x4.Slices ![0, 0, 0, 1] S16384x7x7x1
  bcast_S16384x7x7_S16384x7x7x1_0_1_2 : S16384x7x7.BroadcastsInDim S16384x7x7x1 (![0, 1, 2] : Fin 3 → Fin S16384x7x7x1.rank)
  concatenates_S16384x7x7x4_S16384x7x7x1_S16384x7x7x5_d3 : Shape.Concatenates [S16384x7x7x4, S16384x7x7x1] S16384x7x7x5 3
  bcast_S128_S1x1x1x128_3 : S128.BroadcastsInDim S1x1x1x128 (![3] : Fin 1 → Fin S1x1x1x128.rank)
  bcast_S1x1x1x128_S16384x7x7x128_0_1_2_3 : S1x1x1x128.BroadcastsInDim S16384x7x7x128 (![0, 1, 2, 3] : Fin 4 → Fin S16384x7x7x128.rank)
  bcast_S_S16384x7x7x128 : S_.BroadcastsInDim S16384x7x7x128 (![] : Fin 0 → Fin S16384x7x7x128.rank)
  bcast_S_S7x7 : S_.BroadcastsInDim S7x7 (![] : Fin 0 → Fin S7x7.rank)
  bcast_S7x7_S1x7x7x1_1_2 : S7x7.BroadcastsInDim S1x7x7x1 (![1, 2] : Fin 2 → Fin S1x7x7x1.rank)
  bcast_S1x7x7x1_S16384x7x7x128_0_1_2_3 : S1x7x7x1.BroadcastsInDim S16384x7x7x128 (![0, 1, 2, 3] : Fin 4 → Fin S16384x7x7x128.rank)
  reducesTo_S16384x7x7x128_S16384x7x128_d2 : S16384x7x7x128.ReducesTo [2] S16384x7x128
  h_S_ : 0 < S_.numel
  concatenates_S16384x7x128_S16384x7x128_S16384x7x256_d2 : Shape.Concatenates [S16384x7x128, S16384x7x128] S16384x7x256 2
  dot_S16384x7x4_S4x128_S16384x7x128_2_0_01_1_n_n_wf : DotDims.WF S16384x7x4 S4x128 S16384x7x128 [2] [0] [0, 1] [1] [] []
  dot_S16384x7x7x5_S5x128_S16384x7x7x128_3_0_012_1_n_n_wf : DotDims.WF S16384x7x7x5 S5x128 S16384x7x7x128 [3] [0] [0, 1, 2] [1] [] []

variable [Facts₀]

def dot_S16384x7x4_S4x128_S16384x7x128_2_0_01_1_n_n : DotDims S16384x7x4 S4x128 S16384x7x128 where
  lhsContracting := [2]
  rhsContracting := [0]
  lhsNonContracting := [0, 1]
  rhsNonContracting := [1]
  lhsBatch := []
  rhsBatch := []
  wf := dot_S16384x7x4_S4x128_S16384x7x128_2_0_01_1_n_n_wf
def dot_S16384x7x7x5_S5x128_S16384x7x7x128_3_0_012_1_n_n : DotDims S16384x7x7x5 S5x128 S16384x7x7x128 where
  lhsContracting := [3]
  rhsContracting := [0]
  lhsNonContracting := [0, 1, 2]
  rhsNonContracting := [1]
  lhsBatch := []
  rhsBatch := []
  wf := dot_S16384x7x7x5_S5x128_S16384x7x7x128_3_0_012_1_n_n_wf

class Facts : Prop extends Facts₀ where

variable [Facts]
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibRow.lean ====
/-
  A vector laid out as a row.

  Casting a vector of n entries to the shape [1, n] keeps the entries in order: entry (0, j) of the row is entry j of
  the vector, because both sit at row-major position j.
-/
import Idealize.ShloMosaic.Lib.Pipeline.Value
import Idealize.ShloMosaic.Lib.ValueIdx

noncomputable section

namespace Cert.LibRow

open Idealize.ShloMosaic Idealize.ShloMosaic.ValueIdx

/-- An [n] vector cast to the row [1, n], read at (0, j), is the vector at j — for any element type and any n. -/
theorem row_apply {α : Type} {n : Nat} (v : (⟨1, ![n]⟩ : Shape).Idx → α) (h : (⟨1, ![n]⟩ : Shape).ShapeCasts ⟨2, ![1, n]⟩) (j : Fin n) :
    shapeCast (⟨2, ![1, n]⟩ : Shape) v h (ix2 (0 : Fin 1) j) = v (ix1 j) := by
  refine shapeCast_apply v h (ix2 (0 : Fin 1) j) (ix1 j) ?_
  rw [Shape.rowMajor_val_one, Shape.rowMajor_val_two]
  show j.val = (0 : Fin 1).val * n + j.val
  simp

end Cert.LibRow

end
-- ==== Proof.LibColsCut.lean ====
/-
  A stretch of columns cut from a matrix, read at coordinates.

  Cutting the columns off, off + 1, …, off + n - 1 out of an array of M rows and N columns (a unit-stride slice that keeps
  every row) gives an array of M rows and n columns whose entry (p, q) is entry (p, off + q) of the operand — for any
  extents and any element type. A dense row of several gates laid side by side is cut into its gates this way.
-/
import Idealize.ShloMosaic.Lib.Pipeline.Value
import Idealize.ShloMosaic.Lib.ValueIdx

noncomputable section

namespace Cert.LibColsCut

open Idealize.ShloMosaic Idealize.ShloMosaic.ValueIdx

/-- Entry (p, q) of the columns `off … off + n - 1` of `x` is entry (p, j) of `x` where `j = off + q`. -/
theorem slice_cols {M N n : ℕ} {α : Type} (off : ℕ) (x : (⟨2, ![M, N]⟩ : Shape).Idx → α)
    (h : (⟨2, ![M, N]⟩ : Shape).Slices ![0, off] ⟨2, ![M, n]⟩) (p : Fin M) (q : Fin n) (j : Fin N)
    (hj : j.val = off + q.val) :
    extractStridedSlice (⟨2, ![M, n]⟩ : Shape) ![0, off] x h (ix2 p q) = x (ix2 p j) :=
  extractStridedSlice_apply ![0, off] x h (ix2 p q) (ix2 p j) fun a => by
    match a with
    | ⟨0, _⟩ => show p.val = 0 + p.val; omega
    | ⟨1, _⟩ => show j.val = off + q.val; exact hj

end Cert.LibColsCut

end
-- ==== Proof.LibColsJoin.lean ====
/-
  Blocks side by side, and a row repeated over a block, read at coordinates.

  Two arrays of M rows with a and b columns joined along the columns give an array of M rows and n = a + b columns whose
  entry (p, k) is the left part's entry (p, k) for k < a and the right part's entry (p, k - a) otherwise. A row [1, n]
  repeated over M rows reads, at (p, j), the row's entry j. For any extents.
-/
import Idealize.ShloMosaic.Lib.Pipeline.Value
import Idealize.ShloMosaic.Lib.ValueIdx

noncomputable section

namespace Cert.LibColsJoin

open Idealize.ShloMosaic Idealize.ShloMosaic.ValueIdx

variable {α : Type}

/-- A row [1, n] repeated over M rows reads, at (p, j), the row's entry j (n ≠ 1: the row's second axis is a true axis). -/
theorem bcast_row {M n : ℕ} (hn : n ≠ 1) (b : (⟨2, ![1, n]⟩ : Shape).Idx → α)
    (h : (⟨2, ![1, n]⟩ : Shape).Broadcasts ⟨2, ![M, n]⟩) (p : Fin M) (j : Fin n) :
    broadcastTo ⟨2, ![M, n]⟩ b h (ix2 p j) = b (ix2 (0 : Fin 1) j) := by
  refine broadcastTo_apply b h (ix2 p j) (ix2 (0 : Fin 1) j) fun ax => ?_
  match ax with
  | ⟨0, _⟩ => show (0 : ℕ) = if (1 : ℕ) = 1 then 0 else p.val; rw [if_pos rfl]
  | ⟨1, _⟩ => show j.val = if n = 1 then 0 else j.val; rw [if_neg hn]

/-- Two blocks side by side: a column of the left part. -/
theorem cat_cols_left {M a b n : ℕ} (x : (⟨2, ![M, a]⟩ : Shape).Idx → α) (y : (⟨2, ![M, b]⟩ : Shape).Idx → α)
    (h : Shape.Concatenates [⟨2, ![M, a]⟩, ⟨2, ![M, b]⟩] ⟨2, ![M, n]⟩ 1) (p : Fin M) (k : Fin a) (k' : Fin n)
    (hk : k'.val = k.val) :
    concatenate ⟨2, ![M, n]⟩ 1 [⟨⟨2, ![M, a]⟩, x⟩, ⟨⟨2, ![M, b]⟩, y⟩] h (ix2 p k') = x (ix2 p k) := by
  refine concatenate_pair_apply_left (1 : Fin 2) x y h (ix2 p k') rfl (ix2 p k) fun b' => ?_
  match b' with
  | ⟨0, _⟩ => rfl
  | ⟨1, _⟩ => exact hk.symm

/-- Two blocks side by side: a column of the right part. -/
theorem cat_cols_right {M a b n : ℕ} (x : (⟨2, ![M, a]⟩ : Shape).Idx → α) (y : (⟨2, ![M, b]⟩ : Shape).Idx → α)
    (h : Shape.Concatenates [⟨2, ![M, a]⟩, ⟨2, ![M, b]⟩] ⟨2, ![M, n]⟩ 1) (p : Fin M) (k : Fin b) (k' : Fin n)
    (hk : k'.val = a + k.val) :
    concatenate ⟨2, ![M, n]⟩ 1 [⟨⟨2, ![M, a]⟩, x⟩, ⟨⟨2, ![M, b]⟩, y⟩] h (ix2 p k') = y (ix2 p k) := by
  refine concatenate_pair_apply_right (1 : Fin 2) x y h (ix2 p k') rfl rfl (ix2 p k) (fun b' hb => ?_) ?_
  · match b' with
    | ⟨0, _⟩ => rfl
    | ⟨1, _⟩ => exact absurd rfl hb
  · show k.val + a = k'.val
    omega

end Cert.LibColsJoin

end
-- ==== Proof.LibLayout.lean ====
/-
  Layout operations read at explicit coordinates: the forms a reduction with kept dimensions and a block with two
  leading unit axes meet.

  A vector of `a` entries cast to a column `[a, 1]` keeps entry `i` at `(i, 0)`; a column `[a, 1]` broadcast to
  `[a, b]` repeats entry `i` along row `i`; an array `[1, 1, a, b]` cast to `[a, b]`, or back, keeps entry `(i, j)`:
  in each case the two row-major positions are the same number.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Idealize.ShloMosaic.ValueIdx
-- ==== Proof.Terms.lean ====
/-
  The kernel body's arithmetic on one block of 1024 batch rows, as three functions of whole vectors and their
  values at an index on the extended reals.

  With T the block's 1024 x 28 table of entity coordinates (row r holds the seven entities of batch row r, entity n in
  columns 4n .. 4n+3) and D its 1024 x 42 table of planar distances (one column per ordered pair):
  * `propTerm`  — the rectified property layer of the entity at column offset oi;
  * `relTerm`   — the rectified relation layer of the pair (entity at oi, entity at oj) whose distance is column p of D:
                   the four coordinate differences through the first four rows of the relation weights, plus the
                   distance times the fifth row, plus the bias;
  * `entBlock`  — the entity's 256 output lanes: the property layer, then the six relation layers added up from zero.
-/
import proofs.«172666_j28845000360164_2_alg».proof.Proof.Gen.KernelIdeal.Skeleton
import proofs.«172666_j28845000360164_2_alg».proof.Proof.LibPlainDot
import proofs.«172666_j28845000360164_2_alg».proof.Proof.LibRow
import proofs.«172666_j28845000360164_2_alg».proof.Proof.LibColsCut
import proofs.«172666_j28845000360164_2_alg».proof.Proof.LibColsJoin
import proofs.«172666_j28845000360164_2_alg».proof.Proof.LibLayout
import Idealize.ShloMosaic.PureOps.Ideal.Laws
import Idealize.ShloMosaic.Lib.ValueIdx
import Idealize.ShloMosaic.Lib.Pipeline.Value

noncomputable section

namespace Cert.Enc.K

open Idealize.ShloMosaic Idealize.ShloMosaic.ValueIdx Cert.KernelIdeal Cert.KernelIdeal.Gen
open scoped BigOperators

variable {F : FTy → Type} [FloatOps F]

/-- The rectified property layer of the entity whose four coordinates start at column `oi` of `T`. -/
def propTerm (T : FVec F S1024x28 .f32) (wp : FVec F S4x128 .bf16) (bp : Vec F S128 .f32)
    (oi : Nat) (hi : S1024x28.Slices ![0, oi] S1024x4) : FVec F S1024x128 .f32 :=
  maximumf
    (addf
      (matmul dot_S1024x4_S4x128_S1024x128_1_0_0_1_n_n none
        (truncf .bf16 (extractStridedSlice S1024x4 ![0, oi] T hi) bitsLt_bf16_f32) wp (constant S1024x128 .f32 0x00000000#32))
      (broadcastTo S1024x128 (shapeCast S1x128 bp shapeCasts_S128_S1x128) broadcasts_S1x128_S1024x128))
    (broadcast S1024x128 (Scalar.ofBits .f32 0x00000000#32))

/-- The rectified relation layer of the ordered pair (entity at `oi`, entity at `oj`), its distance column `p` of `D`. -/
def relTerm (T : FVec F S1024x28 .f32) (D : FVec F S1024x42 .f32) (w4 : FVec F S4x128 .bf16) (wd : FVec F S128 .f32)
    (br : Vec F S128 .f32) (oi oj p : Nat) (hi : S1024x28.Slices ![0, oi] S1024x4) (hj : S1024x28.Slices ![0, oj] S1024x4)
    (hp : S1024x42.Slices ![0, p] S1024x1) : FVec F S1024x128 .f32 :=
  maximumf
    (addf
      (addf
        (matmul dot_S1024x4_S4x128_S1024x128_1_0_0_1_n_n none
          (truncf .bf16 (subf (extractStridedSlice S1024x4 ![0, oi] T hi) (extractStridedSlice S1024x4 ![0, oj] T hj)) bitsLt_bf16_f32)
          w4 (constant S1024x128 .f32 0x00000000#32))
        (mulf (broadcastTo S1024x128 (extractStridedSlice S1024x1 ![0, p] D hp) broadcasts_S1024x1_S1024x128)
          (broadcastTo S1024x128 (shapeCast S1x128 wd shapeCasts_S128_S1x128) broadcasts_S1x128_S1024x128)))
      (broadcastTo S1024x128 (shapeCast S1x128 br shapeCasts_S128_S1x128) broadcasts_S1x128_S1024x128))
    (broadcast S1024x128 (Scalar.ofBits .f32 0x00000000#32))

/-- Six layers added up, in order, from the zero vector. -/
def acc6 (t1 t2 t3 t4 t5 t6 : FVec F S1024x128 .f32) : FVec F S1024x128 .f32 :=
  addf (addf (addf (addf (addf (addf (broadcast S1024x128 (Scalar.ofBits .f32 0x00000000#32)) t1) t2) t3) t4) t5) t6

/-- An entity's 256 lanes: the property layer beside the summed relation layers. -/
def entBlock (pt ra : FVec F S1024x128 .f32) : FVec F S1024x256 .f32 :=
  concatenate S1024x256 1 [⟨S1024x128, pt⟩, ⟨S1024x128, ra⟩] concatenates_S1024x128_S1024x128_S1024x256_d1

/-! ## Read at an index on the extended reals -/

theorem zero_word : (Scalar.ofBits (F := Ideal) .f32 0x00000000#32 : EReal) = 0 := Ideal.ofBits_zero_f32

/-- The property layer at row `r`, lane `c`. -/
theorem propTerm_apply (T : FVec Ideal S1024x28 .f32) (wp : FVec Ideal S4x128 .bf16) (bp : Vec Ideal S128 .f32)
    (oi : Nat) (hi : S1024x28.Slices ![0, oi] S1024x4) (hoi : oi + 4 ≤ 28) (r : Fin 1024) (c : Fin 128) :
    propTerm T wp bp oi hi (ix2 r c)
      = max ((∑ d : Fin 4, T (ix2 r (⟨oi + d.val, by omega⟩ : Fin 28)) * wp (ix2 d c)) + bp (ix1 c)) 0 := by
  unfold propTerm
  rw [maximumf_apply, addf_apply, broadcast_apply, zero_word]
  unfold matmul
  rw [Cert.LibPlainDot.matmul_plain_apply dot_S1024x4_S4x128_S1024x128_1_0_0_1_n_n rfl rfl rfl rfl rfl rfl]
  rw [Cert.LibColsJoin.bcast_row (by decide) _ _ r c, Cert.LibRow.row_apply]
  congr 2
  refine Finset.sum_congr rfl fun d _ => ?_
  rw [truncf_apply, Cert.LibColsCut.slice_cols oi T hi r d (⟨oi + d.val, by omega⟩ : Fin 28) rfl]

/-- The relation layer at row `r`, lane `c`. -/
theorem relTerm_apply (T : FVec Ideal S1024x28 .f32) (D : FVec Ideal S1024x42 .f32) (w4 : FVec Ideal S4x128 .bf16)
    (wd : FVec Ideal S128 .f32) (br : Vec Ideal S128 .f32) (oi oj p : Nat) (hi : S1024x28.Slices ![0, oi] S1024x4)
    (hj : S1024x28.Slices ![0, oj] S1024x4) (hp : S1024x42.Slices ![0, p] S1024x1)
    (hoi : oi + 4 ≤ 28) (hoj : oj + 4 ≤ 28) (hpp : p < 42) (r : Fin 1024) (c : Fin 128) :
    relTerm T D w4 wd br oi oj p hi hj hp (ix2 r c)
      = max (((∑ d : Fin 4, (T (ix2 r (⟨oi + d.val, by omega⟩ : Fin 28)) - T (ix2 r (⟨oj + d.val, by omega⟩ : Fin 28))) * w4 (ix2 d c))
          + D (ix2 r (⟨p, hpp⟩ : Fin 42)) * wd (ix1 c)) + br (ix1 c)) 0 := by
  unfold relTerm
  rw [maximumf_apply, addf_apply, addf_apply, mulf_apply, broadcast_apply, zero_word]
  unfold matmul
  rw [Cert.LibPlainDot.matmul_plain_apply dot_S1024x4_S4x128_S1024x128_1_0_0_1_n_n rfl rfl rfl rfl rfl rfl]
  rw [Cert.LibColsJoin.bcast_row (by decide) _ _ r c, Cert.LibRow.row_apply,
    Cert.LibColsJoin.bcast_row (by decide) _ _ r c, Cert.LibRow.row_apply,
    broadcastTo_a1_ab_apply, Cert.LibColsCut.slice_cols p D hp r (0 : Fin 1) (⟨p, hpp⟩ : Fin 42) rfl]
  congr 3
  refine Finset.sum_congr rfl fun d _ => ?_
  rw [truncf_apply, subf_apply, Cert.LibColsCut.slice_cols oi T hi r d (⟨oi + d.val, by omega⟩ : Fin 28) rfl,
    Cert.LibColsCut.slice_cols oj T hj r d (⟨oj + d.val, by omega⟩ : Fin 28) rfl]

/-- The six layers added from zero, at an index. -/
theorem acc6_apply (t1 t2 t3 t4 t5 t6 : FVec Ideal S1024x128 .f32) (i : S1024x128.Idx) :
    acc6 t1 t2 t3 t4 t5 t6 i = (((((0 + t1 i) + t2 i) + t3 i) + t4 i) + t5 i) + t6 i := by
  unfold acc6
  rw [addf_apply, addf_apply, addf_apply, addf_apply, addf_apply, addf_apply, broadcast_apply, zero_word]

/-- The left 128 lanes of an entity's block are its property layer, -/
theorem entBlock_left {α : Type} (pt ra : S1024x128.Idx → α) (r : Fin 1024) (c : Fin 128) (c' : Fin 256) (hc : c'.val = c.val) :
    concatenate S1024x256 1 [⟨S1024x128, pt⟩, ⟨S1024x128, ra⟩] concatenates_S1024x128_S1024x128_S1024x256_d1 (ix2 r c') = pt (ix2 r c) :=
  Cert.LibColsJoin.cat_cols_left pt ra _ r c c' hc

/-- the right 128 its summed relation layers. -/
theorem entBlock_right {α : Type} (pt ra : S1024x128.Idx → α) (r : Fin 1024) (c : Fin 128) (c' : Fin 256) (hc : c'.val = 128 + c.val) :
    concatenate S1024x256 1 [⟨S1024x128, pt⟩, ⟨S1024x128, ra⟩] concatenates_S1024x128_S1024x128_S1024x256_d1 (ix2 r c') = ra (ix2 r c) :=
  Cert.LibColsJoin.cat_cols_right pt ra _ r c c' hc

end Cert.Enc.K

end
-- ==== Proof.Dist.lean ====
/-
  The block's table of planar distances. Before it transposes anything the body lays the 42 ordered pairs' first-coordinate
  differences out as the rows of one 42 x 1024 array and their second-coordinate differences as the rows of another (row p
  belongs to the p-th ordered pair (i, j), i ≠ j, in lexicographic order; a difference of rows 4i and 4j, resp. 4i+1 and
  4j+1, of the 28 x 1024 block), squares, adds, takes the square root and transposes: entry (r, p) of the result is
  √(Δ₀² + Δ₁²) for batch row r and pair p.
-/
import proofs.«172666_j28845000360164_2_alg».proof.Proof.Terms

set_option maxRecDepth 16384

noncomputable section

namespace Cert.Enc.K

open Idealize.ShloMosaic Idealize.ShloMosaic.ValueIdx Cert.KernelIdeal Cert.KernelIdeal.Gen
open scoped BigOperators

variable {F : FTy → Type} [FloatOps F]

/-- Row `a` of the block less row `b`, as a 1 x 1024 array. -/
def rowDiff (x0 : Vec F S28x1024 .f32) (a b : Nat) (ha : S28x1024.Slices ![a, 0] S1x1024) (hb : S28x1024.Slices ![b, 0] S1x1024) :
    FVec F S1x1024 .f32 :=
  subf (extractStridedSlice S1x1024 ![a, 0] x0 ha) (extractStridedSlice S1x1024 ![b, 0] x0 hb)

/-- The 42 first-coordinate differences, pair by pair. -/
def rows0 (x0 : Vec F S28x1024 .f32) : Fin 42 → FVec F S1x1024 .f32 :=
  ![rowDiff x0 0 4 slices_S28x1024_o0_0_S1x1024 slices_S28x1024_o4_0_S1x1024,
    rowDiff x0 0 8 slices_S28x1024_o0_0_S1x1024 slices_S28x1024_o8_0_S1x1024,
    rowDiff x0 0 12 slices_S28x1024_o0_0_S1x1024 slices_S28x1024_o12_0_S1x1024,
    rowDiff x0 0 16 slices_S28x1024_o0_0_S1x1024 slices_S28x1024_o16_0_S1x1024,
    rowDiff x0 0 20 slices_S28x1024_o0_0_S1x1024 slices_S28x1024_o20_0_S1x1024,
    rowDiff x0 0 24 slices_S28x1024_o0_0_S1x1024 slices_S28x1024_o24_0_S1x1024,
    rowDiff x0 4 0 slices_S28x1024_o4_0_S1x1024 slices_S28x1024_o0_0_S1x1024,
    rowDiff x0 4 8 slices_S28x1024_o4_0_S1x1024 slices_S28x1024_o8_0_S1x1024,
    rowDiff x0 4 12 slices_S28x1024_o4_0_S1x1024 slices_S28x1024_o12_0_S1x1024,
    rowDiff x0 4 16 slices_S28x1024_o4_0_S1x1024 slices_S28x1024_o16_0_S1x1024,
    rowDiff x0 4 20 slices_S28x1024_o4_0_S1x1024 slices_S28x1024_o20_0_S1x1024,
    rowDiff x0 4 24 slices_S28x1024_o4_0_S1x1024 slices_S28x1024_o24_0_S1x1024,
    rowDiff x0 8 0 slices_S28x1024_o8_0_S1x1024 slices_S28x1024_o0_0_S1x1024,
    rowDiff x0 8 4 slices_S28x1024_o8_0_S1x1024 slices_S28x1024_o4_0_S1x1024,
    rowDiff x0 8 12 slices_S28x1024_o8_0_S1x1024 slices_S28x1024_o12_0_S1x1024,
    rowDiff x0 8 16 slices_S28x1024_o8_0_S1x1024 slices_S28x1024_o16_0_S1x1024,
    rowDiff x0 8 20 slices_S28x1024_o8_0_S1x1024 slices_S28x1024_o20_0_S1x1024,
    rowDiff x0 8 24 slices_S28x1024_o8_0_S1x1024 slices_S28x1024_o24_0_S1x1024,
    rowDiff x0 12 0 slices_S28x1024_o12_0_S1x1024 slices_S28x1024_o0_0_S1x1024,
    rowDiff x0 12 4 slices_S28x1024_o12_0_S1x1024 slices_S28x1024_o4_0_S1x1024,
    rowDiff x0 12 8 slices_S28x1024_o12_0_S1x1024 slices_S28x1024_o8_0_S1x1024,
    rowDiff x0 12 16 slices_S28x1024_o12_0_S1x1024 slices_S28x1024_o16_0_S1x1024,
    rowDiff x0 12 20 slices_S28x1024_o12_0_S1x1024 slices_S28x1024_o20_0_S1x1024,
    rowDiff x0 12 24 slices_S28x1024_o12_0_S1x1024 slices_S28x1024_o24_0_S1x1024,
    rowDiff x0 16 0 slices_S28x1024_o16_0_S1x1024 slices_S28x1024_o0_0_S1x1024,
    rowDiff x0 16 4 slices_S28x1024_o16_0_S1x1024 slices_S28x1024_o4_0_S1x1024,
    rowDiff x0 16 8 slices_S28x1024_o16_0_S1x1024 slices_S28x1024_o8_0_S1x1024,
    rowDiff x0 16 12 slices_S28x1024_o16_0_S1x1024 slices_S28x1024_o12_0_S1x1024,
    rowDiff x0 16 20 slices_S28x1024_o16_0_S1x1024 slices_S28x1024_o20_0_S1x1024,
    rowDiff x0 16 24 slices_S28x1024_o16_0_S1x1024 slices_S28x1024_o24_0_S1x1024,
    rowDiff x0 20 0 slices_S28x1024_o20_0_S1x1024 slices_S28x1024_o0_0_S1x1024,
    rowDiff x0 20 4 slices_S28x1024_o20_0_S1x1024 slices_S28x1024_o4_0_S1x1024,
    rowDiff x0 20 8 slices_S28x1024_o20_0_S1x1024 slices_S28x1024_o8_0_S1x1024,
    rowDiff x0 20 12 slices_S28x1024_o20_0_S1x1024 slices_S28x1024_o12_0_S1x1024,
    rowDiff x0 20 16 slices_S28x1024_o20_0_S1x1024 slices_S28x1024_o16_0_S1x1024,
    rowDiff x0 20 24 slices_S28x1024_o20_0_S1x1024 slices_S28x1024_o24_0_S1x1024,
    rowDiff x0 24 0 slices_S28x1024_o24_0_S1x1024 slices_S28x1024_o0_0_S1x1024,
    rowDiff x0 24 4 slices_S28x1024_o24_0_S1x1024 slices_S28x1024_o4_0_S1x1024,
    rowDiff x0 24 8 slices_S28x1024_o24_0_S1x1024 slices_S28x1024_o8_0_S1x1024,
    rowDiff x0 24 12 slices_S28x1024_o24_0_S1x1024 slices_S28x1024_o12_0_S1x1024,
    rowDiff x0 24 16 slices_S28x1024_o24_0_S1x1024 slices_S28x1024_o16_0_S1x1024,
    rowDiff x0 24 20 slices_S28x1024_o24_0_S1x1024 slices_S28x1024_o20_0_S1x1024]

/-- The 42 second-coordinate differences, pair by pair. -/
def rows1 (x0 : Vec F S28x1024 .f32) : Fin 42 → FVec F S1x1024 .f32 :=
  ![rowDiff x0 1 5 slices_S28x1024_o1_0_S1x1024 slices_S28x1024_o5_0_S1x1024,
    rowDiff x0 1 9 slices_S28x1024_o1_0_S1x1024 slices_S28x1024_o9_0_S1x1024,
    rowDiff x0 1 13 slices_S28x1024_o1_0_S1x1024 slices_S28x1024_o13_0_S1x1024,
    rowDiff x0 1 17 slices_S28x1024_o1_0_S1x1024 slices_S28x1024_o17_0_S1x1024,
    rowDiff x0 1 21 slices_S28x1024_o1_0_S1x1024 slices_S28x1024_o21_0_S1x1024,
    rowDiff x0 1 25 slices_S28x1024_o1_0_S1x1024 slices_S28x1024_o25_0_S1x1024,
    rowDiff x0 5 1 slices_S28x1024_o5_0_S1x1024 slices_S28x1024_o1_0_S1x1024,
    rowDiff x0 5 9 slices_S28x1024_o5_0_S1x1024 slices_S28x1024_o9_0_S1x1024,
    rowDiff x0 5 13 slices_S28x1024_o5_0_S1x1024 slices_S28x1024_o13_0_S1x1024,
    rowDiff x0 5 17 slices_S28x1024_o5_0_S1x1024 slices_S28x1024_o17_0_S1x1024,
    rowDiff x0 5 21 slices_S28x1024_o5_0_S1x1024 slices_S28x1024_o21_0_S1x1024,
    rowDiff x0 5 25 slices_S28x1024_o5_0_S1x1024 slices_S28x1024_o25_0_S1x1024,
    rowDiff x0 9 1 slices_S28x1024_o9_0_S1x1024 slices_S28x1024_o1_0_S1x1024,
    rowDiff x0 9 5 slices_S28x1024_o9_0_S1x1024 slices_S28x1024_o5_0_S1x1024,
    rowDiff x0 9 13 slices_S28x1024_o9_0_S1x1024 slices_S28x1024_o13_0_S1x1024,
    rowDiff x0 9 17 slices_S28x1024_o9_0_S1x1024 slices_S28x1024_o17_0_S1x1024,
    rowDiff x0 9 21 slices_S28x1024_o9_0_S1x1024 slices_S28x1024_o21_0_S1x1024,
    rowDiff x0 9 25 slices_S28x1024_o9_0_S1x1024 slices_S28x1024_o25_0_S1x1024,
    rowDiff x0 13 1 slices_S28x1024_o13_0_S1x1024 slices_S28x1024_o1_0_S1x1024,
    rowDiff x0 13 5 slices_S28x1024_o13_0_S1x1024 slices_S28x1024_o5_0_S1x1024,
    rowDiff x0 13 9 slices_S28x1024_o13_0_S1x1024 slices_S28x1024_o9_0_S1x1024,
    rowDiff x0 13 17 slices_S28x1024_o13_0_S1x1024 slices_S28x1024_o17_0_S1x1024,
    rowDiff x0 13 21 slices_S28x1024_o13_0_S1x1024 slices_S28x1024_o21_0_S1x1024,
    rowDiff x0 13 25 slices_S28x1024_o13_0_S1x1024 slices_S28x1024_o25_0_S1x1024,
    rowDiff x0 17 1 slices_S28x1024_o17_0_S1x1024 slices_S28x1024_o1_0_S1x1024,
    rowDiff x0 17 5 slices_S28x1024_o17_0_S1x1024 slices_S28x1024_o5_0_S1x1024,
    rowDiff x0 17 9 slices_S28x1024_o17_0_S1x1024 slices_S28x1024_o9_0_S1x1024,
    rowDiff x0 17 13 slices_S28x1024_o17_0_S1x1024 slices_S28x1024_o13_0_S1x1024,
    rowDiff x0 17 21 slices_S28x1024_o17_0_S1x1024 slices_S28x1024_o21_0_S1x1024,
    rowDiff x0 17 25 slices_S28x1024_o17_0_S1x1024 slices_S28x1024_o25_0_S1x1024,
    rowDiff x0 21 1 slices_S28x1024_o21_0_S1x1024 slices_S28x1024_o1_0_S1x1024,
    rowDiff x0 21 5 slices_S28x1024_o21_0_S1x1024 slices_S28x1024_o5_0_S1x1024,
    rowDiff x0 21 9 slices_S28x1024_o21_0_S1x1024 slices_S28x1024_o9_0_S1x1024,
    rowDiff x0 21 13 slices_S28x1024_o21_0_S1x1024 slices_S28x1024_o13_0_S1x1024,
    rowDiff x0 21 17 slices_S28x1024_o21_0_S1x1024 slices_S28x1024_o17_0_S1x1024,
    rowDiff x0 21 25 slices_S28x1024_o21_0_S1x1024 slices_S28x1024_o25_0_S1x1024,
    rowDiff x0 25 1 slices_S28x1024_o25_0_S1x1024 slices_S28x1024_o1_0_S1x1024,
    rowDiff x0 25 5 slices_S28x1024_o25_0_S1x1024 slices_S28x1024_o5_0_S1x1024,
    rowDiff x0 25 9 slices_S28x1024_o25_0_S1x1024 slices_S28x1024_o9_0_S1x1024,
    rowDiff x0 25 13 slices_S28x1024_o25_0_S1x1024 slices_S28x1024_o13_0_S1x1024,
    rowDiff x0 25 17 slices_S28x1024_o25_0_S1x1024 slices_S28x1024_o17_0_S1x1024,
    rowDiff x0 25 21 slices_S28x1024_o25_0_S1x1024 slices_S28x1024_o21_0_S1x1024]

/-- The table of distances as the body computes it from the block. -/
def Dist (x0 : Vec F S28x1024 .f32) : FVec F S1024x42 .f32 :=
  k0_pay89 x0 (k0_pay2 x0) (k0_pay3 x0) (k0_pay4 x0) (k0_pay5 x0) (k0_pay6 x0) (k0_pay7 x0) (k0_pay8 x0) (k0_pay9 x0) (k0_pay10 x0) (k0_pay11 x0) (k0_pay12 x0) (k0_pay13 x0) (k0_pay14 x0) (k0_pay15 x0) (k0_pay16 x0) (k0_pay17 x0) (k0_pay18 x0) (k0_pay19 x0) (k0_pay22 (k0_pay20 x0) (k0_pay21 x0)) (k0_pay23 x0) (k0_pay24 x0) (k0_pay25 x0) (k0_pay26 x0) (k0_pay27 x0) (k0_pay28 x0) (k0_pay29 x0) (k0_pay30 x0) (k0_pay31 x0) (k0_pay32 x0) (k0_pay33 x0) (k0_pay34 x0) (k0_pay35 x0) (k0_pay36 x0) (k0_pay37 x0) (k0_pay38 x0) (k0_pay39 x0) (k0_pay40 x0) (k0_pay41 x0) (k0_pay44 (k0_pay42 x0) (k0_pay43 x0)) (k0_pay45 x0) (k0_pay46 x0) (k0_pay47 x0) (k0_pay48 x0) (k0_pay49 x0) (k0_pay50 x0) (k0_pay51 x0) (k0_pay52 x0) (k0_pay53 x0) (k0_pay54 x0) (k0_pay55 x0) (k0_pay56 x0) (k0_pay57 x0) (k0_pay58 x0) (k0_pay59 x0) (k0_pay60 x0) (k0_pay61 x0) (k0_pay62 x0) (k0_pay63 x0) (k0_pay66 (k0_pay64 x0) (k0_pay65 x0)) (k0_pay67 x0) (k0_pay68 x0) (k0_pay69 x0) (k0_pay70 x0) (k0_pay71 x0) (k0_pay72 x0) (k0_pay73 x0) (k0_pay74 x0) (k0_pay75 x0) (k0_pay76 x0) (k0_pay77 x0) (k0_pay78 x0) (k0_pay79 x0) (k0_pay80 x0) (k0_pay81 x0) (k0_pay82 x0) (k0_pay83 x0) (k0_pay84 x0) (k0_pay85 x0) (k0_pay86 x0) (k0_pay87 x0)

/-- 42 rows of one shape stacked: row `p` of the stack is the `p`-th array's only row. -/
theorem cat42 {α : Type} (v : Fin 42 → (S1x1024.Idx → α))
    (h : Shape.Concatenates ((List.ofFn fun n : Fin 42 => (⟨S1x1024, v n⟩ : (s : Shape) × (s.Idx → α))).map (·.1)) S42x1024 0)
    (p : Fin 42) (r : Fin 1024) :
    concatenate S42x1024 0 (List.ofFn fun n : Fin 42 => (⟨S1x1024, v n⟩ : (s : Shape) × (s.Idx → α))) h (ix2 p r) = v p (ix2 (0 : Fin 1) r) :=
  concatenate_ofFn_unit_apply (t := S42x1024) (s₁ := S1x1024) (0 : Fin 2) v h rfl rfl (ix2 p r) p rfl (ix2 (0 : Fin 1) r)
    (fun b hb => match b with
      | ⟨0, _⟩ => absurd rfl hb
      | ⟨1, _⟩ => rfl)

/-- The body's table is the transposed root of the two stacks' squares added. -/
theorem Dist_eq (x0 : Vec F S28x1024 .f32) :
    Dist x0 = transpose S1024x42 [1, 0]
      (sqrt (addf
        (mulf (concatenate S42x1024 0 (List.ofFn fun n : Fin 42 => (⟨S1x1024, rows0 x0 n⟩ : (s : Shape) × (s.Idx → F .f32))) concatenates_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S42x1024_d0)
              (concatenate S42x1024 0 (List.ofFn fun n : Fin 42 => (⟨S1x1024, rows0 x0 n⟩ : (s : Shape) × (s.Idx → F .f32))) concatenates_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S42x1024_d0))
        (mulf (concatenate S42x1024 0 (List.ofFn fun n : Fin 42 => (⟨S1x1024, rows1 x0 n⟩ : (s : Shape) × (s.Idx → F .f32))) concatenates_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S42x1024_d0)
              (concatenate S42x1024 0 (List.ofFn fun n : Fin 42 => (⟨S1x1024, rows1 x0 n⟩ : (s : Shape) × (s.Idx → F .f32))) concatenates_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S42x1024_d0))))
      transposes_S42x1024_p1_0_S1024x42 := rfl

/-- Entry (r, p) of the table: the root of the two squared differences of pair `p` at batch row `r`. -/
theorem Dist_apply (x0 : Vec Ideal S28x1024 .f32) (r : Fin 1024) (p : Fin 42) :
    Dist x0 (ix2 r p) = Ideal.sqrt (rows0 x0 p (ix2 (0 : Fin 1) r) * rows0 x0 p (ix2 (0 : Fin 1) r)
      + rows1 x0 p (ix2 (0 : Fin 1) r) * rows1 x0 p (ix2 (0 : Fin 1) r)) := by
  rw [Dist_eq]
  rw [transpose_apply [1, 0] _ transposes_S42x1024_p1_0_S1024x42 (ix2 r p) (ix2 p r) (fun b => match b with
    | ⟨0, _⟩ => rfl
    | ⟨1, _⟩ => rfl)]
  show Ideal.sqrt (_ * _ + _ * _) = _
  have e0 := cat42 (rows0 x0) concatenates_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S42x1024_d0 p r
  have e1 := cat42 (rows1 x0) concatenates_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S42x1024_d0 p r
  exact congrArg Ideal.sqrt (congrArg₂ (· + ·) (congrArg₂ (· * ·) e0 e0) (congrArg₂ (· * ·) e1 e1))

/-- A difference of two rows of the block at column `r`. -/
theorem rowDiff_apply (x0 : Vec Ideal S28x1024 .f32) (a b : Nat) (ha : S28x1024.Slices ![a, 0] S1x1024) (hb : S28x1024.Slices ![b, 0] S1x1024)
    (hla : a < 28) (hlb : b < 28) (r : Fin 1024) :
    rowDiff x0 a b ha hb (ix2 (0 : Fin 1) r) = x0 (ix2 (⟨a, hla⟩ : Fin 28) r) - x0 (ix2 (⟨b, hlb⟩ : Fin 28) r) := by
  unfold rowDiff
  rw [subf_apply]
  rw [extractStridedSlice_apply ![a, 0] x0 ha (ix2 (0 : Fin 1) r) (ix2 (⟨a, hla⟩ : Fin 28) r) (fun d => by
      match d with
      | ⟨0, _⟩ => show a = a + 0; omega
      | ⟨1, _⟩ => show r.val = 0 + r.val; omega),
    extractStridedSlice_apply ![b, 0] x0 hb (ix2 (0 : Fin 1) r) (ix2 (⟨b, hlb⟩ : Fin 28) r) (fun d => by
      match d with
      | ⟨0, _⟩ => show b = b + 0; omega
      | ⟨1, _⟩ => show r.val = 0 + r.val; omega)]

/-- The planar distance between the entities whose coordinates start at rows `a` and `b` of the block, at column `r`. -/
def dval (x0 : Vec Ideal S28x1024 .f32) (r : Fin 1024) (a b : Nat) (ha : a + 1 < 28) (hb : b + 1 < 28) : EReal :=
  Ideal.sqrt ((x0 (ix2 (⟨a, by omega⟩ : Fin 28) r) - x0 (ix2 (⟨b, by omega⟩ : Fin 28) r)) * (x0 (ix2 (⟨a, by omega⟩ : Fin 28) r) - x0 (ix2 (⟨b, by omega⟩ : Fin 28) r))
    + (x0 (ix2 (⟨a + 1, ha⟩ : Fin 28) r) - x0 (ix2 (⟨b + 1, hb⟩ : Fin 28) r)) * (x0 (ix2 (⟨a + 1, ha⟩ : Fin 28) r) - x0 (ix2 (⟨b + 1, hb⟩ : Fin 28) r)))

/-! ## The 42 columns, one by one -/

theorem Dist_at_0 (x0 : Vec Ideal S28x1024 .f32) (r : Fin 1024) :
    Dist x0 (ix2 r (⟨0, by decide⟩ : Fin 42)) = dval x0 r 0 4 (by decide) (by decide) :=
  (Dist_apply x0 r _).trans (by
    show Ideal.sqrt (rowDiff x0 0 4 slices_S28x1024_o0_0_S1x1024 slices_S28x1024_o4_0_S1x1024 (ix2 (0 : Fin 1) r) * rowDiff x0 0 4 slices_S28x1024_o0_0_S1x1024 slices_S28x1024_o4_0_S1x1024 (ix2 (0 : Fin 1) r)
      + rowDiff x0 1 5 slices_S28x1024_o1_0_S1x1024 slices_S28x1024_o5_0_S1x1024 (ix2 (0 : Fin 1) r) * rowDiff x0 1 5 slices_S28x1024_o1_0_S1x1024 slices_S28x1024_o5_0_S1x1024 (ix2 (0 : Fin 1) r)) = _
    rw [rowDiff_apply x0 0 4 _ _ (by decide) (by decide), rowDiff_apply x0 1 5 _ _ (by decide) (by decide)]
    rfl)

theorem Dist_at_1 (x0 : Vec Ideal S28x1024 .f32) (r : Fin 1024) :
    Dist x0 (ix2 r (⟨1, by decide⟩ : Fin 42)) = dval x0 r 0 8 (by decide) (by decide) :=
  (Dist_apply x0 r _).trans (by
    show Ideal.sqrt (rowDiff x0 0 8 slices_S28x1024_o0_0_S1x1024 slices_S28x1024_o8_0_S1x1024 (ix2 (0 : Fin 1) r) * rowDiff x0 0 8 slices_S28x1024_o0_0_S1x1024 slices_S28x1024_o8_0_S1x1024 (ix2 (0 : Fin 1) r)
      + rowDiff x0 1 9 slices_S28x1024_o1_0_S1x1024 slices_S28x1024_o9_0_S1x1024 (ix2 (0 : Fin 1) r) * rowDiff x0 1 9 slices_S28x1024_o1_0_S1x1024 slices_S28x1024_o9_0_S1x1024 (ix2 (0 : Fin 1) r)) = _
    rw [rowDiff_apply x0 0 8 _ _ (by decide) (by decide), rowDiff_apply x0 1 9 _ _ (by decide) (by decide)]
    rfl)

theorem Dist_at_2 (x0 : Vec Ideal S28x1024 .f32) (r : Fin 1024) :
    Dist x0 (ix2 r (⟨2, by decide⟩ : Fin 42)) = dval x0 r 0 12 (by decide) (by decide) :=
  (Dist_apply x0 r _).trans (by
    show Ideal.sqrt (rowDiff x0 0 12 slices_S28x1024_o0_0_S1x1024 slices_S28x1024_o12_0_S1x1024 (ix2 (0 : Fin 1) r) * rowDiff x0 0 12 slices_S28x1024_o0_0_S1x1024 slices_S28x1024_o12_0_S1x1024 (ix2 (0 : Fin 1) r)
      + rowDiff x0 1 13 slices_S28x1024_o1_0_S1x1024 slices_S28x1024_o13_0_S1x1024 (ix2 (0 : Fin 1) r) * rowDiff x0 1 13 slices_S28x1024_o1_0_S1x1024 slices_S28x1024_o13_0_S1x1024 (ix2 (0 : Fin 1) r)) = _
    rw [rowDiff_apply x0 0 12 _ _ (by decide) (by decide), rowDiff_apply x0 1 13 _ _ (by decide) (by decide)]
    rfl)

theorem Dist_at_3 (x0 : Vec Ideal S28x1024 .f32) (r : Fin 1024) :
    Dist x0 (ix2 r (⟨3, by decide⟩ : Fin 42)) = dval x0 r 0 16 (by decide) (by decide) :=
  (Dist_apply x0 r _).trans (by
    show Ideal.sqrt (rowDiff x0 0 16 slices_S28x1024_o0_0_S1x1024 slices_S28x1024_o16_0_S1x1024 (ix2 (0 : Fin 1) r) * rowDiff x0 0 16 slices_S28x1024_o0_0_S1x1024 slices_S28x1024_o16_0_S1x1024 (ix2 (0 : Fin 1) r)
      + rowDiff x0 1 17 slices_S28x1024_o1_0_S1x1024 slices_S28x1024_o17_0_S1x1024 (ix2 (0 : Fin 1) r) * rowDiff x0 1 17 slices_S28x1024_o1_0_S1x1024 slices_S28x1024_o17_0_S1x1024 (ix2 (0 : Fin 1) r)) = _
    rw [rowDiff_apply x0 0 16 _ _ (by decide) (by decide), rowDiff_apply x0 1 17 _ _ (by decide) (by decide)]
    rfl)

theorem Dist_at_4 (x0 : Vec Ideal S28x1024 .f32) (r : Fin 1024) :
    Dist x0 (ix2 r (⟨4, by decide⟩ : Fin 42)) = dval x0 r 0 20 (by decide) (by decide) :=
  (Dist_apply x0 r _).trans (by
    show Ideal.sqrt (rowDiff x0 0 20 slices_S28x1024_o0_0_S1x1024 slices_S28x1024_o20_0_S1x1024 (ix2 (0 : Fin 1) r) * rowDiff x0 0 20 slices_S28x1024_o0_0_S1x1024 slices_S28x1024_o20_0_S1x1024 (ix2 (0 : Fin 1) r)
      + rowDiff x0 1 21 slices_S28x1024_o1_0_S1x1024 slices_S28x1024_o21_0_S1x1024 (ix2 (0 : Fin 1) r) * rowDiff x0 1 21 slices_S28x1024_o1_0_S1x1024 slices_S28x1024_o21_0_S1x1024 (ix2 (0 : Fin 1) r)) = _
    rw [rowDiff_apply x0 0 20 _ _ (by decide) (by decide), rowDiff_apply x0 1 21 _ _ (by decide) (by decide)]
    rfl)

theorem Dist_at_5 (x0 : Vec Ideal S28x1024 .f32) (r : Fin 1024) :
    Dist x0 (ix2 r (⟨5, by decide⟩ : Fin 42)) = dval x0 r 0 24 (by decide) (by decide) :=
  (Dist_apply x0 r _).trans (by
    show Ideal.sqrt (rowDiff x0 0 24 slices_S28x1024_o0_0_S1x1024 slices_S28x1024_o24_0_S1x1024 (ix2 (0 : Fin 1) r) * rowDiff x0 0 24 slices_S28x1024_o0_0_S1x1024 slices_S28x1024_o24_0_S1x1024 (ix2 (0 : Fin 1) r)
      + rowDiff x0 1 25 slices_S28x1024_o1_0_S1x1024 slices_S28x1024_o25_0_S1x1024 (ix2 (0 : Fin 1) r) * rowDiff x0 1 25 slices_S28x1024_o1_0_S1x1024 slices_S28x1024_o25_0_S1x1024 (ix2 (0 : Fin 1) r)) = _
    rw [rowDiff_apply x0 0 24 _ _ (by decide) (by decide), rowDiff_apply x0 1 25 _ _ (by decide) (by decide)]
    rfl)

theorem Dist_at_6 (x0 : Vec Ideal S28x1024 .f32) (r : Fin 1024) :
    Dist x0 (ix2 r (⟨6, by decide⟩ : Fin 42)) = dval x0 r 4 0 (by decide) (by decide) :=
  (Dist_apply x0 r _).trans (by
    show Ideal.sqrt (rowDiff x0 4 0 slices_S28x1024_o4_0_S1x1024 slices_S28x1024_o0_0_S1x1024 (ix2 (0 : Fin 1) r) * rowDiff x0 4 0 slices_S28x1024_o4_0_S1x1024 slices_S28x1024_o0_0_S1x1024 (ix2 (0 : Fin 1) r)
      + rowDiff x0 5 1 slices_S28x1024_o5_0_S1x1024 slices_S28x1024_o1_0_S1x1024 (ix2 (0 : Fin 1) r) * rowDiff x0 5 1 slices_S28x1024_o5_0_S1x1024 slices_S28x1024_o1_0_S1x1024 (ix2 (0 : Fin 1) r)) = _
    rw [rowDiff_apply x0 4 0 _ _ (by decide) (by decide), rowDiff_apply x0 5 1 _ _ (by decide) (by decide)]
    rfl)

theorem Dist_at_7 (x0 : Vec Ideal S28x1024 .f32) (r : Fin 1024) :
    Dist x0 (ix2 r (⟨7, by decide⟩ : Fin 42)) = dval x0 r 4 8 (by decide) (by decide) :=
  (Dist_apply x0 r _).trans (by
    show Ideal.sqrt (rowDiff x0 4 8 slices_S28x1024_o4_0_S1x1024 slices_S28x1024_o8_0_S1x1024 (ix2 (0 : Fin 1) r) * rowDiff x0 4 8 slices_S28x1024_o4_0_S1x1024 slices_S28x1024_o8_0_S1x1024 (ix2 (0 : Fin 1) r)
      + rowDiff x0 5 9 slices_S28x1024_o5_0_S1x1024 slices_S28x1024_o9_0_S1x1024 (ix2 (0 : Fin 1) r) * rowDiff x0 5 9 slices_S28x1024_o5_0_S1x1024 slices_S28x1024_o9_0_S1x1024 (ix2 (0 : Fin 1) r)) = _
    rw [rowDiff_apply x0 4 8 _ _ (by decide) (by decide), rowDiff_apply x0 5 9 _ _ (by decide) (by decide)]
    rfl)

theorem Dist_at_8 (x0 : Vec Ideal S28x1024 .f32) (r : Fin 1024) :
    Dist x0 (ix2 r (⟨8, by decide⟩ : Fin 42)) = dval x0 r 4 12 (by decide) (by decide) :=
  (Dist_apply x0 r _).trans (by
    show Ideal.sqrt (rowDiff x0 4 12 slices_S28x1024_o4_0_S1x1024 slices_S28x1024_o12_0_S1x1024 (ix2 (0 : Fin 1) r) * rowDiff x0 4 12 slices_S28x1024_o4_0_S1x1024 slices_S28x1024_o12_0_S1x1024 (ix2 (0 : Fin 1) r)
      + rowDiff x0 5 13 slices_S28x1024_o5_0_S1x1024 slices_S28x1024_o13_0_S1x1024 (ix2 (0 : Fin 1) r) * rowDiff x0 5 13 slices_S28x1024_o5_0_S1x1024 slices_S28x1024_o13_0_S1x1024 (ix2 (0 : Fin 1) r)) = _
    rw [rowDiff_apply x0 4 12 _ _ (by decide) (by decide), rowDiff_apply x0 5 13 _ _ (by decide) (by decide)]
    rfl)

theorem Dist_at_9 (x0 : Vec Ideal S28x1024 .f32) (r : Fin 1024) :
    Dist x0 (ix2 r (⟨9, by decide⟩ : Fin 42)) = dval x0 r 4 16 (by decide) (by decide) :=
  (Dist_apply x0 r _).trans (by
    show Ideal.sqrt (rowDiff x0 4 16 slices_S28x1024_o4_0_S1x1024 slices_S28x1024_o16_0_S1x1024 (ix2 (0 : Fin 1) r) * rowDiff x0 4 16 slices_S28x1024_o4_0_S1x1024 slices_S28x1024_o16_0_S1x1024 (ix2 (0 : Fin 1) r)
      + rowDiff x0 5 17 slices_S28x1024_o5_0_S1x1024 slices_S28x1024_o17_0_S1x1024 (ix2 (0 : Fin 1) r) * rowDiff x0 5 17 slices_S28x1024_o5_0_S1x1024 slices_S28x1024_o17_0_S1x1024 (ix2 (0 : Fin 1) r)) = _
    rw [rowDiff_apply x0 4 16 _ _ (by decide) (by decide), rowDiff_apply x0 5 17 _ _ (by decide) (by decide)]
    rfl)

theorem Dist_at_10 (x0 : Vec Ideal S28x1024 .f32) (r : Fin 1024) :
    Dist x0 (ix2 r (⟨10, by decide⟩ : Fin 42)) = dval x0 r 4 20 (by decide) (by decide) :=
  (Dist_apply x0 r _).trans (by
    show Ideal.sqrt (rowDiff x0 4 20 slices_S28x1024_o4_0_S1x1024 slices_S28x1024_o20_0_S1x1024 (ix2 (0 : Fin 1) r) * rowDiff x0 4 20 slices_S28x1024_o4_0_S1x1024 slices_S28x1024_o20_0_S1x1024 (ix2 (0 : Fin 1) r)
      + rowDiff x0 5 21 slices_S28x1024_o5_0_S1x1024 slices_S28x1024_o21_0_S1x1024 (ix2 (0 : Fin 1) r) * rowDiff x0 5 21 slices_S28x1024_o5_0_S1x1024 slices_S28x1024_o21_0_S1x1024 (ix2 (0 : Fin 1) r)) = _
    rw [rowDiff_apply x0 4 20 _ _ (by decide) (by decide), rowDiff_apply x0 5 21 _ _ (by decide) (by decide)]
    rfl)

theorem Dist_at_11 (x0 : Vec Ideal S28x1024 .f32) (r : Fin 1024) :
    Dist x0 (ix2 r (⟨11, by decide⟩ : Fin 42)) = dval x0 r 4 24 (by decide) (by decide) :=
  (Dist_apply x0 r _).trans (by
    show Ideal.sqrt (rowDiff x0 4 24 slices_S28x1024_o4_0_S1x1024 slices_S28x1024_o24_0_S1x1024 (ix2 (0 : Fin 1) r) * rowDiff x0 4 24 slices_S28x1024_o4_0_S1x1024 slices_S28x1024_o24_0_S1x1024 (ix2 (0 : Fin 1) r)
      + rowDiff x0 5 25 slices_S28x1024_o5_0_S1x1024 slices_S28x1024_o25_0_S1x1024 (ix2 (0 : Fin 1) r) * rowDiff x0 5 25 slices_S28x1024_o5_0_S1x1024 slices_S28x1024_o25_0_S1x1024 (ix2 (0 : Fin 1) r)) = _
    rw [rowDiff_apply x0 4 24 _ _ (by decide) (by decide), rowDiff_apply x0 5 25 _ _ (by decide) (by decide)]
    rfl)

theorem Dist_at_12 (x0 : Vec Ideal S28x1024 .f32) (r : Fin 1024) :
    Dist x0 (ix2 r (⟨12, by decide⟩ : Fin 42)) = dval x0 r 8 0 (by decide) (by decide) :=
  (Dist_apply x0 r _).trans (by
    show Ideal.sqrt (rowDiff x0 8 0 slices_S28x1024_o8_0_S1x1024 slices_S28x1024_o0_0_S1x1024 (ix2 (0 : Fin 1) r) * rowDiff x0 8 0 slices_S28x1024_o8_0_S1x1024 slices_S28x1024_o0_0_S1x1024 (ix2 (0 : Fin 1) r)
      + rowDiff x0 9 1 slices_S28x1024_o9_0_S1x1024 slices_S28x1024_o1_0_S1x1024 (ix2 (0 : Fin 1) r) * rowDiff x0 9 1 slices_S28x1024_o9_0_S1x1024 slices_S28x1024_o1_0_S1x1024 (ix2 (0 : Fin 1) r)) = _
    rw [rowDiff_apply x0 8 0 _ _ (by decide) (by decide), rowDiff_apply x0 9 1 _ _ (by decide) (by decide)]
    rfl)

theorem Dist_at_13 (x0 : Vec Ideal S28x1024 .f32) (r : Fin 1024) :
    Dist x0 (ix2 r (⟨13, by decide⟩ : Fin 42)) = dval x0 r 8 4 (by decide) (by decide) :=
  (Dist_apply x0 r _).trans (by
    show Ideal.sqrt (rowDiff x0 8 4 slices_S28x1024_o8_0_S1x1024 slices_S28x1024_o4_0_S1x1024 (ix2 (0 : Fin 1) r) * rowDiff x0 8 4 slices_S28x1024_o8_0_S1x1024 slices_S28x1024_o4_0_S1x1024 (ix2 (0 : Fin 1) r)
      + rowDiff x0 9 5 slices_S28x1024_o9_0_S1x1024 slices_S28x1024_o5_0_S1x1024 (ix2 (0 : Fin 1) r) * rowDiff x0 9 5 slices_S28x1024_o9_0_S1x1024 slices_S28x1024_o5_0_S1x1024 (ix2 (0 : Fin 1) r)) = _
    rw [rowDiff_apply x0 8 4 _ _ (by decide) (by decide), rowDiff_apply x0 9 5 _ _ (by decide) (by decide)]
    rfl)

theorem Dist_at_14 (x0 : Vec Ideal S28x1024 .f32) (r : Fin 1024) :
    Dist x0 (ix2 r (⟨14, by decide⟩ : Fin 42)) = dval x0 r 8 12 (by decide) (by decide) :=
  (Dist_apply x0 r _).trans (by
    show Ideal.sqrt (rowDiff x0 8 12 slices_S28x1024_o8_0_S1x1024 slices_S28x1024_o12_0_S1x1024 (ix2 (0 : Fin 1) r) * rowDiff x0 8 12 slices_S28x1024_o8_0_S1x1024 slices_S28x1024_o12_0_S1x1024 (ix2 (0 : Fin 1) r)
      + rowDiff x0 9 13 slices_S28x1024_o9_0_S1x1024 slices_S28x1024_o13_0_S1x1024 (ix2 (0 : Fin 1) r) * rowDiff x0 9 13 slices_S28x1024_o9_0_S1x1024 slices_S28x1024_o13_0_S1x1024 (ix2 (0 : Fin 1) r)) = _
    rw [rowDiff_apply x0 8 12 _ _ (by decide) (by decide), rowDiff_apply x0 9 13 _ _ (by decide) (by decide)]
    rfl)

theorem Dist_at_15 (x0 : Vec Ideal S28x1024 .f32) (r : Fin 1024) :
    Dist x0 (ix2 r (⟨15, by decide⟩ : Fin 42)) = dval x0 r 8 16 (by decide) (by decide) :=
  (Dist_apply x0 r _).trans (by
    show Ideal.sqrt (rowDiff x0 8 16 slices_S28x1024_o8_0_S1x1024 slices_S28x1024_o16_0_S1x1024 (ix2 (0 : Fin 1) r) * rowDiff x0 8 16 slices_S28x1024_o8_0_S1x1024 slices_S28x1024_o16_0_S1x1024 (ix2 (0 : Fin 1) r)
      + rowDiff x0 9 17 slices_S28x1024_o9_0_S1x1024 slices_S28x1024_o17_0_S1x1024 (ix2 (0 : Fin 1) r) * rowDiff x0 9 17 slices_S28x1024_o9_0_S1x1024 slices_S28x1024_o17_0_S1x1024 (ix2 (0 : Fin 1) r)) = _
    rw [rowDiff_apply x0 8 16 _ _ (by decide) (by decide), rowDiff_apply x0 9 17 _ _ (by decide) (by decide)]
    rfl)

theorem Dist_at_16 (x0 : Vec Ideal S28x1024 .f32) (r : Fin 1024) :
    Dist x0 (ix2 r (⟨16, by decide⟩ : Fin 42)) = dval x0 r 8 20 (by decide) (by decide) :=
  (Dist_apply x0 r _).trans (by
    show Ideal.sqrt (rowDiff x0 8 20 slices_S28x1024_o8_0_S1x1024 slices_S28x1024_o20_0_S1x1024 (ix2 (0 : Fin 1) r) * rowDiff x0 8 20 slices_S28x1024_o8_0_S1x1024 slices_S28x1024_o20_0_S1x1024 (ix2 (0 : Fin 1) r)
      + rowDiff x0 9 21 slices_S28x1024_o9_0_S1x1024 slices_S28x1024_o21_0_S1x1024 (ix2 (0 : Fin 1) r) * rowDiff x0 9 21 slices_S28x1024_o9_0_S1x1024 slices_S28x1024_o21_0_S1x1024 (ix2 (0 : Fin 1) r)) = _
    rw [rowDiff_apply x0 8 20 _ _ (by decide) (by decide), rowDiff_apply x0 9 21 _ _ (by decide) (by decide)]
    rfl)

theorem Dist_at_17 (x0 : Vec Ideal S28x1024 .f32) (r : Fin 1024) :
    Dist x0 (ix2 r (⟨17, by decide⟩ : Fin 42)) = dval x0 r 8 24 (by decide) (by decide) :=
  (Dist_apply x0 r _).trans (by
    show Ideal.sqrt (rowDiff x0 8 24 slices_S28x1024_o8_0_S1x1024 slices_S28x1024_o24_0_S1x1024 (ix2 (0 : Fin 1) r) * rowDiff x0 8 24 slices_S28x1024_o8_0_S1x1024 slices_S28x1024_o24_0_S1x1024 (ix2 (0 : Fin 1) r)
      + rowDiff x0 9 25 slices_S28x1024_o9_0_S1x1024 slices_S28x1024_o25_0_S1x1024 (ix2 (0 : Fin 1) r) * rowDiff x0 9 25 slices_S28x1024_o9_0_S1x1024 slices_S28x1024_o25_0_S1x1024 (ix2 (0 : Fin 1) r)) = _
    rw [rowDiff_apply x0 8 24 _ _ (by decide) (by decide), rowDiff_apply x0 9 25 _ _ (by decide) (by decide)]
    rfl)

theorem Dist_at_18 (x0 : Vec Ideal S28x1024 .f32) (r : Fin 1024) :
    Dist x0 (ix2 r (⟨18, by decide⟩ : Fin 42)) = dval x0 r 12 0 (by decide) (by decide) :=
  (Dist_apply x0 r _).trans (by
    show Ideal.sqrt (rowDiff x0 12 0 slices_S28x1024_o12_0_S1x1024 slices_S28x1024_o0_0_S1x1024 (ix2 (0 : Fin 1) r) * rowDiff x0 12 0 slices_S28x1024_o12_0_S1x1024 slices_S28x1024_o0_0_S1x1024 (ix2 (0 : Fin 1) r)
      + rowDiff x0 13 1 slices_S28x1024_o13_0_S1x1024 slices_S28x1024_o1_0_S1x1024 (ix2 (0 : Fin 1) r) * rowDiff x0 13 1 slices_S28x1024_o13_0_S1x1024 slices_S28x1024_o1_0_S1x1024 (ix2 (0 : Fin 1) r)) = _
    rw [rowDiff_apply x0 12 0 _ _ (by decide) (by decide), rowDiff_apply x0 13 1 _ _ (by decide) (by decide)]
    rfl)

theorem Dist_at_19 (x0 : Vec Ideal S28x1024 .f32) (r : Fin 1024) :
    Dist x0 (ix2 r (⟨19, by decide⟩ : Fin 42)) = dval x0 r 12 4 (by decide) (by decide) :=
  (Dist_apply x0 r _).trans (by
    show Ideal.sqrt (rowDiff x0 12 4 slices_S28x1024_o12_0_S1x1024 slices_S28x1024_o4_0_S1x1024 (ix2 (0 : Fin 1) r) * rowDiff x0 12 4 slices_S28x1024_o12_0_S1x1024 slices_S28x1024_o4_0_S1x1024 (ix2 (0 : Fin 1) r)
      + rowDiff x0 13 5 slices_S28x1024_o13_0_S1x1024 slices_S28x1024_o5_0_S1x1024 (ix2 (0 : Fin 1) r) * rowDiff x0 13 5 slices_S28x1024_o13_0_S1x1024 slices_S28x1024_o5_0_S1x1024 (ix2 (0 : Fin 1) r)) = _
    rw [rowDiff_apply x0 12 4 _ _ (by decide) (by decide), rowDiff_apply x0 13 5 _ _ (by decide) (by decide)]
    rfl)

theorem Dist_at_20 (x0 : Vec Ideal S28x1024 .f32) (r : Fin 1024) :
    Dist x0 (ix2 r (⟨20, by decide⟩ : Fin 42)) = dval x0 r 12 8 (by decide) (by decide) :=
  (Dist_apply x0 r _).trans (by
    show Ideal.sqrt (rowDiff x0 12 8 slices_S28x1024_o12_0_S1x1024 slices_S28x1024_o8_0_S1x1024 (ix2 (0 : Fin 1) r) * rowDiff x0 12 8 slices_S28x1024_o12_0_S1x1024 slices_S28x1024_o8_0_S1x1024 (ix2 (0 : Fin 1) r)
      + rowDiff x0 13 9 slices_S28x1024_o13_0_S1x1024 slices_S28x1024_o9_0_S1x1024 (ix2 (0 : Fin 1) r) * rowDiff x0 13 9 slices_S28x1024_o13_0_S1x1024 slices_S28x1024_o9_0_S1x1024 (ix2 (0 : Fin 1) r)) = _
    rw [rowDiff_apply x0 12 8 _ _ (by decide) (by decide), rowDiff_apply x0 13 9 _ _ (by decide) (by decide)]
    rfl)

theorem Dist_at_21 (x0 : Vec Ideal S28x1024 .f32) (r : Fin 1024) :
    Dist x0 (ix2 r (⟨21, by decide⟩ : Fin 42)) = dval x0 r 12 16 (by decide) (by decide) :=
  (Dist_apply x0 r _).trans (by
    show Ideal.sqrt (rowDiff x0 12 16 slices_S28x1024_o12_0_S1x1024 slices_S28x1024_o16_0_S1x1024 (ix2 (0 : Fin 1) r) * rowDiff x0 12 16 slices_S28x1024_o12_0_S1x1024 slices_S28x1024_o16_0_S1x1024 (ix2 (0 : Fin 1) r)
      + rowDiff x0 13 17 slices_S28x1024_o13_0_S1x1024 slices_S28x1024_o17_0_S1x1024 (ix2 (0 : Fin 1) r) * rowDiff x0 13 17 slices_S28x1024_o13_0_S1x1024 slices_S28x1024_o17_0_S1x1024 (ix2 (0 : Fin 1) r)) = _
    rw [rowDiff_apply x0 12 16 _ _ (by decide) (by decide), rowDiff_apply x0 13 17 _ _ (by decide) (by decide)]
    rfl)

theorem Dist_at_22 (x0 : Vec Ideal S28x1024 .f32) (r : Fin 1024) :
    Dist x0 (ix2 r (⟨22, by decide⟩ : Fin 42)) = dval x0 r 12 20 (by decide) (by decide) :=
  (Dist_apply x0 r _).trans (by
    show Ideal.sqrt (rowDiff x0 12 20 slices_S28x1024_o12_0_S1x1024 slices_S28x1024_o20_0_S1x1024 (ix2 (0 : Fin 1) r) * rowDiff x0 12 20 slices_S28x1024_o12_0_S1x1024 slices_S28x1024_o20_0_S1x1024 (ix2 (0 : Fin 1) r)
      + rowDiff x0 13 21 slices_S28x1024_o13_0_S1x1024 slices_S28x1024_o21_0_S1x1024 (ix2 (0 : Fin 1) r) * rowDiff x0 13 21 slices_S28x1024_o13_0_S1x1024 slices_S28x1024_o21_0_S1x1024 (ix2 (0 : Fin 1) r)) = _
    rw [rowDiff_apply x0 12 20 _ _ (by decide) (by decide), rowDiff_apply x0 13 21 _ _ (by decide) (by decide)]
    rfl)

theorem Dist_at_23 (x0 : Vec Ideal S28x1024 .f32) (r : Fin 1024) :
    Dist x0 (ix2 r (⟨23, by decide⟩ : Fin 42)) = dval x0 r 12 24 (by decide) (by decide) :=
  (Dist_apply x0 r _).trans (by
    show Ideal.sqrt (rowDiff x0 12 24 slices_S28x1024_o12_0_S1x1024 slices_S28x1024_o24_0_S1x1024 (ix2 (0 : Fin 1) r) * rowDiff x0 12 24 slices_S28x1024_o12_0_S1x1024 slices_S28x1024_o24_0_S1x1024 (ix2 (0 : Fin 1) r)
      + rowDiff x0 13 25 slices_S28x1024_o13_0_S1x1024 slices_S28x1024_o25_0_S1x1024 (ix2 (0 : Fin 1) r) * rowDiff x0 13 25 slices_S28x1024_o13_0_S1x1024 slices_S28x1024_o25_0_S1x1024 (ix2 (0 : Fin 1) r)) = _
    rw [rowDiff_apply x0 12 24 _ _ (by decide) (by decide), rowDiff_apply x0 13 25 _ _ (by decide) (by decide)]
    rfl)

theorem Dist_at_24 (x0 : Vec Ideal S28x1024 .f32) (r : Fin 1024) :
    Dist x0 (ix2 r (⟨24, by decide⟩ : Fin 42)) = dval x0 r 16 0 (by decide) (by decide) :=
  (Dist_apply x0 r _).trans (by
    show Ideal.sqrt (rowDiff x0 16 0 slices_S28x1024_o16_0_S1x1024 slices_S28x1024_o0_0_S1x1024 (ix2 (0 : Fin 1) r) * rowDiff x0 16 0 slices_S28x1024_o16_0_S1x1024 slices_S28x1024_o0_0_S1x1024 (ix2 (0 : Fin 1) r)
      + rowDiff x0 17 1 slices_S28x1024_o17_0_S1x1024 slices_S28x1024_o1_0_S1x1024 (ix2 (0 : Fin 1) r) * rowDiff x0 17 1 slices_S28x1024_o17_0_S1x1024 slices_S28x1024_o1_0_S1x1024 (ix2 (0 : Fin 1) r)) = _
    rw [rowDiff_apply x0 16 0 _ _ (by decide) (by decide), rowDiff_apply x0 17 1 _ _ (by decide) (by decide)]
    rfl)

theorem Dist_at_25 (x0 : Vec Ideal S28x1024 .f32) (r : Fin 1024) :
    Dist x0 (ix2 r (⟨25, by decide⟩ : Fin 42)) = dval x0 r 16 4 (by decide) (by decide) :=
  (Dist_apply x0 r _).trans (by
    show Ideal.sqrt (rowDiff x0 16 4 slices_S28x1024_o16_0_S1x1024 slices_S28x1024_o4_0_S1x1024 (ix2 (0 : Fin 1) r) * rowDiff x0 16 4 slices_S28x1024_o16_0_S1x1024 slices_S28x1024_o4_0_S1x1024 (ix2 (0 : Fin 1) r)
      + rowDiff x0 17 5 slices_S28x1024_o17_0_S1x1024 slices_S28x1024_o5_0_S1x1024 (ix2 (0 : Fin 1) r) * rowDiff x0 17 5 slices_S28x1024_o17_0_S1x1024 slices_S28x1024_o5_0_S1x1024 (ix2 (0 : Fin 1) r)) = _
    rw [rowDiff_apply x0 16 4 _ _ (by decide) (by decide), rowDiff_apply x0 17 5 _ _ (by decide) (by decide)]
    rfl)

theorem Dist_at_26 (x0 : Vec Ideal S28x1024 .f32) (r : Fin 1024) :
    Dist x0 (ix2 r (⟨26, by decide⟩ : Fin 42)) = dval x0 r 16 8 (by decide) (by decide) :=
  (Dist_apply x0 r _).trans (by
    show Ideal.sqrt (rowDiff x0 16 8 slices_S28x1024_o16_0_S1x1024 slices_S28x1024_o8_0_S1x1024 (ix2 (0 : Fin 1) r) * rowDiff x0 16 8 slices_S28x1024_o16_0_S1x1024 slices_S28x1024_o8_0_S1x1024 (ix2 (0 : Fin 1) r)
      + rowDiff x0 17 9 slices_S28x1024_o17_0_S1x1024 slices_S28x1024_o9_0_S1x1024 (ix2 (0 : Fin 1) r) * rowDiff x0 17 9 slices_S28x1024_o17_0_S1x1024 slices_S28x1024_o9_0_S1x1024 (ix2 (0 : Fin 1) r)) = _
    rw [rowDiff_apply x0 16 8 _ _ (by decide) (by decide), rowDiff_apply x0 17 9 _ _ (by decide) (by decide)]
    rfl)

theorem Dist_at_27 (x0 : Vec Ideal S28x1024 .f32) (r : Fin 1024) :
    Dist x0 (ix2 r (⟨27, by decide⟩ : Fin 42)) = dval x0 r 16 12 (by decide) (by decide) :=
  (Dist_apply x0 r _).trans (by
    show Ideal.sqrt (rowDiff x0 16 12 slices_S28x1024_o16_0_S1x1024 slices_S28x1024_o12_0_S1x1024 (ix2 (0 : Fin 1) r) * rowDiff x0 16 12 slices_S28x1024_o16_0_S1x1024 slices_S28x1024_o12_0_S1x1024 (ix2 (0 : Fin 1) r)
      + rowDiff x0 17 13 slices_S28x1024_o17_0_S1x1024 slices_S28x1024_o13_0_S1x1024 (ix2 (0 : Fin 1) r) * rowDiff x0 17 13 slices_S28x1024_o17_0_S1x1024 slices_S28x1024_o13_0_S1x1024 (ix2 (0 : Fin 1) r)) = _
    rw [rowDiff_apply x0 16 12 _ _ (by decide) (by decide), rowDiff_apply x0 17 13 _ _ (by decide) (by decide)]
    rfl)

theorem Dist_at_28 (x0 : Vec Ideal S28x1024 .f32) (r : Fin 1024) :
    Dist x0 (ix2 r (⟨28, by decide⟩ : Fin 42)) = dval x0 r 16 20 (by decide) (by decide) :=
  (Dist_apply x0 r _).trans (by
    show Ideal.sqrt (rowDiff x0 16 20 slices_S28x1024_o16_0_S1x1024 slices_S28x1024_o20_0_S1x1024 (ix2 (0 : Fin 1) r) * rowDiff x0 16 20 slices_S28x1024_o16_0_S1x1024 slices_S28x1024_o20_0_S1x1024 (ix2 (0 : Fin 1) r)
      + rowDiff x0 17 21 slices_S28x1024_o17_0_S1x1024 slices_S28x1024_o21_0_S1x1024 (ix2 (0 : Fin 1) r) * rowDiff x0 17 21 slices_S28x1024_o17_0_S1x1024 slices_S28x1024_o21_0_S1x1024 (ix2 (0 : Fin 1) r)) = _
    rw [rowDiff_apply x0 16 20 _ _ (by decide) (by decide), rowDiff_apply x0 17 21 _ _ (by decide) (by decide)]
    rfl)

theorem Dist_at_29 (x0 : Vec Ideal S28x1024 .f32) (r : Fin 1024) :
    Dist x0 (ix2 r (⟨29, by decide⟩ : Fin 42)) = dval x0 r 16 24 (by decide) (by decide) :=
  (Dist_apply x0 r _).trans (by
    show Ideal.sqrt (rowDiff x0 16 24 slices_S28x1024_o16_0_S1x1024 slices_S28x1024_o24_0_S1x1024 (ix2 (0 : Fin 1) r) * rowDiff x0 16 24 slices_S28x1024_o16_0_S1x1024 slices_S28x1024_o24_0_S1x1024 (ix2 (0 : Fin 1) r)
      + rowDiff x0 17 25 slices_S28x1024_o17_0_S1x1024 slices_S28x1024_o25_0_S1x1024 (ix2 (0 : Fin 1) r) * rowDiff x0 17 25 slices_S28x1024_o17_0_S1x1024 slices_S28x1024_o25_0_S1x1024 (ix2 (0 : Fin 1) r)) = _
    rw [rowDiff_apply x0 16 24 _ _ (by decide) (by decide), rowDiff_apply x0 17 25 _ _ (by decide) (by decide)]
    rfl)

theorem Dist_at_30 (x0 : Vec Ideal S28x1024 .f32) (r : Fin 1024) :
    Dist x0 (ix2 r (⟨30, by decide⟩ : Fin 42)) = dval x0 r 20 0 (by decide) (by decide) :=
  (Dist_apply x0 r _).trans (by
    show Ideal.sqrt (rowDiff x0 20 0 slices_S28x1024_o20_0_S1x1024 slices_S28x1024_o0_0_S1x1024 (ix2 (0 : Fin 1) r) * rowDiff x0 20 0 slices_S28x1024_o20_0_S1x1024 slices_S28x1024_o0_0_S1x1024 (ix2 (0 : Fin 1) r)
      + rowDiff x0 21 1 slices_S28x1024_o21_0_S1x1024 slices_S28x1024_o1_0_S1x1024 (ix2 (0 : Fin 1) r) * rowDiff x0 21 1 slices_S28x1024_o21_0_S1x1024 slices_S28x1024_o1_0_S1x1024 (ix2 (0 : Fin 1) r)) = _
    rw [rowDiff_apply x0 20 0 _ _ (by decide) (by decide), rowDiff_apply x0 21 1 _ _ (by decide) (by decide)]
    rfl)

theorem Dist_at_31 (x0 : Vec Ideal S28x1024 .f32) (r : Fin 1024) :
    Dist x0 (ix2 r (⟨31, by decide⟩ : Fin 42)) = dval x0 r 20 4 (by decide) (by decide) :=
  (Dist_apply x0 r _).trans (by
    show Ideal.sqrt (rowDiff x0 20 4 slices_S28x1024_o20_0_S1x1024 slices_S28x1024_o4_0_S1x1024 (ix2 (0 : Fin 1) r) * rowDiff x0 20 4 slices_S28x1024_o20_0_S1x1024 slices_S28x1024_o4_0_S1x1024 (ix2 (0 : Fin 1) r)
      + rowDiff x0 21 5 slices_S28x1024_o21_0_S1x1024 slices_S28x1024_o5_0_S1x1024 (ix2 (0 : Fin 1) r) * rowDiff x0 21 5 slices_S28x1024_o21_0_S1x1024 slices_S28x1024_o5_0_S1x1024 (ix2 (0 : Fin 1) r)) = _
    rw [rowDiff_apply x0 20 4 _ _ (by decide) (by decide), rowDiff_apply x0 21 5 _ _ (by decide) (by decide)]
    rfl)

theorem Dist_at_32 (x0 : Vec Ideal S28x1024 .f32) (r : Fin 1024) :
    Dist x0 (ix2 r (⟨32, by decide⟩ : Fin 42)) = dval x0 r 20 8 (by decide) (by decide) :=
  (Dist_apply x0 r _).trans (by
    show Ideal.sqrt (rowDiff x0 20 8 slices_S28x1024_o20_0_S1x1024 slices_S28x1024_o8_0_S1x1024 (ix2 (0 : Fin 1) r) * rowDiff x0 20 8 slices_S28x1024_o20_0_S1x1024 slices_S28x1024_o8_0_S1x1024 (ix2 (0 : Fin 1) r)
      + rowDiff x0 21 9 slices_S28x1024_o21_0_S1x1024 slices_S28x1024_o9_0_S1x1024 (ix2 (0 : Fin 1) r) * rowDiff x0 21 9 slices_S28x1024_o21_0_S1x1024 slices_S28x1024_o9_0_S1x1024 (ix2 (0 : Fin 1) r)) = _
    rw [rowDiff_apply x0 20 8 _ _ (by decide) (by decide), rowDiff_apply x0 21 9 _ _ (by decide) (by decide)]
    rfl)

theorem Dist_at_33 (x0 : Vec Ideal S28x1024 .f32) (r : Fin 1024) :
    Dist x0 (ix2 r (⟨33, by decide⟩ : Fin 42)) = dval x0 r 20 12 (by decide) (by decide) :=
  (Dist_apply x0 r _).trans (by
    show Ideal.sqrt (rowDiff x0 20 12 slices_S28x1024_o20_0_S1x1024 slices_S28x1024_o12_0_S1x1024 (ix2 (0 : Fin 1) r) * rowDiff x0 20 12 slices_S28x1024_o20_0_S1x1024 slices_S28x1024_o12_0_S1x1024 (ix2 (0 : Fin 1) r)
      + rowDiff x0 21 13 slices_S28x1024_o21_0_S1x1024 slices_S28x1024_o13_0_S1x1024 (ix2 (0 : Fin 1) r) * rowDiff x0 21 13 slices_S28x1024_o21_0_S1x1024 slices_S28x1024_o13_0_S1x1024 (ix2 (0 : Fin 1) r)) = _
    rw [rowDiff_apply x0 20 12 _ _ (by decide) (by decide), rowDiff_apply x0 21 13 _ _ (by decide) (by decide)]
    rfl)

theorem Dist_at_34 (x0 : Vec Ideal S28x1024 .f32) (r : Fin 1024) :
    Dist x0 (ix2 r (⟨34, by decide⟩ : Fin 42)) = dval x0 r 20 16 (by decide) (by decide) :=
  (Dist_apply x0 r _).trans (by
    show Ideal.sqrt (rowDiff x0 20 16 slices_S28x1024_o20_0_S1x1024 slices_S28x1024_o16_0_S1x1024 (ix2 (0 : Fin 1) r) * rowDiff x0 20 16 slices_S28x1024_o20_0_S1x1024 slices_S28x1024_o16_0_S1x1024 (ix2 (0 : Fin 1) r)
      + rowDiff x0 21 17 slices_S28x1024_o21_0_S1x1024 slices_S28x1024_o17_0_S1x1024 (ix2 (0 : Fin 1) r) * rowDiff x0 21 17 slices_S28x1024_o21_0_S1x1024 slices_S28x1024_o17_0_S1x1024 (ix2 (0 : Fin 1) r)) = _
    rw [rowDiff_apply x0 20 16 _ _ (by decide) (by decide), rowDiff_apply x0 21 17 _ _ (by decide) (by decide)]
    rfl)

theorem Dist_at_35 (x0 : Vec Ideal S28x1024 .f32) (r : Fin 1024) :
    Dist x0 (ix2 r (⟨35, by decide⟩ : Fin 42)) = dval x0 r 20 24 (by decide) (by decide) :=
  (Dist_apply x0 r _).trans (by
    show Ideal.sqrt (rowDiff x0 20 24 slices_S28x1024_o20_0_S1x1024 slices_S28x1024_o24_0_S1x1024 (ix2 (0 : Fin 1) r) * rowDiff x0 20 24 slices_S28x1024_o20_0_S1x1024 slices_S28x1024_o24_0_S1x1024 (ix2 (0 : Fin 1) r)
      + rowDiff x0 21 25 slices_S28x1024_o21_0_S1x1024 slices_S28x1024_o25_0_S1x1024 (ix2 (0 : Fin 1) r) * rowDiff x0 21 25 slices_S28x1024_o21_0_S1x1024 slices_S28x1024_o25_0_S1x1024 (ix2 (0 : Fin 1) r)) = _
    rw [rowDiff_apply x0 20 24 _ _ (by decide) (by decide), rowDiff_apply x0 21 25 _ _ (by decide) (by decide)]
    rfl)

theorem Dist_at_36 (x0 : Vec Ideal S28x1024 .f32) (r : Fin 1024) :
    Dist x0 (ix2 r (⟨36, by decide⟩ : Fin 42)) = dval x0 r 24 0 (by decide) (by decide) :=
  (Dist_apply x0 r _).trans (by
    show Ideal.sqrt (rowDiff x0 24 0 slices_S28x1024_o24_0_S1x1024 slices_S28x1024_o0_0_S1x1024 (ix2 (0 : Fin 1) r) * rowDiff x0 24 0 slices_S28x1024_o24_0_S1x1024 slices_S28x1024_o0_0_S1x1024 (ix2 (0 : Fin 1) r)
      + rowDiff x0 25 1 slices_S28x1024_o25_0_S1x1024 slices_S28x1024_o1_0_S1x1024 (ix2 (0 : Fin 1) r) * rowDiff x0 25 1 slices_S28x1024_o25_0_S1x1024 slices_S28x1024_o1_0_S1x1024 (ix2 (0 : Fin 1) r)) = _
    rw [rowDiff_apply x0 24 0 _ _ (by decide) (by decide), rowDiff_apply x0 25 1 _ _ (by decide) (by decide)]
    rfl)

theorem Dist_at_37 (x0 : Vec Ideal S28x1024 .f32) (r : Fin 1024) :
    Dist x0 (ix2 r (⟨37, by decide⟩ : Fin 42)) = dval x0 r 24 4 (by decide) (by decide) :=
  (Dist_apply x0 r _).trans (by
    show Ideal.sqrt (rowDiff x0 24 4 slices_S28x1024_o24_0_S1x1024 slices_S28x1024_o4_0_S1x1024 (ix2 (0 : Fin 1) r) * rowDiff x0 24 4 slices_S28x1024_o24_0_S1x1024 slices_S28x1024_o4_0_S1x1024 (ix2 (0 : Fin 1) r)
      + rowDiff x0 25 5 slices_S28x1024_o25_0_S1x1024 slices_S28x1024_o5_0_S1x1024 (ix2 (0 : Fin 1) r) * rowDiff x0 25 5 slices_S28x1024_o25_0_S1x1024 slices_S28x1024_o5_0_S1x1024 (ix2 (0 : Fin 1) r)) = _
    rw [rowDiff_apply x0 24 4 _ _ (by decide) (by decide), rowDiff_apply x0 25 5 _ _ (by decide) (by decide)]
    rfl)

theorem Dist_at_38 (x0 : Vec Ideal S28x1024 .f32) (r : Fin 1024) :
    Dist x0 (ix2 r (⟨38, by decide⟩ : Fin 42)) = dval x0 r 24 8 (by decide) (by decide) :=
  (Dist_apply x0 r _).trans (by
    show Ideal.sqrt (rowDiff x0 24 8 slices_S28x1024_o24_0_S1x1024 slices_S28x1024_o8_0_S1x1024 (ix2 (0 : Fin 1) r) * rowDiff x0 24 8 slices_S28x1024_o24_0_S1x1024 slices_S28x1024_o8_0_S1x1024 (ix2 (0 : Fin 1) r)
      + rowDiff x0 25 9 slices_S28x1024_o25_0_S1x1024 slices_S28x1024_o9_0_S1x1024 (ix2 (0 : Fin 1) r) * rowDiff x0 25 9 slices_S28x1024_o25_0_S1x1024 slices_S28x1024_o9_0_S1x1024 (ix2 (0 : Fin 1) r)) = _
    rw [rowDiff_apply x0 24 8 _ _ (by decide) (by decide), rowDiff_apply x0 25 9 _ _ (by decide) (by decide)]
    rfl)

theorem Dist_at_39 (x0 : Vec Ideal S28x1024 .f32) (r : Fin 1024) :
    Dist x0 (ix2 r (⟨39, by decide⟩ : Fin 42)) = dval x0 r 24 12 (by decide) (by decide) :=
  (Dist_apply x0 r _).trans (by
    show Ideal.sqrt (rowDiff x0 24 12 slices_S28x1024_o24_0_S1x1024 slices_S28x1024_o12_0_S1x1024 (ix2 (0 : Fin 1) r) * rowDiff x0 24 12 slices_S28x1024_o24_0_S1x1024 slices_S28x1024_o12_0_S1x1024 (ix2 (0 : Fin 1) r)
      + rowDiff x0 25 13 slices_S28x1024_o25_0_S1x1024 slices_S28x1024_o13_0_S1x1024 (ix2 (0 : Fin 1) r) * rowDiff x0 25 13 slices_S28x1024_o25_0_S1x1024 slices_S28x1024_o13_0_S1x1024 (ix2 (0 : Fin 1) r)) = _
    rw [rowDiff_apply x0 24 12 _ _ (by decide) (by decide), rowDiff_apply x0 25 13 _ _ (by decide) (by decide)]
    rfl)

theorem Dist_at_40 (x0 : Vec Ideal S28x1024 .f32) (r : Fin 1024) :
    Dist x0 (ix2 r (⟨40, by decide⟩ : Fin 42)) = dval x0 r 24 16 (by decide) (by decide) :=
  (Dist_apply x0 r _).trans (by
    show Ideal.sqrt (rowDiff x0 24 16 slices_S28x1024_o24_0_S1x1024 slices_S28x1024_o16_0_S1x1024 (ix2 (0 : Fin 1) r) * rowDiff x0 24 16 slices_S28x1024_o24_0_S1x1024 slices_S28x1024_o16_0_S1x1024 (ix2 (0 : Fin 1) r)
      + rowDiff x0 25 17 slices_S28x1024_o25_0_S1x1024 slices_S28x1024_o17_0_S1x1024 (ix2 (0 : Fin 1) r) * rowDiff x0 25 17 slices_S28x1024_o25_0_S1x1024 slices_S28x1024_o17_0_S1x1024 (ix2 (0 : Fin 1) r)) = _
    rw [rowDiff_apply x0 24 16 _ _ (by decide) (by decide), rowDiff_apply x0 25 17 _ _ (by decide) (by decide)]
    rfl)

theorem Dist_at_41 (x0 : Vec Ideal S28x1024 .f32) (r : Fin 1024) :
    Dist x0 (ix2 r (⟨41, by decide⟩ : Fin 42)) = dval x0 r 24 20 (by decide) (by decide) :=
  (Dist_apply x0 r _).trans (by
    show Ideal.sqrt (rowDiff x0 24 20 slices_S28x1024_o24_0_S1x1024 slices_S28x1024_o20_0_S1x1024 (ix2 (0 : Fin 1) r) * rowDiff x0 24 20 slices_S28x1024_o24_0_S1x1024 slices_S28x1024_o20_0_S1x1024 (ix2 (0 : Fin 1) r)
      + rowDiff x0 25 21 slices_S28x1024_o25_0_S1x1024 slices_S28x1024_o21_0_S1x1024 (ix2 (0 : Fin 1) r) * rowDiff x0 25 21 slices_S28x1024_o25_0_S1x1024 slices_S28x1024_o21_0_S1x1024 (ix2 (0 : Fin 1) r)) = _
    rw [rowDiff_apply x0 24 20 _ _ (by decide) (by decide), rowDiff_apply x0 25 21 _ _ (by decide) (by decide)]
    rfl)

end Cert.Enc.K

end
-- ==== Proof.Stores.lean ====
/-
  Each of the body's seven stores writes one entity's 256 lanes: its payload, as printed, is the property layer of that
  entity beside the six relation layers of the pairs it heads, added up in the order of the other entity's number.
-/
import proofs.«172666_j28845000360164_2_alg».proof.Proof.Dist

set_option maxRecDepth 16384

noncomputable section

namespace Cert.Enc.K

open Idealize.ShloMosaic Idealize.ShloMosaic.ValueIdx Cert.KernelIdeal Cert.KernelIdeal.Gen

variable {F : FTy → Type} [FloatOps F]

/-- The store of entity 0's 256 lanes. -/
theorem store_0 (X0 : Vec F S28x1024 .f32) (X1 : Vec F S4x128 .f32) (X2 : Vec F S128 .f32) (X3 : Vec F S4x128 .f32) (X4 : Vec F S128 .f32) (X5 : Vec F S128 .f32) :
    k0_pay101 (k0_pay88 X0) (Dist X0) (k0_pay91 X3) (k0_pay92 X4) X5 (k0_pay93 X0) (k0_pay94 X0 X1 X2) (k0_pay99 (k0_pay88 X0) (Dist X0) (k0_pay91 X3) (k0_pay92 X4) X5 (k0_pay93 X0) (k0_pay95 (F := F)) (k0_pay96 X0 X3) (k0_pay97 X4) (k0_pay98 X0 (k0_pay2 X0) (k0_pay3 X0) (k0_pay4 X0) (k0_pay5 X0) (k0_pay6 X0) (k0_pay7 X0) (k0_pay8 X0) (k0_pay9 X0) (k0_pay10 X0) (k0_pay11 X0) (k0_pay12 X0) (k0_pay13 X0) (k0_pay14 X0) (k0_pay15 X0) (k0_pay16 X0) (k0_pay17 X0) (k0_pay18 X0) (k0_pay19 X0) (k0_pay22 (k0_pay20 X0) (k0_pay21 X0)) (k0_pay23 X0) (k0_pay24 X0) (k0_pay25 X0) (k0_pay26 X0) (k0_pay27 X0) (k0_pay28 X0) (k0_pay29 X0) (k0_pay30 X0) (k0_pay31 X0) (k0_pay32 X0) (k0_pay33 X0) (k0_pay34 X0) (k0_pay35 X0) (k0_pay36 X0) (k0_pay37 X0) (k0_pay38 X0) (k0_pay39 X0) (k0_pay40 X0) (k0_pay41 X0) (k0_pay44 (k0_pay42 X0) (k0_pay43 X0)) (k0_pay45 X0) (k0_pay46 X0) (k0_pay47 X0) (k0_pay48 X0) (k0_pay49 X0) (k0_pay50 X0) (k0_pay51 X0) (k0_pay52 X0) (k0_pay53 X0) (k0_pay54 X0) (k0_pay55 X0) (k0_pay56 X0) (k0_pay57 X0) (k0_pay58 X0) (k0_pay59 X0) (k0_pay60 X0) (k0_pay61 X0) (k0_pay62 X0) (k0_pay63 X0) (k0_pay66 (k0_pay64 X0) (k0_pay65 X0)) (k0_pay67 X0) (k0_pay68 X0) (k0_pay69 X0) (k0_pay70 X0) (k0_pay71 X0) (k0_pay72 X0) (k0_pay73 X0) (k0_pay74 X0) (k0_pay75 X0) (k0_pay76 X0) (k0_pay77 X0) (k0_pay78 X0) (k0_pay79 X0) (k0_pay80 X0) (k0_pay81 X0) (k0_pay82 X0) (k0_pay83 X0) (k0_pay84 X0) (k0_pay85 X0) (k0_pay86 X0) (k0_pay87 X0))) (k0_pay100 (k0_pay88 X0) (Dist X0) (k0_pay91 X3) (k0_pay92 X4) X5 (k0_pay93 X0))
      = entBlock (propTerm (k0_pay88 X0) (k0_pay90 X1) X2 0 slices_S1024x28_o0_0_S1024x4) (acc6 (relTerm (k0_pay88 X0) (Dist X0) (k0_pay91 X3) (k0_pay92 X4) X5 0 4 0 slices_S1024x28_o0_0_S1024x4 slices_S1024x28_o0_4_S1024x4 slices_S1024x42_o0_0_S1024x1)
      (relTerm (k0_pay88 X0) (Dist X0) (k0_pay91 X3) (k0_pay92 X4) X5 0 8 1 slices_S1024x28_o0_0_S1024x4 slices_S1024x28_o0_8_S1024x4 slices_S1024x42_o0_1_S1024x1)
      (relTerm (k0_pay88 X0) (Dist X0) (k0_pay91 X3) (k0_pay92 X4) X5 0 12 2 slices_S1024x28_o0_0_S1024x4 slices_S1024x28_o0_12_S1024x4 slices_S1024x42_o0_2_S1024x1)
      (relTerm (k0_pay88 X0) (Dist X0) (k0_pay91 X3) (k0_pay92 X4) X5 0 16 3 slices_S1024x28_o0_0_S1024x4 slices_S1024x28_o0_16_S1024x4 slices_S1024x42_o0_3_S1024x1)
      (relTerm (k0_pay88 X0) (Dist X0) (k0_pay91 X3) (k0_pay92 X4) X5 0 20 4 slices_S1024x28_o0_0_S1024x4 slices_S1024x28_o0_20_S1024x4 slices_S1024x42_o0_4_S1024x1)
      (relTerm (k0_pay88 X0) (Dist X0) (k0_pay91 X3) (k0_pay92 X4) X5 0 24 5 slices_S1024x28_o0_0_S1024x4 slices_S1024x28_o0_24_S1024x4 slices_S1024x42_o0_5_S1024x1)) := rfl

/-- The store of entity 1's 256 lanes. -/
theorem store_1 (X0 : Vec F S28x1024 .f32) (X1 : Vec F S4x128 .f32) (X2 : Vec F S128 .f32) (X3 : Vec F S4x128 .f32) (X4 : Vec F S128 .f32) (X5 : Vec F S128 .f32) :
    k0_pay110 (k0_pay88 X0) (Dist X0) (k0_pay91 X3) (k0_pay92 X4) X5 (k0_pay102 (k0_pay88 X0)) (k0_pay103 (k0_pay88 X0) (k0_pay90 X1) X2) (k0_pay106 (k0_pay88 X0) (Dist X0) (k0_pay91 X3) (k0_pay92 X4) X5 (k0_pay102 (k0_pay88 X0)) (k0_pay104 (F := F)) (k0_pay105 (k0_pay88 X0))) (k0_pay107 (k0_pay88 X0) (k0_pay91 X3) (k0_pay102 (k0_pay88 X0))) (k0_pay108 (Dist X0)) (k0_pay109 (k0_pay92 X4))
      = entBlock (propTerm (k0_pay88 X0) (k0_pay90 X1) X2 4 slices_S1024x28_o0_4_S1024x4) (acc6 (relTerm (k0_pay88 X0) (Dist X0) (k0_pay91 X3) (k0_pay92 X4) X5 4 0 6 slices_S1024x28_o0_4_S1024x4 slices_S1024x28_o0_0_S1024x4 slices_S1024x42_o0_6_S1024x1)
      (relTerm (k0_pay88 X0) (Dist X0) (k0_pay91 X3) (k0_pay92 X4) X5 4 8 7 slices_S1024x28_o0_4_S1024x4 slices_S1024x28_o0_8_S1024x4 slices_S1024x42_o0_7_S1024x1)
      (relTerm (k0_pay88 X0) (Dist X0) (k0_pay91 X3) (k0_pay92 X4) X5 4 12 8 slices_S1024x28_o0_4_S1024x4 slices_S1024x28_o0_12_S1024x4 slices_S1024x42_o0_8_S1024x1)
      (relTerm (k0_pay88 X0) (Dist X0) (k0_pay91 X3) (k0_pay92 X4) X5 4 16 9 slices_S1024x28_o0_4_S1024x4 slices_S1024x28_o0_16_S1024x4 slices_S1024x42_o0_9_S1024x1)
      (relTerm (k0_pay88 X0) (Dist X0) (k0_pay91 X3) (k0_pay92 X4) X5 4 20 10 slices_S1024x28_o0_4_S1024x4 slices_S1024x28_o0_20_S1024x4 slices_S1024x42_o0_10_S1024x1)
      (relTerm (k0_pay88 X0) (Dist X0) (k0_pay91 X3) (k0_pay92 X4) X5 4 24 11 slices_S1024x28_o0_4_S1024x4 slices_S1024x28_o0_24_S1024x4 slices_S1024x42_o0_11_S1024x1)) := rfl

/-- The store of entity 2's 256 lanes. -/
theorem store_2 (X0 : Vec F S28x1024 .f32) (X1 : Vec F S4x128 .f32) (X2 : Vec F S128 .f32) (X3 : Vec F S4x128 .f32) (X4 : Vec F S128 .f32) (X5 : Vec F S128 .f32) :
    k0_pay116 (k0_pay88 X0) (Dist X0) (k0_pay91 X3) (k0_pay92 X4) X5 (k0_pay111 (k0_pay88 X0)) (k0_pay112 (k0_pay88 X0) (k0_pay90 X1) X2) (k0_pay113 (k0_pay88 X0) (Dist X0) (k0_pay91 X3) (k0_pay92 X4) X5 (k0_pay111 (k0_pay88 X0))) (k0_pay114 (k0_pay88 X0) (k0_pay111 (k0_pay88 X0))) (k0_pay115 (Dist X0))
      = entBlock (propTerm (k0_pay88 X0) (k0_pay90 X1) X2 8 slices_S1024x28_o0_8_S1024x4) (acc6 (relTerm (k0_pay88 X0) (Dist X0) (k0_pay91 X3) (k0_pay92 X4) X5 8 0 12 slices_S1024x28_o0_8_S1024x4 slices_S1024x28_o0_0_S1024x4 slices_S1024x42_o0_12_S1024x1)
      (relTerm (k0_pay88 X0) (Dist X0) (k0_pay91 X3) (k0_pay92 X4) X5 8 4 13 slices_S1024x28_o0_8_S1024x4 slices_S1024x28_o0_4_S1024x4 slices_S1024x42_o0_13_S1024x1)
      (relTerm (k0_pay88 X0) (Dist X0) (k0_pay91 X3) (k0_pay92 X4) X5 8 12 14 slices_S1024x28_o0_8_S1024x4 slices_S1024x28_o0_12_S1024x4 slices_S1024x42_o0_14_S1024x1)
      (relTerm (k0_pay88 X0) (Dist X0) (k0_pay91 X3) (k0_pay92 X4) X5 8 16 15 slices_S1024x28_o0_8_S1024x4 slices_S1024x28_o0_16_S1024x4 slices_S1024x42_o0_15_S1024x1)
      (relTerm (k0_pay88 X0) (Dist X0) (k0_pay91 X3) (k0_pay92 X4) X5 8 20 16 slices_S1024x28_o0_8_S1024x4 slices_S1024x28_o0_20_S1024x4 slices_S1024x42_o0_16_S1024x1)
      (relTerm (k0_pay88 X0) (Dist X0) (k0_pay91 X3) (k0_pay92 X4) X5 8 24 17 slices_S1024x28_o0_8_S1024x4 slices_S1024x28_o0_24_S1024x4 slices_S1024x42_o0_17_S1024x1)) := rfl

/-- The store of entity 3's 256 lanes. -/
theorem store_3 (X0 : Vec F S28x1024 .f32) (X1 : Vec F S4x128 .f32) (X2 : Vec F S128 .f32) (X3 : Vec F S4x128 .f32) (X4 : Vec F S128 .f32) (X5 : Vec F S128 .f32) :
    k0_pay123 (k0_pay88 X0) (Dist X0) (k0_pay91 X3) (k0_pay92 X4) X5 (k0_pay117 (k0_pay88 X0)) (k0_pay120 (k0_pay118 (k0_pay88 X0) (k0_pay90 X1)) (k0_pay119 X2)) (k0_pay121 (k0_pay88 X0) (Dist X0) (k0_pay91 X3) (k0_pay92 X4) X5 (k0_pay117 (k0_pay88 X0))) (k0_pay122 (k0_pay88 X0) (Dist X0) (k0_pay91 X3) (k0_pay92 X4) X5 (k0_pay117 (k0_pay88 X0)))
      = entBlock (propTerm (k0_pay88 X0) (k0_pay90 X1) X2 12 slices_S1024x28_o0_12_S1024x4) (acc6 (relTerm (k0_pay88 X0) (Dist X0) (k0_pay91 X3) (k0_pay92 X4) X5 12 0 18 slices_S1024x28_o0_12_S1024x4 slices_S1024x28_o0_0_S1024x4 slices_S1024x42_o0_18_S1024x1)
      (relTerm (k0_pay88 X0) (Dist X0) (k0_pay91 X3) (k0_pay92 X4) X5 12 4 19 slices_S1024x28_o0_12_S1024x4 slices_S1024x28_o0_4_S1024x4 slices_S1024x42_o0_19_S1024x1)
      (relTerm (k0_pay88 X0) (Dist X0) (k0_pay91 X3) (k0_pay92 X4) X5 12 8 20 slices_S1024x28_o0_12_S1024x4 slices_S1024x28_o0_8_S1024x4 slices_S1024x42_o0_20_S1024x1)
      (relTerm (k0_pay88 X0) (Dist X0) (k0_pay91 X3) (k0_pay92 X4) X5 12 16 21 slices_S1024x28_o0_12_S1024x4 slices_S1024x28_o0_16_S1024x4 slices_S1024x42_o0_21_S1024x1)
      (relTerm (k0_pay88 X0) (Dist X0) (k0_pay91 X3) (k0_pay92 X4) X5 12 20 22 slices_S1024x28_o0_12_S1024x4 slices_S1024x28_o0_20_S1024x4 slices_S1024x42_o0_22_S1024x1)
      (relTerm (k0_pay88 X0) (Dist X0) (k0_pay91 X3) (k0_pay92 X4) X5 12 24 23 slices_S1024x28_o0_12_S1024x4 slices_S1024x28_o0_24_S1024x4 slices_S1024x42_o0_23_S1024x1)) := rfl

/-- The store of entity 4's 256 lanes. -/
theorem store_4 (X0 : Vec F S28x1024 .f32) (X1 : Vec F S4x128 .f32) (X2 : Vec F S128 .f32) (X3 : Vec F S4x128 .f32) (X4 : Vec F S128 .f32) (X5 : Vec F S128 .f32) :
    k0_pay130 (k0_pay125 (k0_pay88 X0) (k0_pay90 X1) X2) (k0_pay129 (k0_pay88 X0) (Dist X0) (k0_pay91 X3) (k0_pay92 X4) X5 (k0_pay124 (k0_pay88 X0)) (k0_pay126 (k0_pay88 X0) (Dist X0) (k0_pay91 X3) (k0_pay92 X4) X5) (k0_pay127 (k0_pay88 X0) (Dist X0) (k0_pay91 X3) (k0_pay92 X4)) (k0_pay128 X5))
      = entBlock (propTerm (k0_pay88 X0) (k0_pay90 X1) X2 16 slices_S1024x28_o0_16_S1024x4) (acc6 (relTerm (k0_pay88 X0) (Dist X0) (k0_pay91 X3) (k0_pay92 X4) X5 16 0 24 slices_S1024x28_o0_16_S1024x4 slices_S1024x28_o0_0_S1024x4 slices_S1024x42_o0_24_S1024x1)
      (relTerm (k0_pay88 X0) (Dist X0) (k0_pay91 X3) (k0_pay92 X4) X5 16 4 25 slices_S1024x28_o0_16_S1024x4 slices_S1024x28_o0_4_S1024x4 slices_S1024x42_o0_25_S1024x1)
      (relTerm (k0_pay88 X0) (Dist X0) (k0_pay91 X3) (k0_pay92 X4) X5 16 8 26 slices_S1024x28_o0_16_S1024x4 slices_S1024x28_o0_8_S1024x4 slices_S1024x42_o0_26_S1024x1)
      (relTerm (k0_pay88 X0) (Dist X0) (k0_pay91 X3) (k0_pay92 X4) X5 16 12 27 slices_S1024x28_o0_16_S1024x4 slices_S1024x28_o0_12_S1024x4 slices_S1024x42_o0_27_S1024x1)
      (relTerm (k0_pay88 X0) (Dist X0) (k0_pay91 X3) (k0_pay92 X4) X5 16 20 28 slices_S1024x28_o0_16_S1024x4 slices_S1024x28_o0_20_S1024x4 slices_S1024x42_o0_28_S1024x1)
      (relTerm (k0_pay88 X0) (Dist X0) (k0_pay91 X3) (k0_pay92 X4) X5 16 24 29 slices_S1024x28_o0_16_S1024x4 slices_S1024x28_o0_24_S1024x4 slices_S1024x42_o0_29_S1024x1)) := rfl

/-- The store of entity 5's 256 lanes. -/
theorem store_5 (X0 : Vec F S28x1024 .f32) (X1 : Vec F S4x128 .f32) (X2 : Vec F S128 .f32) (X3 : Vec F S4x128 .f32) (X4 : Vec F S128 .f32) (X5 : Vec F S128 .f32) :
    k0_pay140 (k0_pay132 (k0_pay88 X0) (k0_pay90 X1) X2) (k0_pay137 (k0_pay88 X0) (Dist X0) (k0_pay91 X3) (k0_pay92 X4) X5 (k0_pay131 (k0_pay88 X0)) (k0_pay133 (k0_pay88 X0) (Dist X0) (k0_pay91 X3) (k0_pay92 X4) X5) (k0_pay134 (Dist X0)) (k0_pay135 (k0_pay88 X0) (k0_pay91 X3)) (k0_pay136 (k0_pay92 X4))) (k0_pay138 (k0_pay88 X0) (Dist X0) (k0_pay91 X3) (k0_pay92 X4) (k0_pay131 (k0_pay88 X0))) (k0_pay139 X5)
      = entBlock (propTerm (k0_pay88 X0) (k0_pay90 X1) X2 20 slices_S1024x28_o0_20_S1024x4) (acc6 (relTerm (k0_pay88 X0) (Dist X0) (k0_pay91 X3) (k0_pay92 X4) X5 20 0 30 slices_S1024x28_o0_20_S1024x4 slices_S1024x28_o0_0_S1024x4 slices_S1024x42_o0_30_S1024x1)
      (relTerm (k0_pay88 X0) (Dist X0) (k0_pay91 X3) (k0_pay92 X4) X5 20 4 31 slices_S1024x28_o0_20_S1024x4 slices_S1024x28_o0_4_S1024x4 slices_S1024x42_o0_31_S1024x1)
      (relTerm (k0_pay88 X0) (Dist X0) (k0_pay91 X3) (k0_pay92 X4) X5 20 8 32 slices_S1024x28_o0_20_S1024x4 slices_S1024x28_o0_8_S1024x4 slices_S1024x42_o0_32_S1024x1)
      (relTerm (k0_pay88 X0) (Dist X0) (k0_pay91 X3) (k0_pay92 X4) X5 20 12 33 slices_S1024x28_o0_20_S1024x4 slices_S1024x28_o0_12_S1024x4 slices_S1024x42_o0_33_S1024x1)
      (relTerm (k0_pay88 X0) (Dist X0) (k0_pay91 X3) (k0_pay92 X4) X5 20 16 34 slices_S1024x28_o0_20_S1024x4 slices_S1024x28_o0_16_S1024x4 slices_S1024x42_o0_34_S1024x1)
      (relTerm (k0_pay88 X0) (Dist X0) (k0_pay91 X3) (k0_pay92 X4) X5 20 24 35 slices_S1024x28_o0_20_S1024x4 slices_S1024x28_o0_24_S1024x4 slices_S1024x42_o0_35_S1024x1)) := rfl

/-- The store of entity 6's 256 lanes. -/
theorem store_6 (X0 : Vec F S28x1024 .f32) (X1 : Vec F S4x128 .f32) (X2 : Vec F S128 .f32) (X3 : Vec F S4x128 .f32) (X4 : Vec F S128 .f32) (X5 : Vec F S128 .f32) :
    k0_pay1 X5 (k0_pay142 (k0_pay88 X0) (k0_pay90 X1) X2) (k0_pay145 (k0_pay88 X0) (Dist X0) (k0_pay91 X3) (k0_pay92 X4) X5 (k0_pay141 (k0_pay88 X0)) (k0_pay143 (k0_pay88 X0) (Dist X0) (k0_pay91 X3) (k0_pay92 X4) X5) (k0_pay144 (k0_pay88 X0))) (k0_pay146 (k0_pay88 X0) (k0_pay91 X3) (k0_pay141 (k0_pay88 X0))) (k0_pay147 (k0_pay92 X4)) (k0_pay148 (Dist X0))
      = entBlock (propTerm (k0_pay88 X0) (k0_pay90 X1) X2 24 slices_S1024x28_o0_24_S1024x4) (acc6 (relTerm (k0_pay88 X0) (Dist X0) (k0_pay91 X3) (k0_pay92 X4) X5 24 0 36 slices_S1024x28_o0_24_S1024x4 slices_S1024x28_o0_0_S1024x4 slices_S1024x42_o0_36_S1024x1)
      (relTerm (k0_pay88 X0) (Dist X0) (k0_pay91 X3) (k0_pay92 X4) X5 24 4 37 slices_S1024x28_o0_24_S1024x4 slices_S1024x28_o0_4_S1024x4 slices_S1024x42_o0_37_S1024x1)
      (relTerm (k0_pay88 X0) (Dist X0) (k0_pay91 X3) (k0_pay92 X4) X5 24 8 38 slices_S1024x28_o0_24_S1024x4 slices_S1024x28_o0_8_S1024x4 slices_S1024x42_o0_38_S1024x1)
      (relTerm (k0_pay88 X0) (Dist X0) (k0_pay91 X3) (k0_pay92 X4) X5 24 12 39 slices_S1024x28_o0_24_S1024x4 slices_S1024x28_o0_12_S1024x4 slices_S1024x42_o0_39_S1024x1)
      (relTerm (k0_pay88 X0) (Dist X0) (k0_pay91 X3) (k0_pay92 X4) X5 24 16 40 slices_S1024x28_o0_24_S1024x4 slices_S1024x28_o0_16_S1024x4 slices_S1024x42_o0_40_S1024x1)
      (relTerm (k0_pay88 X0) (Dist X0) (k0_pay91 X3) (k0_pay92 X4) X5 24 20 41 slices_S1024x28_o0_24_S1024x4 slices_S1024x28_o0_20_S1024x4 slices_S1024x42_o0_41_S1024x1)) := rfl

end Cert.Enc.K

end
-- ==== Proof.Spec.lean ====
/-
  The entity encoder, stated once as a function of the five argument arrays, index by index, on the extended reals.

  A batch row b holds seven entities of four coordinates: coordinate d of entity n is ctx (4n + d, b).
  * The property half of entity n's 256 outputs (h < 128): max (Σ_d ent(n,d) · w_prop(d,h) + b_prop(h)) 0.
  * The relation half (h ≥ 128): the sum over the six OTHER entities j of
      max (Σ_{d<4} (ent(n,d) − ent(j,d)) · w_rel(d,h) + dist(n,j) · w_rel(4,h) + b_rel(h)) 0,
    where dist(n,j) = √((Δ₀)² + (Δ₁)²) over the first two coordinates.
-/
import Idealize.ShloMosaic.PureOps.Ideal
import Idealize.ShloMosaic.Lib.ValueIdx

noncomputable section

namespace Cert.Enc

open Idealize.ShloMosaic Idealize.ShloMosaic.ValueIdx
open scoped BigOperators

abbrev ACtx : Shape := ⟨2, ![28, 16384]⟩
abbrev AW4 : Shape := ⟨2, ![4, 128]⟩
abbrev AW5 : Shape := ⟨2, ![5, 128]⟩
abbrev AB : Shape := ⟨1, ![128]⟩
abbrev AOut : Shape := ⟨3, ![16384, 7, 256]⟩

/-- Coordinate `d` of entity `n` in batch row `b`. -/
def ent (ctx : ACtx.Idx → EReal) (b : Fin 16384) (n : Fin 7) (d : Fin 4) : EReal :=
  ctx (ix2 (⟨4 * n.val + d.val, by omega⟩ : Fin 28) b)

/-- The property embedding of entity `n`, rectified. -/
def prop (ctx : ACtx.Idx → EReal) (wp : AW4.Idx → EReal) (bp : AB.Idx → EReal)
    (b : Fin 16384) (n : Fin 7) (h : Fin 128) : EReal :=
  max ((∑ d : Fin 4, ent ctx b n d * wp (ix2 d h)) + bp (ix1 h)) 0

/-- The planar distance between entities `i` and `j`. -/
def dist (ctx : ACtx.Idx → EReal) (b : Fin 16384) (i j : Fin 7) : EReal :=
  Ideal.sqrt ((ent ctx b i 0 - ent ctx b j 0) * (ent ctx b i 0 - ent ctx b j 0)
    + (ent ctx b i 1 - ent ctx b j 1) * (ent ctx b i 1 - ent ctx b j 1))

/-- The relation embedding of the ordered pair (`i`, `j`), rectified. -/
def rel (ctx : ACtx.Idx → EReal) (wr : AW5.Idx → EReal) (br : AB.Idx → EReal)
    (b : Fin 16384) (i j : Fin 7) (h : Fin 128) : EReal :=
  max (((∑ d : Fin 4, (ent ctx b i d - ent ctx b j d) * wr (ix2 d.castSucc h))
    + dist ctx b i j * wr (ix2 (4 : Fin 5) h)) + br (ix1 h)) 0

/-- The relation embeddings of entity `i` against the six others, summed. -/
def relsum (ctx : ACtx.Idx → EReal) (wr : AW5.Idx → EReal) (br : AB.Idx → EReal)
    (b : Fin 16384) (i : Fin 7) (h : Fin 128) : EReal :=
  ∑ j : Fin 7, if j = i then 0 else rel ctx wr br b i j h

/-- The encoder's output: the property half then the relation half of each entity's 256 lanes. -/
def G (ctx : ACtx.Idx → EReal) (wp : AW4.Idx → EReal) (bp : AB.Idx → EReal) (wr : AW5.Idx → EReal)
    (br : AB.Idx → EReal) : AOut.Idx → EReal := fun y =>
  if h : (y 2).val < 128 then prop ctx wp bp (y 0) (y 1) ⟨(y 2).val, h⟩
  else relsum ctx wr br (y 0) (y 1) ⟨(y 2).val - 128, by have h2 : (y 2).val < 256 := (y 2).isLt; omega⟩

end Cert.Enc

end
-- ==== Proof.RowSpec.lean ====
/-
  One batch row of the encoder, as functions of the row's table of entity coordinates `e n d` (entity n, coordinate d) and
  of one lane's weights, on the extended reals; then one block of 1024 batch rows as a function of the blocks the body
  reads, and the whole output as the same function of the argument arrays.
-/
import proofs.«172666_j28845000360164_2_alg».proof.Proof.Spec

noncomputable section

namespace Cert.Enc.Row

open Idealize.ShloMosaic Idealize.ShloMosaic.ValueIdx
open scoped BigOperators

/-- The rectified property layer of entity `n` in one lane. -/
def propRow (e : Fin 7 → Fin 4 → EReal) (wp : Fin 4 → EReal) (bp : EReal) (n : Fin 7) : EReal :=
  max ((∑ d : Fin 4, e n d * wp d) + bp) 0

/-- The planar distance between entities `i` and `j`. -/
def distRow (e : Fin 7 → Fin 4 → EReal) (i j : Fin 7) : EReal :=
  Ideal.sqrt ((e i 0 - e j 0) * (e i 0 - e j 0) + (e i 1 - e j 1) * (e i 1 - e j 1))

/-- The rectified relation layer of the ordered pair (`i`, `j`) in one lane: `w4` the four difference weights, `wd` the
    distance weight, `br` the bias. -/
def relRow (e : Fin 7 → Fin 4 → EReal) (w4 : Fin 4 → EReal) (wd br : EReal) (i j : Fin 7) : EReal :=
  max (((∑ d : Fin 4, (e i d - e j d) * w4 d) + distRow e i j * wd) + br) 0

/-- Entity `i`'s relation layers against the six others, summed. -/
def relsumRow (e : Fin 7 → Fin 4 → EReal) (w4 : Fin 4 → EReal) (wd br : EReal) (i : Fin 7) : EReal :=
  ∑ j : Fin 7, if j = i then 0 else relRow e w4 wd br i j

/-- Lane `l` of entity `n`'s 256 outputs: a property lane below 128, a relation lane from 128 on. -/
def laneVal (e : Fin 7 → Fin 4 → EReal) (wp : Fin 4 → Fin 128 → EReal) (bp : Fin 128 → EReal)
    (w4 : Fin 4 → Fin 128 → EReal) (wd br : Fin 128 → EReal) (n : Fin 7) (l : Fin 256) : EReal :=
  if h : l.val < 128 then propRow e (fun d => wp d ⟨l.val, h⟩) (bp ⟨l.val, h⟩) n
  else relsumRow e (fun d => w4 d ⟨l.val - 128, by omega⟩) (wd ⟨l.val - 128, by omega⟩) (br ⟨l.val - 128, by omega⟩) n

abbrev BCtx : Shape := ⟨2, ![28, 1024]⟩
abbrev BOut : Shape := ⟨2, ![1024, 1792]⟩
abbrev AOut2 : Shape := ⟨2, ![16384, 1792]⟩

/-- One block of 1024 batch rows, 1792 = 7 · 256 lanes wide, from the blocks the body reads: `x0` the 28 x 1024 block of
    coordinates (batch row r in column r), `x1`, `x2` the property weights and bias, `x3` the four difference rows of the
    relation weights, `x4` their distance row, `x5` the relation bias. -/
def GB (x0 : BCtx.Idx → EReal) (x1 : Cert.Enc.AW4.Idx → EReal) (x2 : Cert.Enc.AB.Idx → EReal) (x3 : Cert.Enc.AW4.Idx → EReal)
    (x4 : Cert.Enc.AB.Idx → EReal) (x5 : Cert.Enc.AB.Idx → EReal) : BOut.Idx → EReal := fun y =>
  laneVal (fun n d => x0 (ix2 (⟨4 * n.val + d.val, by omega⟩ : Fin 28) (y 0))) (fun d h => x1 (ix2 d h)) (fun h => x2 (ix1 h))
    (fun d h => x3 (ix2 d h)) (fun h => x4 (ix1 h)) (fun h => x5 (ix1 h))
    ⟨(y 1).val / 256, by have h1 : (y 1).val < 1792 := (y 1).isLt; omega⟩ ⟨(y 1).val % 256, by omega⟩

/-- The whole output as a 16384 x 1792 matrix of the argument arrays (`wr` the five-row relation weights). -/
def G2 (ctx : Cert.Enc.ACtx.Idx → EReal) (wp : Cert.Enc.AW4.Idx → EReal) (bp : Cert.Enc.AB.Idx → EReal)
    (wr : Cert.Enc.AW5.Idx → EReal) (br : Cert.Enc.AB.Idx → EReal) : AOut2.Idx → EReal := fun y =>
  laneVal (fun n d => ctx (ix2 (⟨4 * n.val + d.val, by omega⟩ : Fin 28) (y 0))) (fun d h => wp (ix2 d h)) (fun h => bp (ix1 h))
    (fun d h => wr (ix2 d.castSucc h)) (fun h => wr (ix2 (4 : Fin 5) h)) (fun h => br (ix1 h))
    ⟨(y 1).val / 256, by have h1 : (y 1).val < 1792 := (y 1).isLt; omega⟩ ⟨(y 1).val % 256, by omega⟩

/-- The block function at an index whose coordinates are known: row `r`, lane 256 n + l. -/
theorem GB_at (x0 : BCtx.Idx → EReal) (x1 : Cert.Enc.AW4.Idx → EReal) (x2 : Cert.Enc.AB.Idx → EReal) (x3 : Cert.Enc.AW4.Idx → EReal)
    (x4 : Cert.Enc.AB.Idx → EReal) (x5 : Cert.Enc.AB.Idx → EReal) (y : BOut.Idx) (r : Fin 1024) (n : Fin 7) (l : Fin 256)
    (h0 : (y 0).val = r.val) (h1 : (y 1).val = 256 * n.val + l.val) :
    GB x0 x1 x2 x3 x4 x5 y
      = laneVal (fun n d => x0 (ix2 (⟨4 * n.val + d.val, by omega⟩ : Fin 28) r)) (fun d h => x1 (ix2 d h)) (fun h => x2 (ix1 h))
          (fun d h => x3 (ix2 d h)) (fun h => x4 (ix1 h)) (fun h => x5 (ix1 h)) n l := by
  have hl : l.val < 256 := l.isLt
  have e0 : y 0 = r := Fin.ext h0
  have e1 : (⟨(y 1).val / 256, by have h1 : (y 1).val < 1792 := (y 1).isLt; omega⟩ : Fin 7) = n := Fin.ext (by show (y 1).val / 256 = n.val; omega)
  have e2 : (⟨(y 1).val % 256, by omega⟩ : Fin 256) = l := Fin.ext (by show (y 1).val % 256 = l.val; omega)
  unfold GB
  rw [e0, e1, e2]

/-- The specification at (b, n, l) is lane `l` of entity `n` in batch row `b`. -/
theorem G_apply (ctx : Cert.Enc.ACtx.Idx → EReal) (wp : Cert.Enc.AW4.Idx → EReal) (bp : Cert.Enc.AB.Idx → EReal)
    (wr : Cert.Enc.AW5.Idx → EReal) (br : Cert.Enc.AB.Idx → EReal) (y : Cert.Enc.AOut.Idx) :
    Cert.Enc.G ctx wp bp wr br y
      = laneVal (fun n d => ctx (ix2 (⟨4 * n.val + d.val, by omega⟩ : Fin 28) (y 0))) (fun d h => wp (ix2 d h)) (fun h => bp (ix1 h))
          (fun d h => wr (ix2 d.castSucc h)) (fun h => wr (ix2 (4 : Fin 5) h)) (fun h => br (ix1 h)) (y 1) (y 2) := by
  unfold Cert.Enc.G laneVal
  split <;> rfl

end Cert.Enc.Row

end
-- ==== Proof.BlockValue.lean ====
/-
  The body's stores at an index. With `e n d` the block's coordinate d of entity n in batch row r (row 4n + d of the
  28 x 1024 block, column r), lane l of entity s's store is `laneVal e … s l`: below lane 128 the property layer, from
  128 on the relation layers of the six pairs s heads, which the body adds from zero in the order of the other entity's
  number — the sum over all seven entities with the entity itself left out.
-/
import proofs.«172666_j28845000360164_2_alg».proof.Proof.Stores
import proofs.«172666_j28845000360164_2_alg».proof.Proof.RowSpec

set_option maxRecDepth 16384

noncomputable section

namespace Cert.Enc.K

open Idealize.ShloMosaic Idealize.ShloMosaic.ValueIdx Cert.KernelIdeal Cert.KernelIdeal.Gen
open scoped BigOperators

/-- Batch row `r` of the block as a table of entity coordinates. -/
def eOf (X0 : Vec Ideal S28x1024 .f32) (r : Fin 1024) : Fin 7 → Fin 4 → EReal :=
  fun n d => X0 (ix2 (⟨4 * n.val + d.val, by omega⟩ : Fin 28) r)

/-- Lane `l` of entity `n` in batch row `r` of the block. -/
def laneOf (X0 : Vec Ideal S28x1024 .f32) (X1 : Vec Ideal S4x128 .f32) (X2 : Vec Ideal S128 .f32) (X3 : Vec Ideal S4x128 .f32)
    (X4 : Vec Ideal S128 .f32) (X5 : Vec Ideal S128 .f32) (r : Fin 1024) (n : Fin 7) (l : Fin 256) : EReal :=
  Cert.Enc.Row.laneVal (eOf X0 r) (fun d h => X1 (ix2 d h)) (fun h => X2 (ix1 h)) (fun d h => X3 (ix2 d h))
    (fun h => X4 (ix1 h)) (fun h => X5 (ix1 h)) n l

/-- The transposed block at (r, k) is the block at (k, r). -/
theorem T_apply (X0 : Vec Ideal S28x1024 .f32) (r : Fin 1024) (k : Fin 28) : k0_pay88 X0 (ix2 r k) = X0 (ix2 k r) := by
  unfold k0_pay88
  exact transpose_apply [1, 0] X0 transposes_S28x1024_p1_0_S1024x28 (ix2 r k) (ix2 k r) (fun b => match b with
    | ⟨0, _⟩ => rfl
    | ⟨1, _⟩ => rfl)

theorem w91_apply (X3 : Vec Ideal S4x128 .f32) (i : S4x128.Idx) : k0_pay91 X3 i = X3 i := by
  unfold k0_pay91
  rw [truncf_apply, shapeCast_self]

theorem w92_apply (X4 : Vec Ideal S128 .f32) (i : S128.Idx) : k0_pay92 X4 i = X4 i := by
  unfold k0_pay92
  rw [shapeCast_self]

/-- The distance the body reads for the pair (i, j) is the row's planar distance. -/
theorem dval_row (X0 : Vec Ideal S28x1024 .f32) (r : Fin 1024) (i j : Fin 7) (ha : 4 * i.val + 1 < 28) (hb : 4 * j.val + 1 < 28) :
    dval X0 r (4 * i.val) (4 * j.val) ha hb = Cert.Enc.Row.distRow (eOf X0 r) i j := rfl

/-- The property layer of the entity at column offset `oi = 4 n`, lane `c`, in row terms. -/
theorem prop_row (X0 : Vec Ideal S28x1024 .f32) (X1 : Vec Ideal S4x128 .f32) (X2 : Vec Ideal S128 .f32) (r : Fin 1024) (c : Fin 128)
    (n : Fin 7) (oi : Nat) (hoi : oi = 4 * n.val) (hi : S1024x28.Slices ![0, oi] S1024x4) :
    propTerm (k0_pay88 X0) (k0_pay90 X1) X2 oi hi (ix2 r c)
      = Cert.Enc.Row.propRow (eOf X0 r) (fun d => X1 (ix2 d c)) (X2 (ix1 c)) n := by
  subst hoi
  rw [propTerm_apply _ _ _ _ _ (by omega)]
  unfold Cert.Enc.Row.propRow eOf
  congr 2
  refine Finset.sum_congr rfl fun d _ => ?_
  rw [T_apply]
  rfl

/-- The relation layer of the pair (i, j) at column offsets `4 i`, `4 j` and distance column `p`, lane `c`, in row terms. -/
theorem rel_row (X0 : Vec Ideal S28x1024 .f32) (X3 : Vec Ideal S4x128 .f32) (X4 : Vec Ideal S128 .f32) (X5 : Vec Ideal S128 .f32)
    (r : Fin 1024) (c : Fin 128) (i j : Fin 7) (oi oj p : Nat) (hoi : oi = 4 * i.val) (hoj : oj = 4 * j.val)
    (hi : S1024x28.Slices ![0, oi] S1024x4) (hj : S1024x28.Slices ![0, oj] S1024x4) (hp : S1024x42.Slices ![0, p] S1024x1) (hpp : p < 42)
    (hD : Dist X0 (ix2 r (⟨p, hpp⟩ : Fin 42)) = dval X0 r oi oj (by omega) (by omega)) :
    relTerm (k0_pay88 X0) (Dist X0) (k0_pay91 X3) (k0_pay92 X4) X5 oi oj p hi hj hp (ix2 r c)
      = Cert.Enc.Row.relRow (eOf X0 r) (fun d => X3 (ix2 d c)) (X4 (ix1 c)) (X5 (ix1 c)) i j := by
  subst hoi hoj
  rw [relTerm_apply _ _ _ _ _ _ _ _ _ _ _ (by omega) (by omega) hpp, hD, dval_row, w92_apply]
  unfold Cert.Enc.Row.relRow eOf
  congr 3
  refine Finset.sum_congr rfl fun d _ => ?_
  rw [T_apply, T_apply, w91_apply]

/-- Entity 0's block at row `r`, lane `l`. -/
theorem blk_0_apply (X0 : Vec Ideal S28x1024 .f32) (X1 : Vec Ideal S4x128 .f32) (X2 : Vec Ideal S128 .f32) (X3 : Vec Ideal S4x128 .f32) (X4 : Vec Ideal S128 .f32) (X5 : Vec Ideal S128 .f32) (r : Fin 1024) (l : Fin 256) :
    (entBlock (propTerm (k0_pay88 X0) (k0_pay90 X1) X2 0 slices_S1024x28_o0_0_S1024x4) (acc6 (relTerm (k0_pay88 X0) (Dist X0) (k0_pay91 X3) (k0_pay92 X4) X5 0 4 0 slices_S1024x28_o0_0_S1024x4 slices_S1024x28_o0_4_S1024x4 slices_S1024x42_o0_0_S1024x1)
      (relTerm (k0_pay88 X0) (Dist X0) (k0_pay91 X3) (k0_pay92 X4) X5 0 8 1 slices_S1024x28_o0_0_S1024x4 slices_S1024x28_o0_8_S1024x4 slices_S1024x42_o0_1_S1024x1)
      (relTerm (k0_pay88 X0) (Dist X0) (k0_pay91 X3) (k0_pay92 X4) X5 0 12 2 slices_S1024x28_o0_0_S1024x4 slices_S1024x28_o0_12_S1024x4 slices_S1024x42_o0_2_S1024x1)
      (relTerm (k0_pay88 X0) (Dist X0) (k0_pay91 X3) (k0_pay92 X4) X5 0 16 3 slices_S1024x28_o0_0_S1024x4 slices_S1024x28_o0_16_S1024x4 slices_S1024x42_o0_3_S1024x1)
      (relTerm (k0_pay88 X0) (Dist X0) (k0_pay91 X3) (k0_pay92 X4) X5 0 20 4 slices_S1024x28_o0_0_S1024x4 slices_S1024x28_o0_20_S1024x4 slices_S1024x42_o0_4_S1024x1)
      (relTerm (k0_pay88 X0) (Dist X0) (k0_pay91 X3) (k0_pay92 X4) X5 0 24 5 slices_S1024x28_o0_0_S1024x4 slices_S1024x28_o0_24_S1024x4 slices_S1024x42_o0_5_S1024x1))) (ix2 r l)
      = laneOf X0 X1 X2 X3 X4 X5 r (0 : Fin 7) l := by
  unfold laneOf Cert.Enc.Row.laneVal entBlock
  split
  · next h =>
    rw [entBlock_left _ _ r ⟨l.val, h⟩ l rfl]
    exact prop_row X0 X1 X2 r ⟨l.val, h⟩ (0 : Fin 7) 0 rfl _
  · next h =>
    have hl : l.val < 256 := l.isLt
    rw [entBlock_right _ _ r ⟨l.val - 128, by omega⟩ l (by show l.val = 128 + (l.val - 128); omega)]
    generalize (⟨l.val - 128, by omega⟩ : Fin 128) = c
    rw [acc6_apply]
    rw [rel_row X0 X3 X4 X5 r c (0 : Fin 7) (1 : Fin 7) 0 4 0 rfl rfl _ _ _ (by decide) (Dist_at_0 X0 r),
      rel_row X0 X3 X4 X5 r c (0 : Fin 7) (2 : Fin 7) 0 8 1 rfl rfl _ _ _ (by decide) (Dist_at_1 X0 r),
      rel_row X0 X3 X4 X5 r c (0 : Fin 7) (3 : Fin 7) 0 12 2 rfl rfl _ _ _ (by decide) (Dist_at_2 X0 r),
      rel_row X0 X3 X4 X5 r c (0 : Fin 7) (4 : Fin 7) 0 16 3 rfl rfl _ _ _ (by decide) (Dist_at_3 X0 r),
      rel_row X0 X3 X4 X5 r c (0 : Fin 7) (5 : Fin 7) 0 20 4 rfl rfl _ _ _ (by decide) (Dist_at_4 X0 r),
      rel_row X0 X3 X4 X5 r c (0 : Fin 7) (6 : Fin 7) 0 24 5 rfl rfl _ _ _ (by decide) (Dist_at_5 X0 r)]
    rw [Cert.Enc.Row.relsumRow, Fin.sum_univ_seven]
    simp only [Fin.reduceEq, if_true, if_false, ↓reduceIte, add_zero, zero_add]

/-- Entity 1's block at row `r`, lane `l`. -/
theorem blk_1_apply (X0 : Vec Ideal S28x1024 .f32) (X1 : Vec Ideal S4x128 .f32) (X2 : Vec Ideal S128 .f32) (X3 : Vec Ideal S4x128 .f32) (X4 : Vec Ideal S128 .f32) (X5 : Vec Ideal S128 .f32) (r : Fin 1024) (l : Fin 256) :
    (entBlock (propTerm (k0_pay88 X0) (k0_pay90 X1) X2 4 slices_S1024x28_o0_4_S1024x4) (acc6 (relTerm (k0_pay88 X0) (Dist X0) (k0_pay91 X3) (k0_pay92 X4) X5 4 0 6 slices_S1024x28_o0_4_S1024x4 slices_S1024x28_o0_0_S1024x4 slices_S1024x42_o0_6_S1024x1)
      (relTerm (k0_pay88 X0) (Dist X0) (k0_pay91 X3) (k0_pay92 X4) X5 4 8 7 slices_S1024x28_o0_4_S1024x4 slices_S1024x28_o0_8_S1024x4 slices_S1024x42_o0_7_S1024x1)
      (relTerm (k0_pay88 X0) (Dist X0) (k0_pay91 X3) (k0_pay92 X4) X5 4 12 8 slices_S1024x28_o0_4_S1024x4 slices_S1024x28_o0_12_S1024x4 slices_S1024x42_o0_8_S1024x1)
      (relTerm (k0_pay88 X0) (Dist X0) (k0_pay91 X3) (k0_pay92 X4) X5 4 16 9 slices_S1024x28_o0_4_S1024x4 slices_S1024x28_o0_16_S1024x4 slices_S1024x42_o0_9_S1024x1)
      (relTerm (k0_pay88 X0) (Dist X0) (k0_pay91 X3) (k0_pay92 X4) X5 4 20 10 slices_S1024x28_o0_4_S1024x4 slices_S1024x28_o0_20_S1024x4 slices_S1024x42_o0_10_S1024x1)
      (relTerm (k0_pay88 X0) (Dist X0) (k0_pay91 X3) (k0_pay92 X4) X5 4 24 11 slices_S1024x28_o0_4_S1024x4 slices_S1024x28_o0_24_S1024x4 slices_S1024x42_o0_11_S1024x1))) (ix2 r l)
      = laneOf X0 X1 X2 X3 X4 X5 r (1 : Fin 7) l := by
  unfold laneOf Cert.Enc.Row.laneVal entBlock
  split
  · next h =>
    rw [entBlock_left _ _ r ⟨l.val, h⟩ l rfl]
    exact prop_row X0 X1 X2 r ⟨l.val, h⟩ (1 : Fin 7) 4 rfl _
  · next h =>
    have hl : l.val < 256 := l.isLt
    rw [entBlock_right _ _ r ⟨l.val - 128, by omega⟩ l (by show l.val = 128 + (l.val - 128); omega)]
    generalize (⟨l.val - 128, by omega⟩ : Fin 128) = c
    rw [acc6_apply]
    rw [rel_row X0 X3 X4 X5 r c (1 : Fin 7) (0 : Fin 7) 4 0 6 rfl rfl _ _ _ (by decide) (Dist_at_6 X0 r),
      rel_row X0 X3 X4 X5 r c (1 : Fin 7) (2 : Fin 7) 4 8 7 rfl rfl _ _ _ (by decide) (Dist_at_7 X0 r),
      rel_row X0 X3 X4 X5 r c (1 : Fin 7) (3 : Fin 7) 4 12 8 rfl rfl _ _ _ (by decide) (Dist_at_8 X0 r),
      rel_row X0 X3 X4 X5 r c (1 : Fin 7) (4 : Fin 7) 4 16 9 rfl rfl _ _ _ (by decide) (Dist_at_9 X0 r),
      rel_row X0 X3 X4 X5 r c (1 : Fin 7) (5 : Fin 7) 4 20 10 rfl rfl _ _ _ (by decide) (Dist_at_10 X0 r),
      rel_row X0 X3 X4 X5 r c (1 : Fin 7) (6 : Fin 7) 4 24 11 rfl rfl _ _ _ (by decide) (Dist_at_11 X0 r)]
    rw [Cert.Enc.Row.relsumRow, Fin.sum_univ_seven]
    simp only [Fin.reduceEq, if_true, if_false, ↓reduceIte, add_zero, zero_add]

/-- Entity 2's block at row `r`, lane `l`. -/
theorem blk_2_apply (X0 : Vec Ideal S28x1024 .f32) (X1 : Vec Ideal S4x128 .f32) (X2 : Vec Ideal S128 .f32) (X3 : Vec Ideal S4x128 .f32) (X4 : Vec Ideal S128 .f32) (X5 : Vec Ideal S128 .f32) (r : Fin 1024) (l : Fin 256) :
    (entBlock (propTerm (k0_pay88 X0) (k0_pay90 X1) X2 8 slices_S1024x28_o0_8_S1024x4) (acc6 (relTerm (k0_pay88 X0) (Dist X0) (k0_pay91 X3) (k0_pay92 X4) X5 8 0 12 slices_S1024x28_o0_8_S1024x4 slices_S1024x28_o0_0_S1024x4 slices_S1024x42_o0_12_S1024x1)
      (relTerm (k0_pay88 X0) (Dist X0) (k0_pay91 X3) (k0_pay92 X4) X5 8 4 13 slices_S1024x28_o0_8_S1024x4 slices_S1024x28_o0_4_S1024x4 slices_S1024x42_o0_13_S1024x1)
      (relTerm (k0_pay88 X0) (Dist X0) (k0_pay91 X3) (k0_pay92 X4) X5 8 12 14 slices_S1024x28_o0_8_S1024x4 slices_S1024x28_o0_12_S1024x4 slices_S1024x42_o0_14_S1024x1)
      (relTerm (k0_pay88 X0) (Dist X0) (k0_pay91 X3) (k0_pay92 X4) X5 8 16 15 slices_S1024x28_o0_8_S1024x4 slices_S1024x28_o0_16_S1024x4 slices_S1024x42_o0_15_S1024x1)
      (relTerm (k0_pay88 X0) (Dist X0) (k0_pay91 X3) (k0_pay92 X4) X5 8 20 16 slices_S1024x28_o0_8_S1024x4 slices_S1024x28_o0_20_S1024x4 slices_S1024x42_o0_16_S1024x1)
      (relTerm (k0_pay88 X0) (Dist X0) (k0_pay91 X3) (k0_pay92 X4) X5 8 24 17 slices_S1024x28_o0_8_S1024x4 slices_S1024x28_o0_24_S1024x4 slices_S1024x42_o0_17_S1024x1))) (ix2 r l)
      = laneOf X0 X1 X2 X3 X4 X5 r (2 : Fin 7) l := by
  unfold laneOf Cert.Enc.Row.laneVal entBlock
  split
  · next h =>
    rw [entBlock_left _ _ r ⟨l.val, h⟩ l rfl]
    exact prop_row X0 X1 X2 r ⟨l.val, h⟩ (2 : Fin 7) 8 rfl _
  · next h =>
    have hl : l.val < 256 := l.isLt
    rw [entBlock_right _ _ r ⟨l.val - 128, by omega⟩ l (by show l.val = 128 + (l.val - 128); omega)]
    generalize (⟨l.val - 128, by omega⟩ : Fin 128) = c
    rw [acc6_apply]
    rw [rel_row X0 X3 X4 X5 r c (2 : Fin 7) (0 : Fin 7) 8 0 12 rfl rfl _ _ _ (by decide) (Dist_at_12 X0 r),
      rel_row X0 X3 X4 X5 r c (2 : Fin 7) (1 : Fin 7) 8 4 13 rfl rfl _ _ _ (by decide) (Dist_at_13 X0 r),
      rel_row X0 X3 X4 X5 r c (2 : Fin 7) (3 : Fin 7) 8 12 14 rfl rfl _ _ _ (by decide) (Dist_at_14 X0 r),
      rel_row X0 X3 X4 X5 r c (2 : Fin 7) (4 : Fin 7) 8 16 15 rfl rfl _ _ _ (by decide) (Dist_at_15 X0 r),
      rel_row X0 X3 X4 X5 r c (2 : Fin 7) (5 : Fin 7) 8 20 16 rfl rfl _ _ _ (by decide) (Dist_at_16 X0 r),
      rel_row X0 X3 X4 X5 r c (2 : Fin 7) (6 : Fin 7) 8 24 17 rfl rfl _ _ _ (by decide) (Dist_at_17 X0 r)]
    rw [Cert.Enc.Row.relsumRow, Fin.sum_univ_seven]
    simp only [Fin.reduceEq, if_true, if_false, ↓reduceIte, add_zero, zero_add]

/-- Entity 3's block at row `r`, lane `l`. -/
theorem blk_3_apply (X0 : Vec Ideal S28x1024 .f32) (X1 : Vec Ideal S4x128 .f32) (X2 : Vec Ideal S128 .f32) (X3 : Vec Ideal S4x128 .f32) (X4 : Vec Ideal S128 .f32) (X5 : Vec Ideal S128 .f32) (r : Fin 1024) (l : Fin 256) :
    (entBlock (propTerm (k0_pay88 X0) (k0_pay90 X1) X2 12 slices_S1024x28_o0_12_S1024x4) (acc6 (relTerm (k0_pay88 X0) (Dist X0) (k0_pay91 X3) (k0_pay92 X4) X5 12 0 18 slices_S1024x28_o0_12_S1024x4 slices_S1024x28_o0_0_S1024x4 slices_S1024x42_o0_18_S1024x1)
      (relTerm (k0_pay88 X0) (Dist X0) (k0_pay91 X3) (k0_pay92 X4) X5 12 4 19 slices_S1024x28_o0_12_S1024x4 slices_S1024x28_o0_4_S1024x4 slices_S1024x42_o0_19_S1024x1)
      (relTerm (k0_pay88 X0) (Dist X0) (k0_pay91 X3) (k0_pay92 X4) X5 12 8 20 slices_S1024x28_o0_12_S1024x4 slices_S1024x28_o0_8_S1024x4 slices_S1024x42_o0_20_S1024x1)
      (relTerm (k0_pay88 X0) (Dist X0) (k0_pay91 X3) (k0_pay92 X4) X5 12 16 21 slices_S1024x28_o0_12_S1024x4 slices_S1024x28_o0_16_S1024x4 slices_S1024x42_o0_21_S1024x1)
      (relTerm (k0_pay88 X0) (Dist X0) (k0_pay91 X3) (k0_pay92 X4) X5 12 20 22 slices_S1024x28_o0_12_S1024x4 slices_S1024x28_o0_20_S1024x4 slices_S1024x42_o0_22_S1024x1)
      (relTerm (k0_pay88 X0) (Dist X0) (k0_pay91 X3) (k0_pay92 X4) X5 12 24 23 slices_S1024x28_o0_12_S1024x4 slices_S1024x28_o0_24_S1024x4 slices_S1024x42_o0_23_S1024x1))) (ix2 r l)
      = laneOf X0 X1 X2 X3 X4 X5 r (3 : Fin 7) l := by
  unfold laneOf Cert.Enc.Row.laneVal entBlock
  split
  · next h =>
    rw [entBlock_left _ _ r ⟨l.val, h⟩ l rfl]
    exact prop_row X0 X1 X2 r ⟨l.val, h⟩ (3 : Fin 7) 12 rfl _
  · next h =>
    have hl : l.val < 256 := l.isLt
    rw [entBlock_right _ _ r ⟨l.val - 128, by omega⟩ l (by show l.val = 128 + (l.val - 128); omega)]
    generalize (⟨l.val - 128, by omega⟩ : Fin 128) = c
    rw [acc6_apply]
    rw [rel_row X0 X3 X4 X5 r c (3 : Fin 7) (0 : Fin 7) 12 0 18 rfl rfl _ _ _ (by decide) (Dist_at_18 X0 r),
      rel_row X0 X3 X4 X5 r c (3 : Fin 7) (1 : Fin 7) 12 4 19 rfl rfl _ _ _ (by decide) (Dist_at_19 X0 r),
      rel_row X0 X3 X4 X5 r c (3 : Fin 7) (2 : Fin 7) 12 8 20 rfl rfl _ _ _ (by decide) (Dist_at_20 X0 r),
      rel_row X0 X3 X4 X5 r c (3 : Fin 7) (4 : Fin 7) 12 16 21 rfl rfl _ _ _ (by decide) (Dist_at_21 X0 r),
      rel_row X0 X3 X4 X5 r c (3 : Fin 7) (5 : Fin 7) 12 20 22 rfl rfl _ _ _ (by decide) (Dist_at_22 X0 r),
      rel_row X0 X3 X4 X5 r c (3 : Fin 7) (6 : Fin 7) 12 24 23 rfl rfl _ _ _ (by decide) (Dist_at_23 X0 r)]
    rw [Cert.Enc.Row.relsumRow, Fin.sum_univ_seven]
    simp only [Fin.reduceEq, if_true, if_false, ↓reduceIte, add_zero, zero_add]

/-- Entity 4's block at row `r`, lane `l`. -/
theorem blk_4_apply (X0 : Vec Ideal S28x1024 .f32) (X1 : Vec Ideal S4x128 .f32) (X2 : Vec Ideal S128 .f32) (X3 : Vec Ideal S4x128 .f32) (X4 : Vec Ideal S128 .f32) (X5 : Vec Ideal S128 .f32) (r : Fin 1024) (l : Fin 256) :
    (entBlock (propTerm (k0_pay88 X0) (k0_pay90 X1) X2 16 slices_S1024x28_o0_16_S1024x4) (acc6 (relTerm (k0_pay88 X0) (Dist X0) (k0_pay91 X3) (k0_pay92 X4) X5 16 0 24 slices_S1024x28_o0_16_S1024x4 slices_S1024x28_o0_0_S1024x4 slices_S1024x42_o0_24_S1024x1)
      (relTerm (k0_pay88 X0) (Dist X0) (k0_pay91 X3) (k0_pay92 X4) X5 16 4 25 slices_S1024x28_o0_16_S1024x4 slices_S1024x28_o0_4_S1024x4 slices_S1024x42_o0_25_S1024x1)
      (relTerm (k0_pay88 X0) (Dist X0) (k0_pay91 X3) (k0_pay92 X4) X5 16 8 26 slices_S1024x28_o0_16_S1024x4 slices_S1024x28_o0_8_S1024x4 slices_S1024x42_o0_26_S1024x1)
      (relTerm (k0_pay88 X0) (Dist X0) (k0_pay91 X3) (k0_pay92 X4) X5 16 12 27 slices_S1024x28_o0_16_S1024x4 slices_S1024x28_o0_12_S1024x4 slices_S1024x42_o0_27_S1024x1)
      (relTerm (k0_pay88 X0) (Dist X0) (k0_pay91 X3) (k0_pay92 X4) X5 16 20 28 slices_S1024x28_o0_16_S1024x4 slices_S1024x28_o0_20_S1024x4 slices_S1024x42_o0_28_S1024x1)
      (relTerm (k0_pay88 X0) (Dist X0) (k0_pay91 X3) (k0_pay92 X4) X5 16 24 29 slices_S1024x28_o0_16_S1024x4 slices_S1024x28_o0_24_S1024x4 slices_S1024x42_o0_29_S1024x1))) (ix2 r l)
      = laneOf X0 X1 X2 X3 X4 X5 r (4 : Fin 7) l := by
  unfold laneOf Cert.Enc.Row.laneVal entBlock
  split
  · next h =>
    rw [entBlock_left _ _ r ⟨l.val, h⟩ l rfl]
    exact prop_row X0 X1 X2 r ⟨l.val, h⟩ (4 : Fin 7) 16 rfl _
  · next h =>
    have hl : l.val < 256 := l.isLt
    rw [entBlock_right _ _ r ⟨l.val - 128, by omega⟩ l (by show l.val = 128 + (l.val - 128); omega)]
    generalize (⟨l.val - 128, by omega⟩ : Fin 128) = c
    rw [acc6_apply]
    rw [rel_row X0 X3 X4 X5 r c (4 : Fin 7) (0 : Fin 7) 16 0 24 rfl rfl _ _ _ (by decide) (Dist_at_24 X0 r),
      rel_row X0 X3 X4 X5 r c (4 : Fin 7) (1 : Fin 7) 16 4 25 rfl rfl _ _ _ (by decide) (Dist_at_25 X0 r),
      rel_row X0 X3 X4 X5 r c (4 : Fin 7) (2 : Fin 7) 16 8 26 rfl rfl _ _ _ (by decide) (Dist_at_26 X0 r),
      rel_row X0 X3 X4 X5 r c (4 : Fin 7) (3 : Fin 7) 16 12 27 rfl rfl _ _ _ (by decide) (Dist_at_27 X0 r),
      rel_row X0 X3 X4 X5 r c (4 : Fin 7) (5 : Fin 7) 16 20 28 rfl rfl _ _ _ (by decide) (Dist_at_28 X0 r),
      rel_row X0 X3 X4 X5 r c (4 : Fin 7) (6 : Fin 7) 16 24 29 rfl rfl _ _ _ (by decide) (Dist_at_29 X0 r)]
    rw [Cert.Enc.Row.relsumRow, Fin.sum_univ_seven]
    simp only [Fin.reduceEq, if_true, if_false, ↓reduceIte, add_zero, zero_add]

/-- Entity 5's block at row `r`, lane `l`. -/
theorem blk_5_apply (X0 : Vec Ideal S28x1024 .f32) (X1 : Vec Ideal S4x128 .f32) (X2 : Vec Ideal S128 .f32) (X3 : Vec Ideal S4x128 .f32) (X4 : Vec Ideal S128 .f32) (X5 : Vec Ideal S128 .f32) (r : Fin 1024) (l : Fin 256) :
    (entBlock (propTerm (k0_pay88 X0) (k0_pay90 X1) X2 20 slices_S1024x28_o0_20_S1024x4) (acc6 (relTerm (k0_pay88 X0) (Dist X0) (k0_pay91 X3) (k0_pay92 X4) X5 20 0 30 slices_S1024x28_o0_20_S1024x4 slices_S1024x28_o0_0_S1024x4 slices_S1024x42_o0_30_S1024x1)
      (relTerm (k0_pay88 X0) (Dist X0) (k0_pay91 X3) (k0_pay92 X4) X5 20 4 31 slices_S1024x28_o0_20_S1024x4 slices_S1024x28_o0_4_S1024x4 slices_S1024x42_o0_31_S1024x1)
      (relTerm (k0_pay88 X0) (Dist X0) (k0_pay91 X3) (k0_pay92 X4) X5 20 8 32 slices_S1024x28_o0_20_S1024x4 slices_S1024x28_o0_8_S1024x4 slices_S1024x42_o0_32_S1024x1)
      (relTerm (k0_pay88 X0) (Dist X0) (k0_pay91 X3) (k0_pay92 X4) X5 20 12 33 slices_S1024x28_o0_20_S1024x4 slices_S1024x28_o0_12_S1024x4 slices_S1024x42_o0_33_S1024x1)
      (relTerm (k0_pay88 X0) (Dist X0) (k0_pay91 X3) (k0_pay92 X4) X5 20 16 34 slices_S1024x28_o0_20_S1024x4 slices_S1024x28_o0_16_S1024x4 slices_S1024x42_o0_34_S1024x1)
      (relTerm (k0_pay88 X0) (Dist X0) (k0_pay91 X3) (k0_pay92 X4) X5 20 24 35 slices_S1024x28_o0_20_S1024x4 slices_S1024x28_o0_24_S1024x4 slices_S1024x42_o0_35_S1024x1))) (ix2 r l)
      = laneOf X0 X1 X2 X3 X4 X5 r (5 : Fin 7) l := by
  unfold laneOf Cert.Enc.Row.laneVal entBlock
  split
  · next h =>
    rw [entBlock_left _ _ r ⟨l.val, h⟩ l rfl]
    exact prop_row X0 X1 X2 r ⟨l.val, h⟩ (5 : Fin 7) 20 rfl _
  · next h =>
    have hl : l.val < 256 := l.isLt
    rw [entBlock_right _ _ r ⟨l.val - 128, by omega⟩ l (by show l.val = 128 + (l.val - 128); omega)]
    generalize (⟨l.val - 128, by omega⟩ : Fin 128) = c
    rw [acc6_apply]
    rw [rel_row X0 X3 X4 X5 r c (5 : Fin 7) (0 : Fin 7) 20 0 30 rfl rfl _ _ _ (by decide) (Dist_at_30 X0 r),
      rel_row X0 X3 X4 X5 r c (5 : Fin 7) (1 : Fin 7) 20 4 31 rfl rfl _ _ _ (by decide) (Dist_at_31 X0 r),
      rel_row X0 X3 X4 X5 r c (5 : Fin 7) (2 : Fin 7) 20 8 32 rfl rfl _ _ _ (by decide) (Dist_at_32 X0 r),
      rel_row X0 X3 X4 X5 r c (5 : Fin 7) (3 : Fin 7) 20 12 33 rfl rfl _ _ _ (by decide) (Dist_at_33 X0 r),
      rel_row X0 X3 X4 X5 r c (5 : Fin 7) (4 : Fin 7) 20 16 34 rfl rfl _ _ _ (by decide) (Dist_at_34 X0 r),
      rel_row X0 X3 X4 X5 r c (5 : Fin 7) (6 : Fin 7) 20 24 35 rfl rfl _ _ _ (by decide) (Dist_at_35 X0 r)]
    rw [Cert.Enc.Row.relsumRow, Fin.sum_univ_seven]
    simp only [Fin.reduceEq, if_true, if_false, ↓reduceIte, add_zero, zero_add]

/-- Entity 6's block at row `r`, lane `l`. -/
theorem blk_6_apply (X0 : Vec Ideal S28x1024 .f32) (X1 : Vec Ideal S4x128 .f32) (X2 : Vec Ideal S128 .f32) (X3 : Vec Ideal S4x128 .f32) (X4 : Vec Ideal S128 .f32) (X5 : Vec Ideal S128 .f32) (r : Fin 1024) (l : Fin 256) :
    (entBlock (propTerm (k0_pay88 X0) (k0_pay90 X1) X2 24 slices_S1024x28_o0_24_S1024x4) (acc6 (relTerm (k0_pay88 X0) (Dist X0) (k0_pay91 X3) (k0_pay92 X4) X5 24 0 36 slices_S1024x28_o0_24_S1024x4 slices_S1024x28_o0_0_S1024x4 slices_S1024x42_o0_36_S1024x1)
      (relTerm (k0_pay88 X0) (Dist X0) (k0_pay91 X3) (k0_pay92 X4) X5 24 4 37 slices_S1024x28_o0_24_S1024x4 slices_S1024x28_o0_4_S1024x4 slices_S1024x42_o0_37_S1024x1)
      (relTerm (k0_pay88 X0) (Dist X0) (k0_pay91 X3) (k0_pay92 X4) X5 24 8 38 slices_S1024x28_o0_24_S1024x4 slices_S1024x28_o0_8_S1024x4 slices_S1024x42_o0_38_S1024x1)
      (relTerm (k0_pay88 X0) (Dist X0) (k0_pay91 X3) (k0_pay92 X4) X5 24 12 39 slices_S1024x28_o0_24_S1024x4 slices_S1024x28_o0_12_S1024x4 slices_S1024x42_o0_39_S1024x1)
      (relTerm (k0_pay88 X0) (Dist X0) (k0_pay91 X3) (k0_pay92 X4) X5 24 16 40 slices_S1024x28_o0_24_S1024x4 slices_S1024x28_o0_16_S1024x4 slices_S1024x42_o0_40_S1024x1)
      (relTerm (k0_pay88 X0) (Dist X0) (k0_pay91 X3) (k0_pay92 X4) X5 24 20 41 slices_S1024x28_o0_24_S1024x4 slices_S1024x28_o0_20_S1024x4 slices_S1024x42_o0_41_S1024x1))) (ix2 r l)
      = laneOf X0 X1 X2 X3 X4 X5 r (6 : Fin 7) l := by
  unfold laneOf Cert.Enc.Row.laneVal entBlock
  split
  · next h =>
    rw [entBlock_left _ _ r ⟨l.val, h⟩ l rfl]
    exact prop_row X0 X1 X2 r ⟨l.val, h⟩ (6 : Fin 7) 24 rfl _
  · next h =>
    have hl : l.val < 256 := l.isLt
    rw [entBlock_right _ _ r ⟨l.val - 128, by omega⟩ l (by show l.val = 128 + (l.val - 128); omega)]
    generalize (⟨l.val - 128, by omega⟩ : Fin 128) = c
    rw [acc6_apply]
    rw [rel_row X0 X3 X4 X5 r c (6 : Fin 7) (0 : Fin 7) 24 0 36 rfl rfl _ _ _ (by decide) (Dist_at_36 X0 r),
      rel_row X0 X3 X4 X5 r c (6 : Fin 7) (1 : Fin 7) 24 4 37 rfl rfl _ _ _ (by decide) (Dist_at_37 X0 r),
      rel_row X0 X3 X4 X5 r c (6 : Fin 7) (2 : Fin 7) 24 8 38 rfl rfl _ _ _ (by decide) (Dist_at_38 X0 r),
      rel_row X0 X3 X4 X5 r c (6 : Fin 7) (3 : Fin 7) 24 12 39 rfl rfl _ _ _ (by decide) (Dist_at_39 X0 r),
      rel_row X0 X3 X4 X5 r c (6 : Fin 7) (4 : Fin 7) 24 16 40 rfl rfl _ _ _ (by decide) (Dist_at_40 X0 r),
      rel_row X0 X3 X4 X5 r c (6 : Fin 7) (5 : Fin 7) 24 20 41 rfl rfl _ _ _ (by decide) (Dist_at_41 X0 r)]
    rw [Cert.Enc.Row.relsumRow, Fin.sum_univ_seven]
    simp only [Fin.reduceEq, if_true, if_false, ↓reduceIte, add_zero, zero_add]

end Cert.Enc.K

end
-- ==== Proof.BodyValue.lean ====
/-
  What the body leaves in the output block: the seven stores tile the 1024 x 1792 block, entity s's lanes in columns
  256 s .. 256 s + 255, and each store agrees there with the one block function `GB` of the blocks read; so the block
  after the body is `GB` of them.
-/
import proofs.«172666_j28845000360164_2_alg».proof.Proof.FramePatchedKernelIdeal
import proofs.«172666_j28845000360164_2_alg».proof.Proof.BlockValue

set_option maxRecDepth 16384

noncomputable section

namespace Cert.Enc.K

open Idealize.ShloMosaic Idealize.ShloMosaic.ValueIdx Cert.KernelIdeal Cert.KernelIdeal.Gen Cert.KernelIdeal.GenP

theorem hz2 : (![0, 0] : Fin 2 → Nat) = fun _ => 0 := by
  funext a; fin_cases a <;> rfl

theorem hz1 : (![0] : Fin 1 → Nat) = fun _ => 0 := by
  funext a; fin_cases a; rfl

/-- The output block after the body, store by store (last store first), each store's payload as the entity's block. -/
theorem out_stores {F : FTy → Type} [FloatOps F] (x0 : Vec F S28x1024 .f32) (x1 : Vec F S4x128 .f32) (x2 : Vec F S128 .f32) (x3 : Vec F S4x128 .f32) (x4 : Vec F S128 .f32) (x5 : Vec F S128 .f32) :
    out0_6 x0 x1 x2 x3 x4 x5 = View.canon [
      ⟨r0_9, entBlock (propTerm (k0_pay88 (View.ld x0 r0_0)) (k0_pay90 (View.ld x1 r0_1)) (View.ld x2 r0_2) 24 slices_S1024x28_o0_24_S1024x4) (acc6 (relTerm (k0_pay88 (View.ld x0 r0_0)) (Dist (View.ld x0 r0_0)) (k0_pay91 (View.ld x3 r0_1)) (k0_pay92 (View.ld x4 r0_2)) (View.ld x5 r0_2) 24 0 36 slices_S1024x28_o0_24_S1024x4 slices_S1024x28_o0_0_S1024x4 slices_S1024x42_o0_36_S1024x1)
      (relTerm (k0_pay88 (View.ld x0 r0_0)) (Dist (View.ld x0 r0_0)) (k0_pay91 (View.ld x3 r0_1)) (k0_pay92 (View.ld x4 r0_2)) (View.ld x5 r0_2) 24 4 37 slices_S1024x28_o0_24_S1024x4 slices_S1024x28_o0_4_S1024x4 slices_S1024x42_o0_37_S1024x1)
      (relTerm (k0_pay88 (View.ld x0 r0_0)) (Dist (View.ld x0 r0_0)) (k0_pay91 (View.ld x3 r0_1)) (k0_pay92 (View.ld x4 r0_2)) (View.ld x5 r0_2) 24 8 38 slices_S1024x28_o0_24_S1024x4 slices_S1024x28_o0_8_S1024x4 slices_S1024x42_o0_38_S1024x1)
      (relTerm (k0_pay88 (View.ld x0 r0_0)) (Dist (View.ld x0 r0_0)) (k0_pay91 (View.ld x3 r0_1)) (k0_pay92 (View.ld x4 r0_2)) (View.ld x5 r0_2) 24 12 39 slices_S1024x28_o0_24_S1024x4 slices_S1024x28_o0_12_S1024x4 slices_S1024x42_o0_39_S1024x1)
      (relTerm (k0_pay88 (View.ld x0 r0_0)) (Dist (View.ld x0 r0_0)) (k0_pay91 (View.ld x3 r0_1)) (k0_pay92 (View.ld x4 r0_2)) (View.ld x5 r0_2) 24 16 40 slices_S1024x28_o0_24_S1024x4 slices_S1024x28_o0_16_S1024x4 slices_S1024x42_o0_40_S1024x1)
      (relTerm (k0_pay88 (View.ld x0 r0_0)) (Dist (View.ld x0 r0_0)) (k0_pay91 (View.ld x3 r0_1)) (k0_pay92 (View.ld x4 r0_2)) (View.ld x5 r0_2) 24 20 41 slices_S1024x28_o0_24_S1024x4 slices_S1024x28_o0_20_S1024x4 slices_S1024x42_o0_41_S1024x1))⟩,
      ⟨r0_8, entBlock (propTerm (k0_pay88 (View.ld x0 r0_0)) (k0_pay90 (View.ld x1 r0_1)) (View.ld x2 r0_2) 20 slices_S1024x28_o0_20_S1024x4) (acc6 (relTerm (k0_pay88 (View.ld x0 r0_0)) (Dist (View.ld x0 r0_0)) (k0_pay91 (View.ld x3 r0_1)) (k0_pay92 (View.ld x4 r0_2)) (View.ld x5 r0_2) 20 0 30 slices_S1024x28_o0_20_S1024x4 slices_S1024x28_o0_0_S1024x4 slices_S1024x42_o0_30_S1024x1)
      (relTerm (k0_pay88 (View.ld x0 r0_0)) (Dist (View.ld x0 r0_0)) (k0_pay91 (View.ld x3 r0_1)) (k0_pay92 (View.ld x4 r0_2)) (View.ld x5 r0_2) 20 4 31 slices_S1024x28_o0_20_S1024x4 slices_S1024x28_o0_4_S1024x4 slices_S1024x42_o0_31_S1024x1)
      (relTerm (k0_pay88 (View.ld x0 r0_0)) (Dist (View.ld x0 r0_0)) (k0_pay91 (View.ld x3 r0_1)) (k0_pay92 (View.ld x4 r0_2)) (View.ld x5 r0_2) 20 8 32 slices_S1024x28_o0_20_S1024x4 slices_S1024x28_o0_8_S1024x4 slices_S1024x42_o0_32_S1024x1)
      (relTerm (k0_pay88 (View.ld x0 r0_0)) (Dist (View.ld x0 r0_0)) (k0_pay91 (View.ld x3 r0_1)) (k0_pay92 (View.ld x4 r0_2)) (View.ld x5 r0_2) 20 12 33 slices_S1024x28_o0_20_S1024x4 slices_S1024x28_o0_12_S1024x4 slices_S1024x42_o0_33_S1024x1)
      (relTerm (k0_pay88 (View.ld x0 r0_0)) (Dist (View.ld x0 r0_0)) (k0_pay91 (View.ld x3 r0_1)) (k0_pay92 (View.ld x4 r0_2)) (View.ld x5 r0_2) 20 16 34 slices_S1024x28_o0_20_S1024x4 slices_S1024x28_o0_16_S1024x4 slices_S1024x42_o0_34_S1024x1)
      (relTerm (k0_pay88 (View.ld x0 r0_0)) (Dist (View.ld x0 r0_0)) (k0_pay91 (View.ld x3 r0_1)) (k0_pay92 (View.ld x4 r0_2)) (View.ld x5 r0_2) 20 24 35 slices_S1024x28_o0_20_S1024x4 slices_S1024x28_o0_24_S1024x4 slices_S1024x42_o0_35_S1024x1))⟩,
      ⟨r0_7, entBlock (propTerm (k0_pay88 (View.ld x0 r0_0)) (k0_pay90 (View.ld x1 r0_1)) (View.ld x2 r0_2) 16 slices_S1024x28_o0_16_S1024x4) (acc6 (relTerm (k0_pay88 (View.ld x0 r0_0)) (Dist (View.ld x0 r0_0)) (k0_pay91 (View.ld x3 r0_1)) (k0_pay92 (View.ld x4 r0_2)) (View.ld x5 r0_2) 16 0 24 slices_S1024x28_o0_16_S1024x4 slices_S1024x28_o0_0_S1024x4 slices_S1024x42_o0_24_S1024x1)
      (relTerm (k0_pay88 (View.ld x0 r0_0)) (Dist (View.ld x0 r0_0)) (k0_pay91 (View.ld x3 r0_1)) (k0_pay92 (View.ld x4 r0_2)) (View.ld x5 r0_2) 16 4 25 slices_S1024x28_o0_16_S1024x4 slices_S1024x28_o0_4_S1024x4 slices_S1024x42_o0_25_S1024x1)
      (relTerm (k0_pay88 (View.ld x0 r0_0)) (Dist (View.ld x0 r0_0)) (k0_pay91 (View.ld x3 r0_1)) (k0_pay92 (View.ld x4 r0_2)) (View.ld x5 r0_2) 16 8 26 slices_S1024x28_o0_16_S1024x4 slices_S1024x28_o0_8_S1024x4 slices_S1024x42_o0_26_S1024x1)
      (relTerm (k0_pay88 (View.ld x0 r0_0)) (Dist (View.ld x0 r0_0)) (k0_pay91 (View.ld x3 r0_1)) (k0_pay92 (View.ld x4 r0_2)) (View.ld x5 r0_2) 16 12 27 slices_S1024x28_o0_16_S1024x4 slices_S1024x28_o0_12_S1024x4 slices_S1024x42_o0_27_S1024x1)
      (relTerm (k0_pay88 (View.ld x0 r0_0)) (Dist (View.ld x0 r0_0)) (k0_pay91 (View.ld x3 r0_1)) (k0_pay92 (View.ld x4 r0_2)) (View.ld x5 r0_2) 16 20 28 slices_S1024x28_o0_16_S1024x4 slices_S1024x28_o0_20_S1024x4 slices_S1024x42_o0_28_S1024x1)
      (relTerm (k0_pay88 (View.ld x0 r0_0)) (Dist (View.ld x0 r0_0)) (k0_pay91 (View.ld x3 r0_1)) (k0_pay92 (View.ld x4 r0_2)) (View.ld x5 r0_2) 16 24 29 slices_S1024x28_o0_16_S1024x4 slices_S1024x28_o0_24_S1024x4 slices_S1024x42_o0_29_S1024x1))⟩,
      ⟨r0_6, entBlock (propTerm (k0_pay88 (View.ld x0 r0_0)) (k0_pay90 (View.ld x1 r0_1)) (View.ld x2 r0_2) 12 slices_S1024x28_o0_12_S1024x4) (acc6 (relTerm (k0_pay88 (View.ld x0 r0_0)) (Dist (View.ld x0 r0_0)) (k0_pay91 (View.ld x3 r0_1)) (k0_pay92 (View.ld x4 r0_2)) (View.ld x5 r0_2) 12 0 18 slices_S1024x28_o0_12_S1024x4 slices_S1024x28_o0_0_S1024x4 slices_S1024x42_o0_18_S1024x1)
      (relTerm (k0_pay88 (View.ld x0 r0_0)) (Dist (View.ld x0 r0_0)) (k0_pay91 (View.ld x3 r0_1)) (k0_pay92 (View.ld x4 r0_2)) (View.ld x5 r0_2) 12 4 19 slices_S1024x28_o0_12_S1024x4 slices_S1024x28_o0_4_S1024x4 slices_S1024x42_o0_19_S1024x1)
      (relTerm (k0_pay88 (View.ld x0 r0_0)) (Dist (View.ld x0 r0_0)) (k0_pay91 (View.ld x3 r0_1)) (k0_pay92 (View.ld x4 r0_2)) (View.ld x5 r0_2) 12 8 20 slices_S1024x28_o0_12_S1024x4 slices_S1024x28_o0_8_S1024x4 slices_S1024x42_o0_20_S1024x1)
      (relTerm (k0_pay88 (View.ld x0 r0_0)) (Dist (View.ld x0 r0_0)) (k0_pay91 (View.ld x3 r0_1)) (k0_pay92 (View.ld x4 r0_2)) (View.ld x5 r0_2) 12 16 21 slices_S1024x28_o0_12_S1024x4 slices_S1024x28_o0_16_S1024x4 slices_S1024x42_o0_21_S1024x1)
      (relTerm (k0_pay88 (View.ld x0 r0_0)) (Dist (View.ld x0 r0_0)) (k0_pay91 (View.ld x3 r0_1)) (k0_pay92 (View.ld x4 r0_2)) (View.ld x5 r0_2) 12 20 22 slices_S1024x28_o0_12_S1024x4 slices_S1024x28_o0_20_S1024x4 slices_S1024x42_o0_22_S1024x1)
      (relTerm (k0_pay88 (View.ld x0 r0_0)) (Dist (View.ld x0 r0_0)) (k0_pay91 (View.ld x3 r0_1)) (k0_pay92 (View.ld x4 r0_2)) (View.ld x5 r0_2) 12 24 23 slices_S1024x28_o0_12_S1024x4 slices_S1024x28_o0_24_S1024x4 slices_S1024x42_o0_23_S1024x1))⟩,
      ⟨r0_5, entBlock (propTerm (k0_pay88 (View.ld x0 r0_0)) (k0_pay90 (View.ld x1 r0_1)) (View.ld x2 r0_2) 8 slices_S1024x28_o0_8_S1024x4) (acc6 (relTerm (k0_pay88 (View.ld x0 r0_0)) (Dist (View.ld x0 r0_0)) (k0_pay91 (View.ld x3 r0_1)) (k0_pay92 (View.ld x4 r0_2)) (View.ld x5 r0_2) 8 0 12 slices_S1024x28_o0_8_S1024x4 slices_S1024x28_o0_0_S1024x4 slices_S1024x42_o0_12_S1024x1)
      (relTerm (k0_pay88 (View.ld x0 r0_0)) (Dist (View.ld x0 r0_0)) (k0_pay91 (View.ld x3 r0_1)) (k0_pay92 (View.ld x4 r0_2)) (View.ld x5 r0_2) 8 4 13 slices_S1024x28_o0_8_S1024x4 slices_S1024x28_o0_4_S1024x4 slices_S1024x42_o0_13_S1024x1)
      (relTerm (k0_pay88 (View.ld x0 r0_0)) (Dist (View.ld x0 r0_0)) (k0_pay91 (View.ld x3 r0_1)) (k0_pay92 (View.ld x4 r0_2)) (View.ld x5 r0_2) 8 12 14 slices_S1024x28_o0_8_S1024x4 slices_S1024x28_o0_12_S1024x4 slices_S1024x42_o0_14_S1024x1)
      (relTerm (k0_pay88 (View.ld x0 r0_0)) (Dist (View.ld x0 r0_0)) (k0_pay91 (View.ld x3 r0_1)) (k0_pay92 (View.ld x4 r0_2)) (View.ld x5 r0_2) 8 16 15 slices_S1024x28_o0_8_S1024x4 slices_S1024x28_o0_16_S1024x4 slices_S1024x42_o0_15_S1024x1)
      (relTerm (k0_pay88 (View.ld x0 r0_0)) (Dist (View.ld x0 r0_0)) (k0_pay91 (View.ld x3 r0_1)) (k0_pay92 (View.ld x4 r0_2)) (View.ld x5 r0_2) 8 20 16 slices_S1024x28_o0_8_S1024x4 slices_S1024x28_o0_20_S1024x4 slices_S1024x42_o0_16_S1024x1)
      (relTerm (k0_pay88 (View.ld x0 r0_0)) (Dist (View.ld x0 r0_0)) (k0_pay91 (View.ld x3 r0_1)) (k0_pay92 (View.ld x4 r0_2)) (View.ld x5 r0_2) 8 24 17 slices_S1024x28_o0_8_S1024x4 slices_S1024x28_o0_24_S1024x4 slices_S1024x42_o0_17_S1024x1))⟩,
      ⟨r0_4, entBlock (propTerm (k0_pay88 (View.ld x0 r0_0)) (k0_pay90 (View.ld x1 r0_1)) (View.ld x2 r0_2) 4 slices_S1024x28_o0_4_S1024x4) (acc6 (relTerm (k0_pay88 (View.ld x0 r0_0)) (Dist (View.ld x0 r0_0)) (k0_pay91 (View.ld x3 r0_1)) (k0_pay92 (View.ld x4 r0_2)) (View.ld x5 r0_2) 4 0 6 slices_S1024x28_o0_4_S1024x4 slices_S1024x28_o0_0_S1024x4 slices_S1024x42_o0_6_S1024x1)
      (relTerm (k0_pay88 (View.ld x0 r0_0)) (Dist (View.ld x0 r0_0)) (k0_pay91 (View.ld x3 r0_1)) (k0_pay92 (View.ld x4 r0_2)) (View.ld x5 r0_2) 4 8 7 slices_S1024x28_o0_4_S1024x4 slices_S1024x28_o0_8_S1024x4 slices_S1024x42_o0_7_S1024x1)
      (relTerm (k0_pay88 (View.ld x0 r0_0)) (Dist (View.ld x0 r0_0)) (k0_pay91 (View.ld x3 r0_1)) (k0_pay92 (View.ld x4 r0_2)) (View.ld x5 r0_2) 4 12 8 slices_S1024x28_o0_4_S1024x4 slices_S1024x28_o0_12_S1024x4 slices_S1024x42_o0_8_S1024x1)
      (relTerm (k0_pay88 (View.ld x0 r0_0)) (Dist (View.ld x0 r0_0)) (k0_pay91 (View.ld x3 r0_1)) (k0_pay92 (View.ld x4 r0_2)) (View.ld x5 r0_2) 4 16 9 slices_S1024x28_o0_4_S1024x4 slices_S1024x28_o0_16_S1024x4 slices_S1024x42_o0_9_S1024x1)
      (relTerm (k0_pay88 (View.ld x0 r0_0)) (Dist (View.ld x0 r0_0)) (k0_pay91 (View.ld x3 r0_1)) (k0_pay92 (View.ld x4 r0_2)) (View.ld x5 r0_2) 4 20 10 slices_S1024x28_o0_4_S1024x4 slices_S1024x28_o0_20_S1024x4 slices_S1024x42_o0_10_S1024x1)
      (relTerm (k0_pay88 (View.ld x0 r0_0)) (Dist (View.ld x0 r0_0)) (k0_pay91 (View.ld x3 r0_1)) (k0_pay92 (View.ld x4 r0_2)) (View.ld x5 r0_2) 4 24 11 slices_S1024x28_o0_4_S1024x4 slices_S1024x28_o0_24_S1024x4 slices_S1024x42_o0_11_S1024x1))⟩,
      ⟨r0_3, entBlock (propTerm (k0_pay88 (View.ld x0 r0_0)) (k0_pay90 (View.ld x1 r0_1)) (View.ld x2 r0_2) 0 slices_S1024x28_o0_0_S1024x4) (acc6 (relTerm (k0_pay88 (View.ld x0 r0_0)) (Dist (View.ld x0 r0_0)) (k0_pay91 (View.ld x3 r0_1)) (k0_pay92 (View.ld x4 r0_2)) (View.ld x5 r0_2) 0 4 0 slices_S1024x28_o0_0_S1024x4 slices_S1024x28_o0_4_S1024x4 slices_S1024x42_o0_0_S1024x1)
      (relTerm (k0_pay88 (View.ld x0 r0_0)) (Dist (View.ld x0 r0_0)) (k0_pay91 (View.ld x3 r0_1)) (k0_pay92 (View.ld x4 r0_2)) (View.ld x5 r0_2) 0 8 1 slices_S1024x28_o0_0_S1024x4 slices_S1024x28_o0_8_S1024x4 slices_S1024x42_o0_1_S1024x1)
      (relTerm (k0_pay88 (View.ld x0 r0_0)) (Dist (View.ld x0 r0_0)) (k0_pay91 (View.ld x3 r0_1)) (k0_pay92 (View.ld x4 r0_2)) (View.ld x5 r0_2) 0 12 2 slices_S1024x28_o0_0_S1024x4 slices_S1024x28_o0_12_S1024x4 slices_S1024x42_o0_2_S1024x1)
      (relTerm (k0_pay88 (View.ld x0 r0_0)) (Dist (View.ld x0 r0_0)) (k0_pay91 (View.ld x3 r0_1)) (k0_pay92 (View.ld x4 r0_2)) (View.ld x5 r0_2) 0 16 3 slices_S1024x28_o0_0_S1024x4 slices_S1024x28_o0_16_S1024x4 slices_S1024x42_o0_3_S1024x1)
      (relTerm (k0_pay88 (View.ld x0 r0_0)) (Dist (View.ld x0 r0_0)) (k0_pay91 (View.ld x3 r0_1)) (k0_pay92 (View.ld x4 r0_2)) (View.ld x5 r0_2) 0 20 4 slices_S1024x28_o0_0_S1024x4 slices_S1024x28_o0_20_S1024x4 slices_S1024x42_o0_4_S1024x1)
      (relTerm (k0_pay88 (View.ld x0 r0_0)) (Dist (View.ld x0 r0_0)) (k0_pay91 (View.ld x3 r0_1)) (k0_pay92 (View.ld x4 r0_2)) (View.ld x5 r0_2) 0 24 5 slices_S1024x28_o0_0_S1024x4 slices_S1024x28_o0_24_S1024x4 slices_S1024x42_o0_5_S1024x1))⟩] := rfl

/-- Entity 0's store agrees with the block function on its rectangle. -/
theorem piece_0 (x0 : Vec Ideal S28x1024 .f32) (x1 : Vec Ideal S4x128 .f32) (x2 : Vec Ideal S128 .f32) (x3 : Vec Ideal S4x128 .f32) (x4 : Vec Ideal S128 .f32) (x5 : Vec Ideal S128 .f32) (x : S1024x256.Idx) :
    (entBlock (propTerm (k0_pay88 (View.ld x0 r0_0)) (k0_pay90 (View.ld x1 r0_1)) (View.ld x2 r0_2) 0 slices_S1024x28_o0_0_S1024x4) (acc6 (relTerm (k0_pay88 (View.ld x0 r0_0)) (Dist (View.ld x0 r0_0)) (k0_pay91 (View.ld x3 r0_1)) (k0_pay92 (View.ld x4 r0_2)) (View.ld x5 r0_2) 0 4 0 slices_S1024x28_o0_0_S1024x4 slices_S1024x28_o0_4_S1024x4 slices_S1024x42_o0_0_S1024x1)
      (relTerm (k0_pay88 (View.ld x0 r0_0)) (Dist (View.ld x0 r0_0)) (k0_pay91 (View.ld x3 r0_1)) (k0_pay92 (View.ld x4 r0_2)) (View.ld x5 r0_2) 0 8 1 slices_S1024x28_o0_0_S1024x4 slices_S1024x28_o0_8_S1024x4 slices_S1024x42_o0_1_S1024x1)
      (relTerm (k0_pay88 (View.ld x0 r0_0)) (Dist (View.ld x0 r0_0)) (k0_pay91 (View.ld x3 r0_1)) (k0_pay92 (View.ld x4 r0_2)) (View.ld x5 r0_2) 0 12 2 slices_S1024x28_o0_0_S1024x4 slices_S1024x28_o0_12_S1024x4 slices_S1024x42_o0_2_S1024x1)
      (relTerm (k0_pay88 (View.ld x0 r0_0)) (Dist (View.ld x0 r0_0)) (k0_pay91 (View.ld x3 r0_1)) (k0_pay92 (View.ld x4 r0_2)) (View.ld x5 r0_2) 0 16 3 slices_S1024x28_o0_0_S1024x4 slices_S1024x28_o0_16_S1024x4 slices_S1024x42_o0_3_S1024x1)
      (relTerm (k0_pay88 (View.ld x0 r0_0)) (Dist (View.ld x0 r0_0)) (k0_pay91 (View.ld x3 r0_1)) (k0_pay92 (View.ld x4 r0_2)) (View.ld x5 r0_2) 0 20 4 slices_S1024x28_o0_0_S1024x4 slices_S1024x28_o0_20_S1024x4 slices_S1024x42_o0_4_S1024x1)
      (relTerm (k0_pay88 (View.ld x0 r0_0)) (Dist (View.ld x0 r0_0)) (k0_pay91 (View.ld x3 r0_1)) (k0_pay92 (View.ld x4 r0_2)) (View.ld x5 r0_2) 0 24 5 slices_S1024x28_o0_0_S1024x4 slices_S1024x28_o0_24_S1024x4 slices_S1024x42_o0_5_S1024x1))) x
      = Cert.Enc.Row.GB x0 x1 x2 x3 x4 x5 (r0_3.emb x) := by
  obtain ⟨r, l, rfl⟩ : ∃ (r : Fin 1024) (l : Fin 256), x = ix2 r l := ⟨x 0, x 1, eq_ix2 x⟩
  rw [blk_0_apply]
  rw [Cert.Enc.Row.GB_at x0 x1 x2 x3 x4 x5 (r0_3.emb (ix2 r l)) r (0 : Fin 7) l
    (by show 0 + 1 * r.val = r.val; omega) (by show 0 + 1 * l.val = 256 * 0 + l.val; omega)]
  unfold laneOf eOf
  rw [View.ld_unit_zero (S := S28x1024) hz2, View.ld_unit_zero (S := S4x128) hz2, View.ld_unit_zero (S := S4x128) hz2,
    View.ld_unit_zero (S := S128) hz1, View.ld_unit_zero (S := S128) hz1, View.ld_unit_zero (S := S128) hz1]

/-- Entity 1's store agrees with the block function on its rectangle. -/
theorem piece_1 (x0 : Vec Ideal S28x1024 .f32) (x1 : Vec Ideal S4x128 .f32) (x2 : Vec Ideal S128 .f32) (x3 : Vec Ideal S4x128 .f32) (x4 : Vec Ideal S128 .f32) (x5 : Vec Ideal S128 .f32) (x : S1024x256.Idx) :
    (entBlock (propTerm (k0_pay88 (View.ld x0 r0_0)) (k0_pay90 (View.ld x1 r0_1)) (View.ld x2 r0_2) 4 slices_S1024x28_o0_4_S1024x4) (acc6 (relTerm (k0_pay88 (View.ld x0 r0_0)) (Dist (View.ld x0 r0_0)) (k0_pay91 (View.ld x3 r0_1)) (k0_pay92 (View.ld x4 r0_2)) (View.ld x5 r0_2) 4 0 6 slices_S1024x28_o0_4_S1024x4 slices_S1024x28_o0_0_S1024x4 slices_S1024x42_o0_6_S1024x1)
      (relTerm (k0_pay88 (View.ld x0 r0_0)) (Dist (View.ld x0 r0_0)) (k0_pay91 (View.ld x3 r0_1)) (k0_pay92 (View.ld x4 r0_2)) (View.ld x5 r0_2) 4 8 7 slices_S1024x28_o0_4_S1024x4 slices_S1024x28_o0_8_S1024x4 slices_S1024x42_o0_7_S1024x1)
      (relTerm (k0_pay88 (View.ld x0 r0_0)) (Dist (View.ld x0 r0_0)) (k0_pay91 (View.ld x3 r0_1)) (k0_pay92 (View.ld x4 r0_2)) (View.ld x5 r0_2) 4 12 8 slices_S1024x28_o0_4_S1024x4 slices_S1024x28_o0_12_S1024x4 slices_S1024x42_o0_8_S1024x1)
      (relTerm (k0_pay88 (View.ld x0 r0_0)) (Dist (View.ld x0 r0_0)) (k0_pay91 (View.ld x3 r0_1)) (k0_pay92 (View.ld x4 r0_2)) (View.ld x5 r0_2) 4 16 9 slices_S1024x28_o0_4_S1024x4 slices_S1024x28_o0_16_S1024x4 slices_S1024x42_o0_9_S1024x1)
      (relTerm (k0_pay88 (View.ld x0 r0_0)) (Dist (View.ld x0 r0_0)) (k0_pay91 (View.ld x3 r0_1)) (k0_pay92 (View.ld x4 r0_2)) (View.ld x5 r0_2) 4 20 10 slices_S1024x28_o0_4_S1024x4 slices_S1024x28_o0_20_S1024x4 slices_S1024x42_o0_10_S1024x1)
      (relTerm (k0_pay88 (View.ld x0 r0_0)) (Dist (View.ld x0 r0_0)) (k0_pay91 (View.ld x3 r0_1)) (k0_pay92 (View.ld x4 r0_2)) (View.ld x5 r0_2) 4 24 11 slices_S1024x28_o0_4_S1024x4 slices_S1024x28_o0_24_S1024x4 slices_S1024x42_o0_11_S1024x1))) x
      = Cert.Enc.Row.GB x0 x1 x2 x3 x4 x5 (r0_4.emb x) := by
  obtain ⟨r, l, rfl⟩ : ∃ (r : Fin 1024) (l : Fin 256), x = ix2 r l := ⟨x 0, x 1, eq_ix2 x⟩
  rw [blk_1_apply]
  rw [Cert.Enc.Row.GB_at x0 x1 x2 x3 x4 x5 (r0_4.emb (ix2 r l)) r (1 : Fin 7) l
    (by show 0 + 1 * r.val = r.val; omega) (by show 256 + 1 * l.val = 256 * 1 + l.val; omega)]
  unfold laneOf eOf
  rw [View.ld_unit_zero (S := S28x1024) hz2, View.ld_unit_zero (S := S4x128) hz2, View.ld_unit_zero (S := S4x128) hz2,
    View.ld_unit_zero (S := S128) hz1, View.ld_unit_zero (S := S128) hz1, View.ld_unit_zero (S := S128) hz1]

/-- Entity 2's store agrees with the block function on its rectangle. -/
theorem piece_2 (x0 : Vec Ideal S28x1024 .f32) (x1 : Vec Ideal S4x128 .f32) (x2 : Vec Ideal S128 .f32) (x3 : Vec Ideal S4x128 .f32) (x4 : Vec Ideal S128 .f32) (x5 : Vec Ideal S128 .f32) (x : S1024x256.Idx) :
    (entBlock (propTerm (k0_pay88 (View.ld x0 r0_0)) (k0_pay90 (View.ld x1 r0_1)) (View.ld x2 r0_2) 8 slices_S1024x28_o0_8_S1024x4) (acc6 (relTerm (k0_pay88 (View.ld x0 r0_0)) (Dist (View.ld x0 r0_0)) (k0_pay91 (View.ld x3 r0_1)) (k0_pay92 (View.ld x4 r0_2)) (View.ld x5 r0_2) 8 0 12 slices_S1024x28_o0_8_S1024x4 slices_S1024x28_o0_0_S1024x4 slices_S1024x42_o0_12_S1024x1)
      (relTerm (k0_pay88 (View.ld x0 r0_0)) (Dist (View.ld x0 r0_0)) (k0_pay91 (View.ld x3 r0_1)) (k0_pay92 (View.ld x4 r0_2)) (View.ld x5 r0_2) 8 4 13 slices_S1024x28_o0_8_S1024x4 slices_S1024x28_o0_4_S1024x4 slices_S1024x42_o0_13_S1024x1)
      (relTerm (k0_pay88 (View.ld x0 r0_0)) (Dist (View.ld x0 r0_0)) (k0_pay91 (View.ld x3 r0_1)) (k0_pay92 (View.ld x4 r0_2)) (View.ld x5 r0_2) 8 12 14 slices_S1024x28_o0_8_S1024x4 slices_S1024x28_o0_12_S1024x4 slices_S1024x42_o0_14_S1024x1)
      (relTerm (k0_pay88 (View.ld x0 r0_0)) (Dist (View.ld x0 r0_0)) (k0_pay91 (View.ld x3 r0_1)) (k0_pay92 (View.ld x4 r0_2)) (View.ld x5 r0_2) 8 16 15 slices_S1024x28_o0_8_S1024x4 slices_S1024x28_o0_16_S1024x4 slices_S1024x42_o0_15_S1024x1)
      (relTerm (k0_pay88 (View.ld x0 r0_0)) (Dist (View.ld x0 r0_0)) (k0_pay91 (View.ld x3 r0_1)) (k0_pay92 (View.ld x4 r0_2)) (View.ld x5 r0_2) 8 20 16 slices_S1024x28_o0_8_S1024x4 slices_S1024x28_o0_20_S1024x4 slices_S1024x42_o0_16_S1024x1)
      (relTerm (k0_pay88 (View.ld x0 r0_0)) (Dist (View.ld x0 r0_0)) (k0_pay91 (View.ld x3 r0_1)) (k0_pay92 (View.ld x4 r0_2)) (View.ld x5 r0_2) 8 24 17 slices_S1024x28_o0_8_S1024x4 slices_S1024x28_o0_24_S1024x4 slices_S1024x42_o0_17_S1024x1))) x
      = Cert.Enc.Row.GB x0 x1 x2 x3 x4 x5 (r0_5.emb x) := by
  obtain ⟨r, l, rfl⟩ : ∃ (r : Fin 1024) (l : Fin 256), x = ix2 r l := ⟨x 0, x 1, eq_ix2 x⟩
  rw [blk_2_apply]
  rw [Cert.Enc.Row.GB_at x0 x1 x2 x3 x4 x5 (r0_5.emb (ix2 r l)) r (2 : Fin 7) l
    (by show 0 + 1 * r.val = r.val; omega) (by show 512 + 1 * l.val = 256 * 2 + l.val; omega)]
  unfold laneOf eOf
  rw [View.ld_unit_zero (S := S28x1024) hz2, View.ld_unit_zero (S := S4x128) hz2, View.ld_unit_zero (S := S4x128) hz2,
    View.ld_unit_zero (S := S128) hz1, View.ld_unit_zero (S := S128) hz1, View.ld_unit_zero (S := S128) hz1]

/-- Entity 3's store agrees with the block function on its rectangle. -/
theorem piece_3 (x0 : Vec Ideal S28x1024 .f32) (x1 : Vec Ideal S4x128 .f32) (x2 : Vec Ideal S128 .f32) (x3 : Vec Ideal S4x128 .f32) (x4 : Vec Ideal S128 .f32) (x5 : Vec Ideal S128 .f32) (x : S1024x256.Idx) :
    (entBlock (propTerm (k0_pay88 (View.ld x0 r0_0)) (k0_pay90 (View.ld x1 r0_1)) (View.ld x2 r0_2) 12 slices_S1024x28_o0_12_S1024x4) (acc6 (relTerm (k0_pay88 (View.ld x0 r0_0)) (Dist (View.ld x0 r0_0)) (k0_pay91 (View.ld x3 r0_1)) (k0_pay92 (View.ld x4 r0_2)) (View.ld x5 r0_2) 12 0 18 slices_S1024x28_o0_12_S1024x4 slices_S1024x28_o0_0_S1024x4 slices_S1024x42_o0_18_S1024x1)
      (relTerm (k0_pay88 (View.ld x0 r0_0)) (Dist (View.ld x0 r0_0)) (k0_pay91 (View.ld x3 r0_1)) (k0_pay92 (View.ld x4 r0_2)) (View.ld x5 r0_2) 12 4 19 slices_S1024x28_o0_12_S1024x4 slices_S1024x28_o0_4_S1024x4 slices_S1024x42_o0_19_S1024x1)
      (relTerm (k0_pay88 (View.ld x0 r0_0)) (Dist (View.ld x0 r0_0)) (k0_pay91 (View.ld x3 r0_1)) (k0_pay92 (View.ld x4 r0_2)) (View.ld x5 r0_2) 12 8 20 slices_S1024x28_o0_12_S1024x4 slices_S1024x28_o0_8_S1024x4 slices_S1024x42_o0_20_S1024x1)
      (relTerm (k0_pay88 (View.ld x0 r0_0)) (Dist (View.ld x0 r0_0)) (k0_pay91 (View.ld x3 r0_1)) (k0_pay92 (View.ld x4 r0_2)) (View.ld x5 r0_2) 12 16 21 slices_S1024x28_o0_12_S1024x4 slices_S1024x28_o0_16_S1024x4 slices_S1024x42_o0_21_S1024x1)
      (relTerm (k0_pay88 (View.ld x0 r0_0)) (Dist (View.ld x0 r0_0)) (k0_pay91 (View.ld x3 r0_1)) (k0_pay92 (View.ld x4 r0_2)) (View.ld x5 r0_2) 12 20 22 slices_S1024x28_o0_12_S1024x4 slices_S1024x28_o0_20_S1024x4 slices_S1024x42_o0_22_S1024x1)
      (relTerm (k0_pay88 (View.ld x0 r0_0)) (Dist (View.ld x0 r0_0)) (k0_pay91 (View.ld x3 r0_1)) (k0_pay92 (View.ld x4 r0_2)) (View.ld x5 r0_2) 12 24 23 slices_S1024x28_o0_12_S1024x4 slices_S1024x28_o0_24_S1024x4 slices_S1024x42_o0_23_S1024x1))) x
      = Cert.Enc.Row.GB x0 x1 x2 x3 x4 x5 (r0_6.emb x) := by
  obtain ⟨r, l, rfl⟩ : ∃ (r : Fin 1024) (l : Fin 256), x = ix2 r l := ⟨x 0, x 1, eq_ix2 x⟩
  rw [blk_3_apply]
  rw [Cert.Enc.Row.GB_at x0 x1 x2 x3 x4 x5 (r0_6.emb (ix2 r l)) r (3 : Fin 7) l
    (by show 0 + 1 * r.val = r.val; omega) (by show 768 + 1 * l.val = 256 * 3 + l.val; omega)]
  unfold laneOf eOf
  rw [View.ld_unit_zero (S := S28x1024) hz2, View.ld_unit_zero (S := S4x128) hz2, View.ld_unit_zero (S := S4x128) hz2,
    View.ld_unit_zero (S := S128) hz1, View.ld_unit_zero (S := S128) hz1, View.ld_unit_zero (S := S128) hz1]

/-- Entity 4's store agrees with the block function on its rectangle. -/
theorem piece_4 (x0 : Vec Ideal S28x1024 .f32) (x1 : Vec Ideal S4x128 .f32) (x2 : Vec Ideal S128 .f32) (x3 : Vec Ideal S4x128 .f32) (x4 : Vec Ideal S128 .f32) (x5 : Vec Ideal S128 .f32) (x : S1024x256.Idx) :
    (entBlock (propTerm (k0_pay88 (View.ld x0 r0_0)) (k0_pay90 (View.ld x1 r0_1)) (View.ld x2 r0_2) 16 slices_S1024x28_o0_16_S1024x4) (acc6 (relTerm (k0_pay88 (View.ld x0 r0_0)) (Dist (View.ld x0 r0_0)) (k0_pay91 (View.ld x3 r0_1)) (k0_pay92 (View.ld x4 r0_2)) (View.ld x5 r0_2) 16 0 24 slices_S1024x28_o0_16_S1024x4 slices_S1024x28_o0_0_S1024x4 slices_S1024x42_o0_24_S1024x1)
      (relTerm (k0_pay88 (View.ld x0 r0_0)) (Dist (View.ld x0 r0_0)) (k0_pay91 (View.ld x3 r0_1)) (k0_pay92 (View.ld x4 r0_2)) (View.ld x5 r0_2) 16 4 25 slices_S1024x28_o0_16_S1024x4 slices_S1024x28_o0_4_S1024x4 slices_S1024x42_o0_25_S1024x1)
      (relTerm (k0_pay88 (View.ld x0 r0_0)) (Dist (View.ld x0 r0_0)) (k0_pay91 (View.ld x3 r0_1)) (k0_pay92 (View.ld x4 r0_2)) (View.ld x5 r0_2) 16 8 26 slices_S1024x28_o0_16_S1024x4 slices_S1024x28_o0_8_S1024x4 slices_S1024x42_o0_26_S1024x1)
      (relTerm (k0_pay88 (View.ld x0 r0_0)) (Dist (View.ld x0 r0_0)) (k0_pay91 (View.ld x3 r0_1)) (k0_pay92 (View.ld x4 r0_2)) (View.ld x5 r0_2) 16 12 27 slices_S1024x28_o0_16_S1024x4 slices_S1024x28_o0_12_S1024x4 slices_S1024x42_o0_27_S1024x1)
      (relTerm (k0_pay88 (View.ld x0 r0_0)) (Dist (View.ld x0 r0_0)) (k0_pay91 (View.ld x3 r0_1)) (k0_pay92 (View.ld x4 r0_2)) (View.ld x5 r0_2) 16 20 28 slices_S1024x28_o0_16_S1024x4 slices_S1024x28_o0_20_S1024x4 slices_S1024x42_o0_28_S1024x1)
      (relTerm (k0_pay88 (View.ld x0 r0_0)) (Dist (View.ld x0 r0_0)) (k0_pay91 (View.ld x3 r0_1)) (k0_pay92 (View.ld x4 r0_2)) (View.ld x5 r0_2) 16 24 29 slices_S1024x28_o0_16_S1024x4 slices_S1024x28_o0_24_S1024x4 slices_S1024x42_o0_29_S1024x1))) x
      = Cert.Enc.Row.GB x0 x1 x2 x3 x4 x5 (r0_7.emb x) := by
  obtain ⟨r, l, rfl⟩ : ∃ (r : Fin 1024) (l : Fin 256), x = ix2 r l := ⟨x 0, x 1, eq_ix2 x⟩
  rw [blk_4_apply]
  rw [Cert.Enc.Row.GB_at x0 x1 x2 x3 x4 x5 (r0_7.emb (ix2 r l)) r (4 : Fin 7) l
    (by show 0 + 1 * r.val = r.val; omega) (by show 1024 + 1 * l.val = 256 * 4 + l.val; omega)]
  unfold laneOf eOf
  rw [View.ld_unit_zero (S := S28x1024) hz2, View.ld_unit_zero (S := S4x128) hz2, View.ld_unit_zero (S := S4x128) hz2,
    View.ld_unit_zero (S := S128) hz1, View.ld_unit_zero (S := S128) hz1, View.ld_unit_zero (S := S128) hz1]

/-- Entity 5's store agrees with the block function on its rectangle. -/
theorem piece_5 (x0 : Vec Ideal S28x1024 .f32) (x1 : Vec Ideal S4x128 .f32) (x2 : Vec Ideal S128 .f32) (x3 : Vec Ideal S4x128 .f32) (x4 : Vec Ideal S128 .f32) (x5 : Vec Ideal S128 .f32) (x : S1024x256.Idx) :
    (entBlock (propTerm (k0_pay88 (View.ld x0 r0_0)) (k0_pay90 (View.ld x1 r0_1)) (View.ld x2 r0_2) 20 slices_S1024x28_o0_20_S1024x4) (acc6 (relTerm (k0_pay88 (View.ld x0 r0_0)) (Dist (View.ld x0 r0_0)) (k0_pay91 (View.ld x3 r0_1)) (k0_pay92 (View.ld x4 r0_2)) (View.ld x5 r0_2) 20 0 30 slices_S1024x28_o0_20_S1024x4 slices_S1024x28_o0_0_S1024x4 slices_S1024x42_o0_30_S1024x1)
      (relTerm (k0_pay88 (View.ld x0 r0_0)) (Dist (View.ld x0 r0_0)) (k0_pay91 (View.ld x3 r0_1)) (k0_pay92 (View.ld x4 r0_2)) (View.ld x5 r0_2) 20 4 31 slices_S1024x28_o0_20_S1024x4 slices_S1024x28_o0_4_S1024x4 slices_S1024x42_o0_31_S1024x1)
      (relTerm (k0_pay88 (View.ld x0 r0_0)) (Dist (View.ld x0 r0_0)) (k0_pay91 (View.ld x3 r0_1)) (k0_pay92 (View.ld x4 r0_2)) (View.ld x5 r0_2) 20 8 32 slices_S1024x28_o0_20_S1024x4 slices_S1024x28_o0_8_S1024x4 slices_S1024x42_o0_32_S1024x1)
      (relTerm (k0_pay88 (View.ld x0 r0_0)) (Dist (View.ld x0 r0_0)) (k0_pay91 (View.ld x3 r0_1)) (k0_pay92 (View.ld x4 r0_2)) (View.ld x5 r0_2) 20 12 33 slices_S1024x28_o0_20_S1024x4 slices_S1024x28_o0_12_S1024x4 slices_S1024x42_o0_33_S1024x1)
      (relTerm (k0_pay88 (View.ld x0 r0_0)) (Dist (View.ld x0 r0_0)) (k0_pay91 (View.ld x3 r0_1)) (k0_pay92 (View.ld x4 r0_2)) (View.ld x5 r0_2) 20 16 34 slices_S1024x28_o0_20_S1024x4 slices_S1024x28_o0_16_S1024x4 slices_S1024x42_o0_34_S1024x1)
      (relTerm (k0_pay88 (View.ld x0 r0_0)) (Dist (View.ld x0 r0_0)) (k0_pay91 (View.ld x3 r0_1)) (k0_pay92 (View.ld x4 r0_2)) (View.ld x5 r0_2) 20 24 35 slices_S1024x28_o0_20_S1024x4 slices_S1024x28_o0_24_S1024x4 slices_S1024x42_o0_35_S1024x1))) x
      = Cert.Enc.Row.GB x0 x1 x2 x3 x4 x5 (r0_8.emb x) := by
  obtain ⟨r, l, rfl⟩ : ∃ (r : Fin 1024) (l : Fin 256), x = ix2 r l := ⟨x 0, x 1, eq_ix2 x⟩
  rw [blk_5_apply]
  rw [Cert.Enc.Row.GB_at x0 x1 x2 x3 x4 x5 (r0_8.emb (ix2 r l)) r (5 : Fin 7) l
    (by show 0 + 1 * r.val = r.val; omega) (by show 1280 + 1 * l.val = 256 * 5 + l.val; omega)]
  unfold laneOf eOf
  rw [View.ld_unit_zero (S := S28x1024) hz2, View.ld_unit_zero (S := S4x128) hz2, View.ld_unit_zero (S := S4x128) hz2,
    View.ld_unit_zero (S := S128) hz1, View.ld_unit_zero (S := S128) hz1, View.ld_unit_zero (S := S128) hz1]

/-- Entity 6's store agrees with the block function on its rectangle. -/
theorem piece_6 (x0 : Vec Ideal S28x1024 .f32) (x1 : Vec Ideal S4x128 .f32) (x2 : Vec Ideal S128 .f32) (x3 : Vec Ideal S4x128 .f32) (x4 : Vec Ideal S128 .f32) (x5 : Vec Ideal S128 .f32) (x : S1024x256.Idx) :
    (entBlock (propTerm (k0_pay88 (View.ld x0 r0_0)) (k0_pay90 (View.ld x1 r0_1)) (View.ld x2 r0_2) 24 slices_S1024x28_o0_24_S1024x4) (acc6 (relTerm (k0_pay88 (View.ld x0 r0_0)) (Dist (View.ld x0 r0_0)) (k0_pay91 (View.ld x3 r0_1)) (k0_pay92 (View.ld x4 r0_2)) (View.ld x5 r0_2) 24 0 36 slices_S1024x28_o0_24_S1024x4 slices_S1024x28_o0_0_S1024x4 slices_S1024x42_o0_36_S1024x1)
      (relTerm (k0_pay88 (View.ld x0 r0_0)) (Dist (View.ld x0 r0_0)) (k0_pay91 (View.ld x3 r0_1)) (k0_pay92 (View.ld x4 r0_2)) (View.ld x5 r0_2) 24 4 37 slices_S1024x28_o0_24_S1024x4 slices_S1024x28_o0_4_S1024x4 slices_S1024x42_o0_37_S1024x1)
      (relTerm (k0_pay88 (View.ld x0 r0_0)) (Dist (View.ld x0 r0_0)) (k0_pay91 (View.ld x3 r0_1)) (k0_pay92 (View.ld x4 r0_2)) (View.ld x5 r0_2) 24 8 38 slices_S1024x28_o0_24_S1024x4 slices_S1024x28_o0_8_S1024x4 slices_S1024x42_o0_38_S1024x1)
      (relTerm (k0_pay88 (View.ld x0 r0_0)) (Dist (View.ld x0 r0_0)) (k0_pay91 (View.ld x3 r0_1)) (k0_pay92 (View.ld x4 r0_2)) (View.ld x5 r0_2) 24 12 39 slices_S1024x28_o0_24_S1024x4 slices_S1024x28_o0_12_S1024x4 slices_S1024x42_o0_39_S1024x1)
      (relTerm (k0_pay88 (View.ld x0 r0_0)) (Dist (View.ld x0 r0_0)) (k0_pay91 (View.ld x3 r0_1)) (k0_pay92 (View.ld x4 r0_2)) (View.ld x5 r0_2) 24 16 40 slices_S1024x28_o0_24_S1024x4 slices_S1024x28_o0_16_S1024x4 slices_S1024x42_o0_40_S1024x1)
      (relTerm (k0_pay88 (View.ld x0 r0_0)) (Dist (View.ld x0 r0_0)) (k0_pay91 (View.ld x3 r0_1)) (k0_pay92 (View.ld x4 r0_2)) (View.ld x5 r0_2) 24 20 41 slices_S1024x28_o0_24_S1024x4 slices_S1024x28_o0_20_S1024x4 slices_S1024x42_o0_41_S1024x1))) x
      = Cert.Enc.Row.GB x0 x1 x2 x3 x4 x5 (r0_9.emb x) := by
  obtain ⟨r, l, rfl⟩ : ∃ (r : Fin 1024) (l : Fin 256), x = ix2 r l := ⟨x 0, x 1, eq_ix2 x⟩
  rw [blk_6_apply]
  rw [Cert.Enc.Row.GB_at x0 x1 x2 x3 x4 x5 (r0_9.emb (ix2 r l)) r (6 : Fin 7) l
    (by show 0 + 1 * r.val = r.val; omega) (by show 1536 + 1 * l.val = 256 * 6 + l.val; omega)]
  unfold laneOf eOf
  rw [View.ld_unit_zero (S := S28x1024) hz2, View.ld_unit_zero (S := S4x128) hz2, View.ld_unit_zero (S := S4x128) hz2,
    View.ld_unit_zero (S := S128) hz1, View.ld_unit_zero (S := S128) hz1, View.ld_unit_zero (S := S128) hz1]

/-- The output block after the body is the block function of the blocks read. -/
theorem body_value (x0 : Vec Ideal S28x1024 .f32) (x1 : Vec Ideal S4x128 .f32) (x2 : Vec Ideal S128 .f32) (x3 : Vec Ideal S4x128 .f32) (x4 : Vec Ideal S128 .f32) (x5 : Vec Ideal S128 .f32) :
    out0_6 (F := Ideal) x0 x1 x2 x3 x4 x5 = Cert.Enc.Row.GB x0 x1 x2 x3 x4 x5 := by
  rw [out_stores]
  funext y
  refine View.canon_apply_of_pieces (Val := Elt Ideal) (S := S1024x1792) (e := .f32) (Cert.Enc.Row.GB x0 x1 x2 x3 x4 x5) _ ?_ y (cover0_6 _ _ _ _ _ _ _ y)
  intro p hp x
  simp only [List.mem_cons, List.mem_nil_iff, or_false] at hp
  rcases hp with rfl | rfl | rfl | rfl | rfl | rfl | rfl
  · exact piece_6 x0 x1 x2 x3 x4 x5 x
  · exact piece_5 x0 x1 x2 x3 x4 x5 x
  · exact piece_4 x0 x1 x2 x3 x4 x5 x
  · exact piece_3 x0 x1 x2 x3 x4 x5 x
  · exact piece_2 x0 x1 x2 x3 x4 x5 x
  · exact piece_1 x0 x1 x2 x3 x4 x5 x
  · exact piece_0 x0 x1 x2 x3 x4 x5 x

end Cert.Enc.K

end
-- ==== Proof.KernelArray.lean ====
/-
  The kernel's array: what the run leaves in the result buffer, read through the grid.

  The grid has 16 points; point t reads columns 1024·t … 1024·t + 1023 of the coordinate table (all 28 rows) and the
  whole of the five parameter arrays, and writes rows 1024·t … 1024·t + 1023 of the 16384 x 1792 output. Before the
  grid the relation weights are split into their four difference rows and their distance row; after it the output
  is reshaped to 16384 x 7 x 256, so that entry (b, n, l) is entry (b, 256·n + l) of the matrix.
  * Each input block, read at an index, is the argument array at the block's offset plus the index.
  * The body's block function, given those blocks, is the row specification read through point t's block of the
    output: the same lane function of the same entity coordinates and weights.
  * Row b lies in the block of point b / 1024, so the blocks cover the output and the array ends at the row
    specification everywhere.
  * (256·n + l) / 256 = n and (256·n + l) mod 256 = l: the reshaped array is the encoder.
-/
import proofs.«172666_j28845000360164_2_alg».proof.Proof.FramePatchedKernelIdeal
import proofs.«172666_j28845000360164_2_alg».proof.Proof.RowSpec
import Idealize.ShloMosaic.Lib.Pipeline.Value
import Idealize.ShloMosaic.Lib.StableHlo.Run
import Idealize.ShloMosaic.Lib.ValueIdx

set_option maxRecDepth 16384

noncomputable section

namespace Cert.Enc.Arr

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)
open Cert.Enc.Row

variable (m : (ℓ : Loc nD τ sig) → Buf (Elt Ideal) ℓ) (ρ : Dev nD → PrngReg)

/-- The body's block is the block function of the row specification. -/
abbrev HBody : Prop :=
  (∀ (x0 : Vec Ideal S28x1024 .f32) (x1 : Vec Ideal S4x128 .f32) (x2 : Vec Ideal S128 .f32) (x3 : Vec Ideal S4x128 .f32)
      (x4 : Vec Ideal S128 .f32) (x5 : Vec Ideal S128 .f32),
      Cert.KernelIdeal.GenP.out0_6 (F := Ideal) x0 x1 x2 x3 x4 x5 = Cert.Enc.Row.GB x0 x1 x2 x3 x4 x5)

/-! ## The index maps over the grid -/

/-- Point t's block indices: the coordinate table moves along its columns with t, the output along its rows, the
    parameter arrays stay at block 0. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 1) = 0
    ∧ win0_6.index t (0 : Fin 2) = t.val ∧ win0_6.index t (1 : Fin 2) = 0 :=
  (by decide +kernel : ∀ t : Fin grid0.N, _)

theorem lt16 (t : Fin cfg0.N) : t.val < 16 := Nat.lt_of_lt_of_eq t.isLt N_0

/-! ## The arrays the grid finds -/

/-- The four difference rows of the relation weights. -/
theorem V_main_v0_apply (c : Dev nD) (d : Fin 4) (h : Fin 128) :
    (V m c main_v0 : S4x128.Idx → EReal) (ix2 d h) = ((m ((c : Thread nD τ).loc main_arg3)) : S5x128.Idx → EReal) (ix2 d.castSucc h) := by
  have e : (V m c main_v0 : S4x128.Idx → EReal)
      = extractStridedSlice S4x128 ![0, 0] ((m ((c : Thread nD τ).loc main_arg3)) : S5x128.Idx → EReal) slices_S5x128_S4x128_0_0 := by
    show StableHlo.after hostOps0 (fun b => m (c, b)) (Proc.devRef .tc main_v0) = _
    after_results
    all_goals rfl
  rw [e]
  exact extractStridedSlice_apply ![0, 0] _ slices_S5x128_S4x128_0_0 (ix2 d h) (ix2 d.castSucc h) (fun a => by
    match a with
    | ⟨0, _⟩ => show d.val = 0 + d.val; omega
    | ⟨1, _⟩ => show h.val = 0 + h.val; omega)

/-- The distance row of the relation weights, as a vector. -/
theorem V_main_v2_apply (c : Dev nD) (h : Fin 128) :
    (V m c main_v2 : S128.Idx → EReal) (ix1 h) = ((m ((c : Thread nD τ).loc main_arg3)) : S5x128.Idx → EReal) (ix2 (4 : Fin 5) h) := by
  have e : (V m c main_v2 : S128.Idx → EReal)
      = shapeCast S128 (extractStridedSlice S1x128 ![4, 0] ((m ((c : Thread nD τ).loc main_arg3)) : S5x128.Idx → EReal) slices_S5x128_S1x128_4_0)
          shapeCasts_S1x128_S128 := by
    show StableHlo.after hostOps0 (fun b => m (c, b)) (Proc.devRef .tc main_v2) = _
    after_results
    all_goals rfl
  rw [e, shapeCast_apply _ shapeCasts_S1x128_S128 (ix1 h) (ix2 (0 : Fin 1) h)
    (by rewrite [Shape.rowMajor_val_two, Shape.rowMajor_val_one]; show 0 * 128 + h.val = h.val; omega)]
  exact extractStridedSlice_apply ![4, 0] _ slices_S5x128_S1x128_4_0 (ix2 (0 : Fin 1) h) (ix2 (4 : Fin 5) h) (fun a => by
    match a with
    | ⟨0, _⟩ => rfl
    | ⟨1, _⟩ => show h.val = 0 + h.val; omega)

/-! ## The input blocks at an index -/

/-- Point t's block of the coordinate table: all 28 rows, columns 1024·t + r. -/
theorem iblk0_apply (c : Dev nD) (t : Fin cfg0.N) (k : Fin 28) (r : Fin 1024) (q : Fin 16384)
    (hq : q.val = 1024 * t.val + r.val) :
    (iblk m c 0 t : S28x1024.Idx → EReal) (ix2 k r) = ((m ((c : Thread nD τ).loc main_arg0)) : S28x16384.Idx → EReal) (ix2 k q) := by
  obtain ⟨e0, e1, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 28 + 1 * k.val = k.val; rw [e0]; omega
  | ⟨1, _⟩ => show win0_0.index t (1 : Fin 2) * 1024 + 1 * r.val = q.val; rw [e1, hq]; omega

/-- The property weights, whole. -/
theorem iblk1_apply (c : Dev nD) (t : Fin cfg0.N) (d : Fin 4) (h : Fin 128) :
    (iblk m c 1 t : S4x128.Idx → EReal) (ix2 d h) = ((m ((c : Thread nD τ).loc main_arg1)) : S4x128.Idx → EReal) (ix2 d h) := by
  obtain ⟨-, -, e0, e1, -⟩ := idx_facts t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 4 + 1 * d.val = d.val; rw [e0]; omega
  | ⟨1, _⟩ => show win0_1.index t (1 : Fin 2) * 128 + 1 * h.val = h.val; rw [e1]; omega

/-- The property bias, whole. -/
theorem iblk2_apply (c : Dev nD) (t : Fin cfg0.N) (h : Fin 128) :
    (iblk m c 2 t : S128.Idx → EReal) (ix1 h) = ((m ((c : Thread nD τ).loc main_arg2)) : S128.Idx → EReal) (ix1 h) := by
  obtain ⟨-, -, -, -, e0, -⟩ := idx_facts t
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t (0 : Fin 1) * 128 + 1 * h.val = h.val; rw [e0]; omega

/-- The four difference rows of the relation weights, whole. -/
theorem iblk3_apply (c : Dev nD) (t : Fin cfg0.N) (d : Fin 4) (h : Fin 128) :
    (iblk m c 3 t : S4x128.Idx → EReal) (ix2 d h) = ((m ((c : Thread nD τ).loc main_arg3)) : S5x128.Idx → EReal) (ix2 d.castSucc h) := by
  obtain ⟨-, -, -, -, -, e0, e1, -⟩ := idx_facts t
  unfold iblk
  rw [View.read_apply]
  show (V m c main_v0 : S4x128.Idx → EReal) _ = _
  refine (congrArg (V m c main_v0 : S4x128.Idx → EReal) (funext fun a => Fin.ext ?_)).trans (V_main_v0_apply m c d h)
  match a with
  | ⟨0, _⟩ => show win0_3.index t (0 : Fin 2) * 4 + 1 * d.val = d.val; rw [e0]; omega
  | ⟨1, _⟩ => show win0_3.index t (1 : Fin 2) * 128 + 1 * h.val = h.val; rw [e1]; omega

/-- The distance row of the relation weights, whole. -/
theorem iblk4_apply (c : Dev nD) (t : Fin cfg0.N) (h : Fin 128) :
    (iblk m c 4 t : S128.Idx → EReal) (ix1 h) = ((m ((c : Thread nD τ).loc main_arg3)) : S5x128.Idx → EReal) (ix2 (4 : Fin 5) h) := by
  obtain ⟨-, -, -, -, -, -, -, e0, -⟩ := idx_facts t
  unfold iblk
  rw [View.read_apply]
  show (V m c main_v2 : S128.Idx → EReal) _ = _
  refine (congrArg (V m c main_v2 : S128.Idx → EReal) (funext fun a => Fin.ext ?_)).trans (V_main_v2_apply m c h)
  match a with
  | ⟨0, _⟩ => show win0_4.index t (0 : Fin 1) * 128 + 1 * h.val = h.val; rw [e0]; omega

/-- The relation bias, whole. -/
theorem iblk5_apply (c : Dev nD) (t : Fin cfg0.N) (h : Fin 128) :
    (iblk m c 5 t : S128.Idx → EReal) (ix1 h) = ((m ((c : Thread nD τ).loc main_arg4)) : S128.Idx → EReal) (ix1 h) := by
  obtain ⟨-, -, -, -, -, -, -, -, e0, -⟩ := idx_facts t
  unfold iblk
  rw [View.read_apply]
  show V m c main_arg4 _ = _
  rw [V_main_arg4]
  refine congrArg (m ((c : Thread nD τ).loc main_arg4)) (funext fun a => Fin.ext ?_)
  match a with
  | ⟨0, _⟩ => show win0_5.index t (0 : Fin 1) * 128 + 1 * h.val = h.val; rw [e0]; omega

/-! ## One block of the output is the row specification read through the block -/

/-- The lane function depends only on its arguments. -/
theorem laneVal_congr {e e' : Fin 7 → Fin 4 → EReal} {wp wp' : Fin 4 → Fin 128 → EReal} {bp bp' : Fin 128 → EReal}
    {w4 w4' : Fin 4 → Fin 128 → EReal} {wd wd' br br' : Fin 128 → EReal} {n n' : Fin 7} {l l' : Fin 256}
    (he : e = e') (hwp : wp = wp') (hbp : bp = bp') (hw4 : w4 = w4') (hwd : wd = wd') (hbr : br = br')
    (hn : n = n') (hl : l = l') :
    laneVal e wp bp w4 wd br n l = laneVal e' wp' bp' w4' wd' br' n' l' := by
  subst he hwp hbp hw4 hwd hbr hn hl; rfl

/-- Blocks that hold the arguments' entries at offset 1024·tv give, at local row r, the row specification at row
    1024·tv + r. -/
theorem GB_eq_G2 (ctx : ACtx.Idx → EReal) (wp : AW4.Idx → EReal) (bp : AB.Idx → EReal) (wr : AW5.Idx → EReal)
    (br : AB.Idx → EReal) (x0 : BCtx.Idx → EReal) (x1 : AW4.Idx → EReal) (x2 : AB.Idx → EReal) (x3 : AW4.Idx → EReal)
    (x4 x5 : AB.Idx → EReal) (tv : Nat)
    (h0 : ∀ (k : Fin 28) (r : Fin 1024) (q : Fin 16384), q.val = 1024 * tv + r.val → x0 (ix2 k r) = ctx (ix2 k q))
    (h1 : ∀ (d : Fin 4) (h : Fin 128), x1 (ix2 d h) = wp (ix2 d h)) (h2 : ∀ h : Fin 128, x2 (ix1 h) = bp (ix1 h))
    (h3 : ∀ (d : Fin 4) (h : Fin 128), x3 (ix2 d h) = wr (ix2 d.castSucc h))
    (h4 : ∀ h : Fin 128, x4 (ix1 h) = wr (ix2 (4 : Fin 5) h)) (h5 : ∀ h : Fin 128, x5 (ix1 h) = br (ix1 h))
    (r : Fin 1024) (l : Fin 1792) (q : Fin 16384) (hq : q.val = 1024 * tv + r.val) :
    GB x0 x1 x2 x3 x4 x5 (ix2 r l) = G2 ctx wp bp wr br (ix2 q l) := by
  unfold GB G2
  exact laneVal_congr (funext fun n => funext fun d => h0 _ r q hq) (funext fun d => funext fun h => h1 d h)
    (funext h2) (funext fun d => funext fun h => h3 d h) (funext h4) (funext h5) rfl rfl

/-- Point t's block of a 16384 x 1792 array: rows 1024·t + r, all 1792 columns. -/
theorem read_blk6 (A : S16384x1792.Idx → EReal) (t : Fin cfg0.N) :
    (((cfg0.win 6).blk t).view.read (Elt Ideal) A : S1024x1792.Idx → EReal)
      = fun j => A (ix2 (⟨1024 * t.val + (j 0).val, by have := lt16 t; have h0 : (j 0).val < 1024 := (j 0).isLt; omega⟩ : Fin 16384)
          (⟨(j 1).val, (j 1).isLt⟩ : Fin 1792)) := by
  obtain ⟨-, -, -, -, -, -, -, -, -, e0, e1⟩ := idx_facts t
  funext j
  rw [View.read_apply]
  show A _ = A _
  refine congrArg A (funext fun a => Fin.ext ?_)
  match a with
  | ⟨0, _⟩ => show win0_6.index t (0 : Fin 2) * 1024 + 1 * (j 0).val = 1024 * t.val + (j 0).val; rw [e0]; omega
  | ⟨1, _⟩ => show win0_6.index t (1 : Fin 2) * 1792 + 1 * (j 1).val = (j 1).val; rw [e1]; omega

/-- What point t writes back is the row specification of the arguments read through point t's block. -/
theorem flushed_eq (hbody : HBody) (c : Dev nD) (t : Fin cfg0.N) :
    (dats m 0 c).flushed 6 t = ((cfg0.win 6).blk t).view.read (Elt Ideal) (G2 (m ((c : Thread nD τ).loc main_arg0)) (m ((c : Thread nD τ).loc main_arg1)) (m ((c : Thread nD τ).loc main_arg2)) (m ((c : Thread nD τ).loc main_arg3)) (m ((c : Thread nD τ).loc main_arg4))) := by
  show (cfg0.win 6).cut (grid0.coords t) ((dats m 0 c).after 6 t) = _
  rw [after0_6, hbody (iblk m c 0 t) (iblk m c 1 t) (iblk m c 2 t) (iblk m c 3 t) (iblk m c 4 t) (iblk m c 5 t)]
  refine Eq.trans ?_ (read_blk6 (G2 (m ((c : Thread nD τ).loc main_arg0)) (m ((c : Thread nD τ).loc main_arg1)) (m ((c : Thread nD τ).loc main_arg2)) (m ((c : Thread nD τ).loc main_arg3)) (m ((c : Thread nD τ).loc main_arg4))) t).symm
  show (GB (iblk m c 0 t) (iblk m c 1 t) (iblk m c 2 t) (iblk m c 3 t) (iblk m c 4 t) (iblk m c 5 t) : S1024x1792.Idx → EReal) = _
  funext j
  obtain ⟨r, l, rfl⟩ : ∃ (r : Fin 1024) (l : Fin 1792), j = ix2 r l := ⟨j 0, j 1, eq_ix2 j⟩
  exact GB_eq_G2 (m ((c : Thread nD τ).loc main_arg0)) (m ((c : Thread nD τ).loc main_arg1)) (m ((c : Thread nD τ).loc main_arg2)) (m ((c : Thread nD τ).loc main_arg3)) (m ((c : Thread nD τ).loc main_arg4)) (iblk m c 0 t) (iblk m c 1 t) (iblk m c 2 t) (iblk m c 3 t) (iblk m c 4 t) (iblk m c 5 t) t.val
    (fun k r q hq => iblk0_apply m c t k r q hq) (fun d h => iblk1_apply m c t d h) (fun h => iblk2_apply m c t h)
    (fun d h => iblk3_apply m c t d h) (fun h => iblk4_apply m c t h) (fun h => iblk5_apply m c t h)
    r l ⟨1024 * t.val + r.val, by have := lt16 t; have := r.isLt; omega⟩ rfl

/-! ## The blocks cover the output -/

/-- An index of the output is in point t's block iff each coordinate is in the block's range on its axis. -/
theorem mem_blk6 (t : Fin cfg0.N) (i : S16384x1792.Idx) :
    i ∈ ((cfg0.win 6).blk t).view.set ↔ ∀ a : Fin 2, win0_6.index t a * S1024x1792.size a ≤ (i a).val
      ∧ (i a).val < win0_6.index t a * S1024x1792.size a + S1024x1792.size a := by
  show i ∈ ((View.whole main_v3).slice (win0_6.rect t)).set ↔ _
  rw [View.set_slice_whole, Rect.mem_set_unit]
  exact Iff.rfl

/-- Row b lies in the block of point b / 1024. -/
theorem cover (i : S16384x1792.Idx) :
    ∃ t : Fin cfg0.N, (cfg0.win 6).flush t = true ∧ i ∈ ((cfg0.win 6).blk t).view.set := by
  have hi0 : (i 0).val < 16384 := (i 0).isLt
  have hi1 : (i 1).val < 1792 := (i 1).isLt
  obtain ⟨t, ht⟩ : ∃ t : Fin cfg0.N, t.val = (i 0).val / 1024 :=
    ⟨⟨(i 0).val / 1024, by rw [show cfg0.N = 16 from N_0]; omega⟩, rfl⟩
  obtain ⟨-, -, -, -, -, -, -, -, -, e0, e1⟩ := idx_facts t
  refine ⟨t, flush0_6 t, ?_⟩
  rw [mem_blk6]
  intro a
  match a with
  | ⟨0, _⟩ =>
    show win0_6.index t (0 : Fin 2) * 1024 ≤ (i 0).val ∧ (i 0).val < win0_6.index t (0 : Fin 2) * 1024 + 1024
    rw [e0, ht]; omega
  | ⟨1, _⟩ =>
    show win0_6.index t (1 : Fin 2) * 1792 ≤ (i 1).val ∧ (i 1).val < win0_6.index t (1 : Fin 2) * 1792 + 1792
    rw [e1]; omega

/-- The output array after the run is the row specification of the arguments. -/
theorem final (hbody : HBody) (c : Dev nD) : (dats m 0 c).arrAt 6 cfg0.N = (G2 (m ((c : Thread nD τ).loc main_arg0)) (m ((c : Thread nD τ).loc main_arg1)) (m ((c : Thread nD τ).loc main_arg2)) (m ((c : Thread nD τ).loc main_arg3)) (m ((c : Thread nD τ).loc main_arg4))) :=
  (dats m 0 c).arrAt_eq_of_cover 6 (G2 (m ((c : Thread nD τ).loc main_arg0)) (m ((c : Thread nD τ).loc main_arg1)) (m ((c : Thread nD τ).loc main_arg2)) (m ((c : Thread nD τ).loc main_arg3)) (m ((c : Thread nD τ).loc main_arg4))) (fun t _ => flushed_eq m hbody c t) cover

/-! ## The reshape after the grid -/

/-- Entry (b, n, l) of the reshaped array is entry (b, 256·n + l) of the matrix, and there the row specification
    is the encoder: (256·n + l) / 256 = n, (256·n + l) mod 256 = l. -/
theorem reshape_G2 (ctx : ACtx.Idx → EReal) (wp : AW4.Idx → EReal) (bp : AB.Idx → EReal) (wr : AW5.Idx → EReal)
    (br : AB.Idx → EReal) :
    shapeCast S16384x7x256 (G2 ctx wp bp wr br) shapeCasts_S16384x1792_S16384x7x256 = Cert.Enc.G ctx wp bp wr br := by
  funext y
  obtain ⟨b, n, l, rfl⟩ : ∃ (b : Fin 16384) (n : Fin 7) (l : Fin 256), y = ix3 b n l := ⟨y 0, y 1, y 2, eq_ix3 y⟩
  have hb := b.isLt; have hn := n.isLt; have hl := l.isLt
  rw [shapeCast_apply (G2 ctx wp bp wr br) shapeCasts_S16384x1792_S16384x7x256 (ix3 b n l)
    (ix2 b (⟨256 * n.val + l.val, by omega⟩ : Fin 1792))
    (by rewrite [Shape.rowMajor_val_two, Shape.rowMajor_val_three]
        show b.val * 1792 + (256 * n.val + l.val) = (b.val * 7 + n.val) * 256 + l.val; omega),
    G_apply]
  unfold G2
  refine laneVal_congr rfl rfl rfl rfl rfl rfl (Fin.ext ?_) (Fin.ext ?_)
  · show (256 * n.val + l.val) / 256 = n.val; omega
  · show (256 * n.val + l.val) % 256 = l.val; omega

/-- The result buffer after the run: the reshape of the output array, which is the encoder of the arguments. -/
theorem tail_eq (hbody : HBody) (c : Dev nD) :
    (Pipeline.afterTail₀ cfgs (dats m) 0 (V0 m) [hostOps1] c main_v4 : S16384x7x256.Idx → EReal) = (Cert.Enc.G (m ((c : Thread nD τ).loc main_arg0)) (m ((c : Thread nD τ).loc main_arg1)) (m ((c : Thread nD τ).loc main_arg2)) (m ((c : Thread nD τ).loc main_arg3)) (m ((c : Thread nD τ).loc main_arg4))) := by
  unfold Pipeline.afterTail₀
  show StableHlo.after hostOps1 _ (Proc.devRef .tc main_v4) = _
  after_results
  refine Eq.trans ?_ (reshape_G2 (m ((c : Thread nD τ).loc main_arg0)) (m ((c : Thread nD τ).loc main_arg1)) (m ((c : Thread nD τ).loc main_arg2)) (m ((c : Thread nD τ).loc main_arg3)) (m ((c : Thread nD τ).loc main_arg4)))
  exact congrArg (fun A : S16384x1792.Idx → EReal => shapeCast S16384x7x256 A shapeCasts_S16384x1792_S16384x7x256)
    ((Pipeline.withArrays_arr spec0 launch0.win.arr_inj c _ _ 6).trans (final m hbody c))

/-! ## The run -/

/-- Every weakly fair execution of the kernel terminates with the result buffer at the encoder of the argument
    arrays, the arguments unchanged. -/
theorem kernel_run
    (hbody : ∀ (x0 : Vec Ideal S28x1024 .f32) (x1 : Vec Ideal S4x128 .f32) (x2 : Vec Ideal S128 .f32) (x3 : Vec Ideal S4x128 .f32)
      (x4 : Vec Ideal S128 .f32) (x5 : Vec Ideal S128 .f32),
      Cert.KernelIdeal.GenP.out0_6 (F := Ideal) x0 x1 x2 x3 x4 x5 = Cert.Enc.Row.GB x0 x1 x2 x3 x4 x5)
    (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v4)
          = Cert.Enc.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
              (m ((c.tc : Thread Cert.KernelIdeal.nD Cert.KernelIdeal.τ).loc Cert.KernelIdeal.main_arg3)) (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run defs _ _).mono (fun _ h c =>
    ⟨((h c).2 main_v4 (Pipeline.mem_restRefs_of main_v4 (by decide) (by decide))).trans (tail_eq m hbody c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 5).trans (((dats m 0 c).arrAt_in 5 rfl _).trans ((A_eq m c 5).trans (V_main_arg4 m c)))⟩)
    (run_main m ρ)

end Cert.Enc.Arr

end
-- ==== Proof.RefIsG.lean ====
/-
  The reference program's result, read one operation at a time, is the encoder `Cert.Enc.G`.

  The stages, each read at an index with explicit coordinates:
  * the entities: transposing ctx and reshaping its 28 columns as 7 × 4 puts coordinate d of entity n of
    row b at ctx (4n + d, b), because ((7b + n)·4 + d) mod 28 = 4n + d and ((7b + n)·4 + d) / 28 = b;
  * the property half: a four-term contraction with w_prop, the bias, and the maximum with zero;
  * the pairwise differences ent(i,d) − ent(j,d), the planar distance from their first two coordinates,
    and the five features (four differences, then the distance) joined along the last axis;
  * the relation embedding: the five-term contraction with w_rel splits into the four difference terms
    plus distance · w_rel(4,·), then the bias and the maximum with zero;
  * the mask 1 − [i = j]: multiplying by it keeps every off-diagonal term and turns the diagonal one into
    x · 0 = 0 (true for every extended real x), so the sum over j is the sum over the six other entities;
  * the last join puts the property half on lanes below 128 and the relation half on lanes 128 … 255.
-/
import proofs.«172666_j28845000360164_2_alg».proof.Proof.Gen.ReferenceIdeal.Read
import proofs.«172666_j28845000360164_2_alg».proof.Proof.Spec
import Idealize.ShloMosaic.Lib.IdealHost

noncomputable section

namespace Cert.Enc.Ref

open Cert.ReferenceIdeal Cert.ReferenceIdeal.Gen Cert.ReferenceIdeal.Read
open Idealize.ShloMosaic Idealize.ShloMosaic.ValueIdx
open scoped BigOperators

/-! ## The entities -/

/-- Transpose then reshape: coordinate `d` of entity `n` in row `b` is ctx at (4n + d, b). -/
theorem ents_apply (x0 : (⟨S28x16384, .f32⟩ : BufTy).Contents (Elt Ideal)) (b : Fin 16384) (n : Fin 7) (d : Fin 4) :
    val_main_v1 (F := Ideal) x0 (ix3 b n d) = ent x0 b n d := by
  rw [val_main_v1_apply, val_main_v0_apply]
  unfold ent
  refine congrArg x0 (funext fun a => Fin.ext ?_)
  have hb := b.isLt; have hn := n.isLt; have hd := d.isLt
  match a with
  | ⟨0, _⟩ => show ((b.val * 7 + n.val) * 4 + d.val) % 28 = 4 * n.val + d.val; omega
  | ⟨1, _⟩ => show ((b.val * 7 + n.val) * 4 + d.val) / 28 = b.val; omega

/-! ## The property half -/

/-- The contraction with w_prop, the bias, the maximum with zero. -/
theorem prop_apply (x0 : (⟨S28x16384, .f32⟩ : BufTy).Contents (Elt Ideal)) (x1 : (⟨S4x128, .f32⟩ : BufTy).Contents (Elt Ideal)) (x2 : (⟨S128, .f32⟩ : BufTy).Contents (Elt Ideal)) (b : Fin 16384) (n : Fin 7) (h : Fin 128) :
    val_main_v6 (F := Ideal) x0 x1 x2 (ix3 b n h) = prop x0 x1 x2 b n h := by
  have el : ∀ k : Fin 4, lidx_main_v2 (ix3 b n h) k = ix3 b n k := fun k =>
    funext fun a => Fin.ext (by match a with | ⟨0, _⟩ => rfl | ⟨1, _⟩ => rfl | ⟨2, _⟩ => rfl)
  have er : ∀ k : Fin 4, ridx_main_v2 (ix3 b n h) k = ix2 k h := fun k =>
    funext fun a => Fin.ext (by match a with | ⟨0, _⟩ => rfl | ⟨1, _⟩ => rfl)
  have eb : idx_main_v3 (idx_main_v4 (ix3 b n h)) = ix1 h :=
    funext fun a => Fin.ext (by match a with | ⟨0, _⟩ => rfl)
  rw [val_main_v6_apply, val_main_v5_apply, val_main_v2_apply, val_main_v4_apply, val_main_v3_apply,
    val_main_call0_v0_apply, val_main_call0_cst_apply, eb]
  simp only [el, er, ents_apply, Ideal.maximumf_def, Ideal.addf_def, Ideal.ofBits_def, Ideal.ofBits_zero_f32]
  rfl

/-! ## The pairwise differences, the planar distance, the five features -/

/-- Entity `i` along the second axis, entity `j` along the third: the difference of their coordinates. -/
theorem diffs_apply (x0 : (⟨S28x16384, .f32⟩ : BufTy).Contents (Elt Ideal)) (b : Fin 16384) (i j : Fin 7) (d : Fin 4) :
    val_main_v11 (F := Ideal) x0 (ix4 b i j d) = ent x0 b i d - ent x0 b j d := by
  have e9 : idx_main_v7 (idx_main_v9 (ix4 b i j d)) = ix3 b i d :=
    funext fun a => Fin.ext (by match a with | ⟨0, _⟩ => rfl | ⟨1, _⟩ => rfl | ⟨2, _⟩ => rfl)
  have e10 : idx_main_v8 (idx_main_v10 (ix4 b i j d)) = ix3 b j d :=
    funext fun a => Fin.ext (by match a with | ⟨0, _⟩ => rfl | ⟨1, _⟩ => rfl | ⟨2, _⟩ => rfl)
  rw [val_main_v11_apply, val_main_v9_apply, val_main_v7_apply, val_main_v10_apply, val_main_v8_apply, e9, e10,
    ents_apply, ents_apply]
  rfl

/-- The square root of the first two squared differences. -/
theorem dist_apply (x0 : (⟨S28x16384, .f32⟩ : BufTy).Contents (Elt Ideal)) (b : Fin 16384) (i j : Fin 7) :
    val_main_v19 (F := Ideal) x0 (ix3 b i j) = dist x0 b i j := by
  have hb := b.isLt; have hi := i.isLt; have hj := j.isLt
  have e0 : idx_main_v12 (idx_main_v13 (ix3 b i j)) = ix4 b i j (0 : Fin 4) :=
    funext fun a => Fin.ext (by
      match a with
      | ⟨0, _⟩ => show ((b.val * 7 + i.val) * 7 + j.val) / 49 = b.val; omega
      | ⟨1, _⟩ => show ((b.val * 7 + i.val) * 7 + j.val) / 7 % 7 = i.val; omega
      | ⟨2, _⟩ => show ((b.val * 7 + i.val) * 7 + j.val) / 1 % 7 = j.val; omega
      | ⟨3, _⟩ => rfl)
  have e1 : idx_main_v15 (idx_main_v16 (ix3 b i j)) = ix4 b i j (1 : Fin 4) :=
    funext fun a => Fin.ext (by
      match a with
      | ⟨0, _⟩ => show ((b.val * 7 + i.val) * 7 + j.val) / 49 = b.val; omega
      | ⟨1, _⟩ => show ((b.val * 7 + i.val) * 7 + j.val) / 7 % 7 = i.val; omega
      | ⟨2, _⟩ => show ((b.val * 7 + i.val) * 7 + j.val) / 1 % 7 = j.val; omega
      | ⟨3, _⟩ => rfl)
  rw [val_main_v19_apply, val_main_v18_apply, val_main_v14_apply, val_main_v17_apply, val_main_v13_apply,
    val_main_v12_apply, val_main_v16_apply, val_main_v15_apply, e0, e1, diffs_apply, diffs_apply]
  rfl

/-- The first four features are the differences. -/
theorem feats_diff (x0 : (⟨S28x16384, .f32⟩ : BufTy).Contents (Elt Ideal)) (b : Fin 16384) (i j : Fin 7) (d : Fin 4) :
    val_main_v21 (F := Ideal) x0 (ix4 b i j d.castSucc) = ent x0 b i d - ent x0 b j d := by
  unfold val_main_v21
  refine (concatenate_pair_apply_left (t := S16384x7x7x5) (s₁ := S16384x7x7x4) (s₂ := S16384x7x7x1) _ _ _ _
    (ix4 b i j d.castSucc) rfl (ix4 b i j d) ?_).trans
    (diffs_apply x0 b i j d)
  intro a
  match a with | ⟨0, _⟩ => rfl | ⟨1, _⟩ => rfl | ⟨2, _⟩ => rfl | ⟨3, _⟩ => rfl

/-- The fifth feature is the distance. -/
theorem feats_dist (x0 : (⟨S28x16384, .f32⟩ : BufTy).Contents (Elt Ideal)) (b : Fin 16384) (i j : Fin 7) :
    val_main_v21 (F := Ideal) x0 (ix4 b i j (Fin.last 4)) = dist x0 b i j := by
  have e : idx_main_v20 (ix4 b i j (0 : Fin 1)) = ix3 b i j :=
    funext fun a => Fin.ext (by match a with | ⟨0, _⟩ => rfl | ⟨1, _⟩ => rfl | ⟨2, _⟩ => rfl)
  unfold val_main_v21
  refine (concatenate_pair_apply_right (t := S16384x7x7x5) (s₁ := S16384x7x7x4) (s₂ := S16384x7x7x1) _ _ _ _
    (ix4 b i j (Fin.last 4)) rfl rfl (ix4 b i j (0 : Fin 1)) ?_ ?_).trans ?_
  · intro a ha
    match a with
    | ⟨0, _⟩ => rfl
    | ⟨1, _⟩ => rfl
    | ⟨2, _⟩ => rfl
    | ⟨3, _⟩ => exact (ha rfl).elim
  · rfl
  · rw [val_main_v20_apply, e]
    exact dist_apply x0 b i j

/-! ## The relation embedding of an ordered pair -/

/-- The five-term contraction is the four difference terms plus distance · w_rel(4,·); then the bias and
    the maximum with zero. -/
theorem rel_apply (x0 : (⟨S28x16384, .f32⟩ : BufTy).Contents (Elt Ideal)) (x3 : (⟨S5x128, .f32⟩ : BufTy).Contents (Elt Ideal)) (x4 : (⟨S128, .f32⟩ : BufTy).Contents (Elt Ideal)) (b : Fin 16384) (i j : Fin 7) (h : Fin 128) :
    val_main_v26 (F := Ideal) x0 x3 x4 (ix4 b i j h) = rel x0 x3 x4 b i j h := by
  have el : ∀ k : Fin 5, lidx_main_v22 (ix4 b i j h) k = ix4 b i j k := fun k =>
    funext fun a => Fin.ext (by match a with | ⟨0, _⟩ => rfl | ⟨1, _⟩ => rfl | ⟨2, _⟩ => rfl | ⟨3, _⟩ => rfl)
  have er : ∀ k : Fin 5, ridx_main_v22 (ix4 b i j h) k = ix2 k h := fun k =>
    funext fun a => Fin.ext (by match a with | ⟨0, _⟩ => rfl | ⟨1, _⟩ => rfl)
  have eb : idx_main_v23 (idx_main_v24 (ix4 b i j h)) = ix1 h :=
    funext fun a => Fin.ext (by match a with | ⟨0, _⟩ => rfl)
  rw [val_main_v26_apply, val_main_v25_apply, val_main_v22_apply, val_main_v24_apply, val_main_v23_apply,
    val_main_call1_v0_apply, val_main_call1_cst_apply, eb]
  simp only [el, er]
  rw [Fin.sum_univ_castSucc]
  simp only [feats_diff, feats_dist, Ideal.maximumf_def, Ideal.addf_def, Ideal.ofBits_def, Ideal.ofBits_zero_f32]
  rfl

/-! ## The off-diagonal mask and the sum over the other entities -/

/-- The one-bit word of the comparison `i + 0 = j` of two entity numbers read as 32-bit integers. -/
theorem diag_word (i j : Fin 7) :
    IntOp.cmpi .eq (IntOp.addi (BitVec.ofNat 32 i.val) 0#32) (BitVec.ofNat 32 j.val) = if j = i then 1#1 else 0#1 := by
  revert i j; decide

/-- The mask is 1 − [i = j]: zero on the diagonal, one off it. -/
theorem mask_apply (b : Fin 16384) (i j : Fin 7) (h : Fin 128) :
    val_main_v36 (F := Ideal) (ix4 b i j h) = if j = i then 0 else 1 := by
  have e : idx_main_v35 (idx_main_v36 (ix4 b i j h)) = ix2 i j :=
    funext fun a => Fin.ext (by match a with | ⟨0, _⟩ => rfl | ⟨1, _⟩ => rfl)
  rw [val_main_v36_apply, val_main_v35_apply, e, val_main_v34_apply, val_main_v33_apply, val_main_cst_apply,
    val_main_v32_apply, val_main_v31_apply, val_main_v30_apply, val_main_v27_apply, val_main_v28_apply,
    val_main_v29_apply, val_main_c_apply]
  show (Ideal.ofBits .f32 0x3F800000#32 : EReal)
    - (((IntOp.cmpi .eq (IntOp.addi (BitVec.ofNat 32 i.val) 0#32) (BitVec.ofNat 32 j.val)).toNat : ℝ) : EReal) = _
  rw [diag_word, Ideal.ofBits_one_f32]
  by_cases hij : j = i
  · rw [if_pos hij, if_pos hij]
    show (1 : EReal) - (((1 : ℕ) : ℝ) : EReal) = 0
    rw [Nat.cast_one, EReal.coe_one]
    exact EReal.sub_self (by decide) (by decide)
  · rw [if_neg hij, if_neg hij]
    show (1 : EReal) - (((0 : ℕ) : ℝ) : EReal) = 1
    rw [Nat.cast_zero, EReal.coe_zero, sub_zero]

/-- The sum over j of rel(i,j) · mask(i,j), from zero, is the sum over the six other entities: the diagonal
    term is x · 0 = 0 for every extended real x. -/
theorem relsum_apply (x0 : (⟨S28x16384, .f32⟩ : BufTy).Contents (Elt Ideal)) (x3 : (⟨S5x128, .f32⟩ : BufTy).Contents (Elt Ideal)) (x4 : (⟨S128, .f32⟩ : BufTy).Contents (Elt Ideal)) (b : Fin 16384) (i : Fin 7) (h : Fin 128) :
    val_main_v38 (F := Ideal) x0 x3 x4 (ix3 b i h) = relsum x0 x3 x4 b i h := by
  have e : ∀ k : Fin 7, idx_main_v38 (ix3 b i h) k = ix4 b i k h := fun k =>
    funext fun a => Fin.ext (by match a with | ⟨0, _⟩ => rfl | ⟨1, _⟩ => rfl | ⟨2, _⟩ => rfl | ⟨3, _⟩ => rfl)
  rw [val_main_v38_apply, val_main_cst_0_apply]
  simp only [e, val_main_v37_apply, rel_apply, mask_apply, Ideal.mulf_def, Ideal.ofBits_def, Ideal.ofBits_zero_f32,
    zero_add]
  unfold relsum
  refine Finset.sum_congr rfl fun j _ => ?_
  by_cases hj : j = i
  · rw [if_pos hj, if_pos hj, mul_zero]
  · rw [if_neg hj, if_neg hj, mul_one]

/-! ## The result -/

/-- The reference program's result is the encoder: the last join reads the property half on lanes below 128
    and the relation half, at the lane less 128, on the others. -/
theorem ref_eq (x0 : (⟨S28x16384, .f32⟩ : BufTy).Contents (Elt Ideal)) (x1 : (⟨S4x128, .f32⟩ : BufTy).Contents (Elt Ideal)) (x2 : (⟨S128, .f32⟩ : BufTy).Contents (Elt Ideal)) (x3 : (⟨S5x128, .f32⟩ : BufTy).Contents (Elt Ideal)) (x4 : (⟨S128, .f32⟩ : BufTy).Contents (Elt Ideal)) :
    val_main_v39 (F := Ideal) x0 x1 x2 x3 x4 = G x0 x1 x2 x3 x4 := by
  funext y
  unfold val_main_v39 G
  by_cases hy : (y 2).val < 128
  · rw [dif_pos hy]
    refine (concatenate_pair_apply_left (t := S16384x7x256) (s₁ := S16384x7x128) (s₂ := S16384x7x128) _ _ _ _
      y rfl (ix3 (y 0 : Fin 16384) (y 1 : Fin 7) (⟨(y 2).val, hy⟩ : Fin 128)) ?_).trans
      (prop_apply x0 x1 x2 (y 0) (y 1) ⟨(y 2).val, hy⟩)
    intro a
    match a with | ⟨0, _⟩ => rfl | ⟨1, _⟩ => rfl | ⟨2, _⟩ => rfl
  · rw [dif_neg hy]
    have h2 : (y 2).val < 256 := (y 2).isLt
    refine (concatenate_pair_apply_right (t := S16384x7x256) (s₁ := S16384x7x128) (s₂ := S16384x7x128) _ _ _ _
      y rfl rfl (ix3 (y 0 : Fin 16384) (y 1 : Fin 7) (⟨(y 2).val - 128, by omega⟩ : Fin 128)) ?_ ?_).trans
      (relsum_apply x0 x3 x4 (y 0) (y 1) ⟨(y 2).val - 128, by omega⟩)
    · intro a ha
      match a with
      | ⟨0, _⟩ => rfl
      | ⟨1, _⟩ => rfl
      | ⟨2, _⟩ => exact (ha rfl).elim
    · show (y 2).val - 128 + 128 = (y 2).val
      omega

end Cert.Enc.Ref

end
-- ==== Proof.lean ====
/-
  The entity encoder kernel against its jnp reference, on the extended reals.

  Both programs compute, for every batch row b and entity n, 256 lanes: the rectified property layer
  max (Σ_d ent(n,d) · w_prop(d,h) + b_prop(h)) 0, then the sum over the six other entities j of the rectified relation
  layer max (Σ_{d<4} (ent(n,d) − ent(j,d)) · w_rel(d,h) + dist(n,j) · w_rel(4,h) + b_rel(h)) 0 (`Cert.Enc.G`, Proof/Spec.lean).
  The kernel works on blocks of 1024 batch rows: it computes all 42 planar distances at once before transposing, splits the
  five-row relation weights into four difference rows and one distance row outside the body (a five-term contraction is
  its first four terms plus the fifth), adds the six relation layers up from zero, and stores one entity's lanes at a
  time; the reference forms all 49 ordered pairs, contracts the five features at once, and multiplies the diagonal pairs
  by zero before summing over seven. The two agree by commutativity and associativity of + on the extended reals and
  x · 0 = 0, x · 1 = x, which hold at every extended real: finiteness of the inputs is never used.

  * Proof/Terms.lean, Proof/Dist.lean, Proof/Stores.lean, Proof/BlockValue.lean, Proof/BodyValue.lean: the body's output block as one function of the blocks read;
  * Proof/KernelArray.lean: from blocks to the whole output array, through the reshape that follows the region;
  * Proof/RefIsG.lean: the reference's result is the same function;
  * Proof/FramePatchedKernel.lean, Proof/FramePatchedKernelIdeal.lean: the two kernels' frames (they run, fault nowhere, keep their arguments).
-/
import proofs.«172666_j28845000360164_2_alg».proof.Defs
import proofs.«172666_j28845000360164_2_alg».proof.Proof.Gen.Kernel
import proofs.«172666_j28845000360164_2_alg».proof.Proof.Gen.Kernel.Skeleton
import proofs.«172666_j28845000360164_2_alg».proof.Proof.Gen.Kernel.Launch
import proofs.«172666_j28845000360164_2_alg».proof.Proof.Gen.Kernel.Points
import proofs.«172666_j28845000360164_2_alg».proof.Proof.FramePatchedKernel
import proofs.«172666_j28845000360164_2_alg».proof.Proof.Gen.KernelIdeal
import proofs.«172666_j28845000360164_2_alg».proof.Proof.Gen.KernelIdeal.Skeleton
import proofs.«172666_j28845000360164_2_alg».proof.Proof.Gen.KernelIdeal.Launch
import proofs.«172666_j28845000360164_2_alg».proof.Proof.Gen.KernelIdeal.Points
import proofs.«172666_j28845000360164_2_alg».proof.Proof.FramePatchedKernelIdeal
import proofs.«172666_j28845000360164_2_alg».proof.Proof.Gen.ReferenceIdeal
import proofs.«172666_j28845000360164_2_alg».proof.Proof.Gen.ReferenceIdeal.Run
import proofs.«172666_j28845000360164_2_alg».proof.Proof.Gen.ReferenceIdeal.Read
import proofs.«172666_j28845000360164_2_alg».proof.Proof.Gen.Pre_finite_inputs
import proofs.«172666_j28845000360164_2_alg».proof.Proof.BodyValue
import proofs.«172666_j28845000360164_2_alg».proof.Proof.KernelArray
import proofs.«172666_j28845000360164_2_alg».proof.Proof.RefIsG
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.GenP.frame m ρ

/-- So does the kernel read on the extended reals. -/
theorem frame_kernelIdeal : Cert.frame_KernelIdeal := fun m ρ _ => Cert.KernelIdeal.GenP.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Run from memories agreeing on the arguments, the kernel and the reference both end with the encoder `Cert.Enc.G` of
    the arguments as their result. -/
theorem algebraic : Cert.algebraic_KernelIdeal_ReferenceIdeal := by
  intro m ρ m' ρ' _ hagree
  refine ⟨_, Cert.Enc.Arr.kernel_run Cert.Enc.K.body_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.Enc.Ref.ref_eq, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
